-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v148)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v148) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S320000x128 : Shape := ⟨2, ![320000, 128]⟩
abbrev S960000x2 : Shape := ⟨2, ![960000, 2]⟩
abbrev S128x128 : Shape := ⟨2, ![128, 128]⟩
abbrev S128 : Shape := ⟨1, ![128]⟩
abbrev S128x3 : Shape := ⟨2, ![128, 3]⟩
abbrev S3 : Shape := ⟨1, ![3]⟩
abbrev S_ : Shape := ⟨0, ![]⟩

class Facts : Prop where
  bcast_S_S320000x128 : S_.BroadcastsInDim S320000x128 (![] : Fin 0 → Fin S320000x128.rank)
  reducesTo_S320000x128_S_d0_1 : S320000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_arg15 : FVec F S3 .f32) (main_arg16 : FVec F S128x3 .f32) (main_arg17 : FVec F S3 .f32) (main_v63 : IVec S_ 1) (main_v67 : IVec S_ 1) : IVec S_ 1 :=
  let main_v68 : IVec S_ 1 := andi main_v63 main_v67
  let main_v69 : FVec F S3 .f32 := Host.absf main_arg15
  let main_cst_26 : FVec F S_ .f32 := constant S_ .f32 0x7F800000#32
  let main_v70 : FVec F S3 .f32 := broadcastInDim S3 ![] bcast_S_S3 main_cst_26
  let main_v71 : IVec S3 1 := cmpf .olt main_v69 main_v70
  let main_c_27 : IVec S_ 1 := constantI S_ 1 1#1
  let main_v72 : IVec S_ 1 := (fun x v => Host.reduce IntOp.andi x v reducesTo_S3_S_d0 h_S_) main_v71 main_c_27
  let main_v73 : IVec S_ 1 := andi main_v68 main_v72
  let main_v74 : FVec F S128x3 .f32 := Host.absf main_arg16
  let main_cst_28 : FVec F S_ .f32 := constant S_ .f32 0x7F800000#32
  let main_v75 : FVec F S128x3 .f32 := broadcastInDim S128x3 ![] bcast_S_S128x3 main_cst_28
  let main_v76 : IVec S128x3 1 := cmpf .olt main_v74 main_v75
  let main_c_29 : IVec S_ 1 := constantI S_ 1 1#1
  let main_v77 : IVec S_ 1 := (fun x v => Host.reduce IntOp.andi x v reducesTo_S128x3_S_d0_1 h_S_) main_v76 main_c_29
  let main_v78 : IVec S_ 1 := andi main_v73 main_v77
  let main_v79 : FVec F S3 .f32 := Host.absf main_arg17
  let main_cst_30 : FVec F S_ .f32 := constant S_ .f32 0x7F800000#32
  let main_v80 : FVec F S3 .f32 := broadcastInDim S3 ![] bcast_S_S3 main_cst_30
  let main_v81 : IVec S3 1 := cmpf .olt main_v79 main_v80
  let main_c_31 : IVec S_ 1 := constantI S_ 1 1#1
  let main_v82 : IVec S_ 1 := (fun x v => Host.reduce IntOp.andi x v reducesTo_S3_S_d0 h_S_) main_v81 main_c_31
  let main_v83 : IVec S_ 1 := andi main_v78 main_v82
  main_v83

def fn_part3 {F : FTy → Type} [FloatOps F] (main_arg12 : FVec F S128x128 .f32) (main_arg13 : FVec F S128 .f32) (main_arg14 : FVec F S128x3 .f32) (main_arg15 : FVec F S3 .f32) (main_arg16 : FVec F S128x3 .f32) (main_arg17 : FVec F S3 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x3 .f32 := Host.absf main_arg14
  let main_cst_24 : FVec F S_ .f32 := constant S_ .f32 0x7F800000#32
  let main_v65 : FVec F S128x3 .f32 := broadcastInDim S128x3 ![] bcast_S_S128x3 main_cst_24
  let main_v66 : IVec S128x3 1 := cmpf .olt main_v64 main_v65
  let main_c_25 : IVec S_ 1 := constantI S_ 1 1#1
  let main_v67 : IVec S_ 1 := (fun x v => Host.reduce IntOp.andi x v reducesTo_S128x3_S_d0_1 h_S_) main_v66 main_c_25
  fn_part4 (F := F) main_arg15 main_arg16 main_arg17 main_v63 main_v67

def fn_part2 {F : FTy → Type} [FloatOps F] (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x3 .f32) (main_arg15 : FVec F S3 .f32) (main_arg16 : FVec F S128x3 .f32) (main_arg17 : FVec F S3 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x3 .f32) (main_arg15 : FVec F S3 .f32) (main_arg16 : FVec F S128x3 .f32) (main_arg17 : FVec F S3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S320000x128 .f32) (main_arg1 : IVec S960000x2 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x3 .f32) (main_arg15 : FVec F S3 .f32) (main_arg16 : FVec F S128x3 .f32) (main_arg17 : FVec F S3 .f32) : IVec S_ 1 :=
  let main_v0 : FVec F S320000x128 .f32 := Host.absf main_arg0
  let main_cst : FVec F S_ .f32 := constant S_ .f32 0x7F800000#32
  let main_v1 : FVec F S320000x128 .f32 := broadcastInDim S320000x128 ![] bcast_S_S320000x128 main_cst
  let main_v2 : IVec S320000x128 1 := cmpf .olt main_v0 main_v1
  let main_c : IVec S_ 1 := constantI S_ 1 1#1
  let main_v3 : IVec S_ 1 := (fun x v => Host.reduce IntOp.andi x v reducesTo_S320000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S320000x128 : Shape := ⟨2, ![320000, 128]⟩
abbrev S960000x2 : Shape := ⟨2, ![960000, 2]⟩
abbrev S128x128 : Shape := ⟨2, ![128, 128]⟩
abbrev S128 : Shape := ⟨1, ![128]⟩
abbrev S128x3 : Shape := ⟨2, ![128, 3]⟩
abbrev S3 : Shape := ⟨1, ![3]⟩
abbrev S1x128 : Shape := ⟨2, ![1, 128]⟩
abbrev S6400x128 : Shape := ⟨2, ![6400, 128]⟩
abbrev S960000x1 : Shape := ⟨2, ![960000, 1]⟩
abbrev S960000 : Shape := ⟨1, ![960000]⟩
abbrev S_ : Shape := ⟨0, ![]⟩
abbrev S960000x128 : Shape := ⟨2, ![960000, 128]⟩
abbrev S1x3 : Shape := ⟨2, ![1, 3]⟩
abbrev S320000x3 : Shape := ⟨2, ![320000, 3]⟩
abbrev S6400x3 : Shape := ⟨2, ![6400, 3]⟩
abbrev S960000x3 : Shape := ⟨2, ![960000, 3]⟩
abbrev S2x4x40000x3 : Shape := ⟨4, ![2, 4, 40000, 3]⟩

abbrev nBuf : Space → Nat
  | .hbm => 207
  | .vmem => 66
  | .smem => 0
  | _ => 0

abbrev hbmTy0_0 (i : Nat) : BufTy := match i % 128 with
  | 0 => ⟨S320000x128, .f32⟩
  | 1 => ⟨S960000x2, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x3, .f32⟩
  | 15 => ⟨S3, .f32⟩
  | 16 => ⟨S128x3, .f32⟩
  | 17 => ⟨S3, .f32⟩
  | 18 => ⟨S1x128, .f32⟩
  | 19 => ⟨S1x128, .f32⟩
  | 20 => ⟨S320000x128, .f32⟩
  | 21 => ⟨S320000x128, .f32⟩
  | 22 => ⟨S960000x1, .i32⟩
  | 23 => ⟨S960000, .i32⟩
  | 24 => ⟨S960000x1, .i32⟩
  | 25 => ⟨S960000, .i32⟩
  | 26 => ⟨S_, .f32⟩
  | 27 => ⟨S320000x128, .f32⟩
  | 28 => ⟨S_, .i32⟩
  | 29 => ⟨S960000, .i32⟩
  | 30 => ⟨S960000, .i1⟩
  | 31 => ⟨S_, .i32⟩
  | 32 => ⟨S960000, .i32⟩
  | 33 => ⟨S960000, .i32⟩
  | 34 => ⟨S960000, .i32⟩
  | 35 => ⟨S960000x1, .i32⟩
  | 36 => ⟨S960000x128, .f32⟩
  | 37 => ⟨S_, .i32⟩
  | 38 => ⟨S960000, .i32⟩
  | 39 => ⟨S960000, .i1⟩
  | 40 => ⟨S_, .i32⟩
  | 41 => ⟨S960000, .i32⟩
  | 42 => ⟨S960000, .i32⟩
  | 43 => ⟨S960000, .i32⟩
  | 44 => ⟨S960000x1, .i32⟩
  | 45 => ⟨S320000x128, .f32⟩
  | 46 => ⟨S_, .i32⟩
  | 47 => ⟨S960000, .i32⟩
  | 48 => ⟨S960000, .i1⟩
  | 49 => ⟨S_, .i32⟩
  | 50 => ⟨S960000, .i32⟩
  | 51 => ⟨S960000, .i32⟩
  | 52 => ⟨S960000, .i32⟩
  | 53 => ⟨S960000x1, .i32⟩
  | 54 => ⟨S960000x128, .f32⟩
  | 55 => ⟨S_, .i32⟩
  | 56 => ⟨S960000, .i32⟩
  | 57 => ⟨S960000, .i1⟩
  | 58 => ⟨S_, .i32⟩
  | 59 => ⟨S960000, .i32⟩
  | 60 => ⟨S960000, .i32⟩
  | 61 => ⟨S960000, .i32⟩
  | 62 => ⟨S960000x1, .i32⟩
  | 63 => ⟨S320000x128, .f32⟩
  | 64 => ⟨S320000x128, .f32⟩
  | 65 => ⟨S1x128, .f32⟩
  | 66 => ⟨S1x128, .f32⟩
  | 67 => ⟨S320000x128, .f32⟩
  | 68 => ⟨S320000x128, .f32⟩
  | 69 => ⟨S960000x1, .i32⟩
  | 70 => ⟨S960000, .i32⟩
  | 71 => ⟨S960000x1, .i32⟩
  | 72 => ⟨S960000, .i32⟩
  | 73 => ⟨S_, .f32⟩
  | 74 => ⟨S320000x128, .f32⟩
  | 75 => ⟨S_, .i32⟩
  | 76 => ⟨S960000, .i32⟩
  | 77 => ⟨S960000, .i1⟩
  | 78 => ⟨S_, .i32⟩
  | 79 => ⟨S960000, .i32⟩
  | 80 => ⟨S960000, .i32⟩
  | 81 => ⟨S960000, .i32⟩
  | 82 => ⟨S960000x1, .i32⟩
  | 83 => ⟨S960000x128, .f32⟩
  | 84 => ⟨S_, .i32⟩
  | 85 => ⟨S960000, .i32⟩
  | 86 => ⟨S960000, .i1⟩
  | 87 => ⟨S_, .i32⟩
  | 88 => ⟨S960000, .i32⟩
  | 89 => ⟨S960000, .i32⟩
  | 90 => ⟨S960000, .i32⟩
  | 91 => ⟨S960000x1, .i32⟩
  | 92 => ⟨S320000x128, .f32⟩
  | 93 => ⟨S_, .i32⟩
  | 94 => ⟨S960000, .i32⟩
  | 95 => ⟨S960000, .i1⟩
  | 96 => ⟨S_, .i32⟩
  | 97 => ⟨S960000, .i32⟩
  | 98 => ⟨S960000, .i32⟩
  | 99 => ⟨S960000, .i32⟩
  | 100 => ⟨S960000x1, .i32⟩
  | 101 => ⟨S960000x128, .f32⟩
  | 102 => ⟨S_, .i32⟩
  | 103 => ⟨S960000, .i32⟩
  | 104 => ⟨S960000, .i1⟩
  | 105 => ⟨S_, .i32⟩
  | 106 => ⟨S960000, .i32⟩
  | 107 => ⟨S960000, .i32⟩
  | 108 => ⟨S960000, .i32⟩
  | 109 => ⟨S960000x1, .i32⟩
  | 110 => ⟨S320000x128, .f32⟩
  | 111 => ⟨S320000x128, .f32⟩
  | 112 => ⟨S1x128, .f32⟩
  | 113 => ⟨S1x128, .f32⟩
  | 114 => ⟨S320000x128, .f32⟩
  | 115 => ⟨S320000x128, .f32⟩
  | 116 => ⟨S960000x1, .i32⟩
  | 117 => ⟨S960000, .i32⟩
  | 118 => ⟨S960000x1, .i32⟩
  | 119 => ⟨S960000, .i32⟩
  | 120 => ⟨S_, .f32⟩
  | 121 => ⟨S320000x128, .f32⟩
  | 122 => ⟨S_, .i32⟩
  | 123 => ⟨S960000, .i32⟩
  | 124 => ⟨S960000, .i1⟩
  | 125 => ⟨S_, .i32⟩
  | 126 => ⟨S960000, .i32⟩
  | 127 => ⟨S960000, .i32⟩
  | _ => ⟨S320000x128, .f32⟩

abbrev hbmTy0_1 (i : Nat) : BufTy := match i % 128 with
  | 0 => ⟨S960000, .i32⟩
  | 1 => ⟨S960000x1, .i32⟩
  | 2 => ⟨S960000x128, .f32⟩
  | 3 => ⟨S_, .i32⟩
  | 4 => ⟨S960000, .i32⟩
  | 5 => ⟨S960000, .i1⟩
  | 6 => ⟨S_, .i32⟩
  | 7 => ⟨S960000, .i32⟩
  | 8 => ⟨S960000, .i32⟩
  | 9 => ⟨S960000, .i32⟩
  | 10 => ⟨S960000x1, .i32⟩
  | 11 => ⟨S320000x128, .f32⟩
  | 12 => ⟨S_, .i32⟩
  | 13 => ⟨S960000, .i32⟩
  | 14 => ⟨S960000, .i1⟩
  | 15 => ⟨S_, .i32⟩
  | 16 => ⟨S960000, .i32⟩
  | 17 => ⟨S960000, .i32⟩
  | 18 => ⟨S960000, .i32⟩
  | 19 => ⟨S960000x1, .i32⟩
  | 20 => ⟨S960000x128, .f32⟩
  | 21 => ⟨S_, .i32⟩
  | 22 => ⟨S960000, .i32⟩
  | 23 => ⟨S960000, .i1⟩
  | 24 => ⟨S_, .i32⟩
  | 25 => ⟨S960000, .i32⟩
  | 26 => ⟨S960000, .i32⟩
  | 27 => ⟨S960000, .i32⟩
  | 28 => ⟨S960000x1, .i32⟩
  | 29 => ⟨S320000x128, .f32⟩
  | 30 => ⟨S320000x128, .f32⟩
  | 31 => ⟨S1x3, .f32⟩
  | 32 => ⟨S1x3, .f32⟩
  | 33 => ⟨S320000x3, .f32⟩
  | 34 => ⟨S320000x3, .f32⟩
  | 35 => ⟨S960000x1, .i32⟩
  | 36 => ⟨S960000, .i32⟩
  | 37 => ⟨S960000x1, .i32⟩
  | 38 => ⟨S960000, .i32⟩
  | 39 => ⟨S_, .f32⟩
  | 40 => ⟨S320000x3, .f32⟩
  | 41 => ⟨S_, .i32⟩
  | 42 => ⟨S960000, .i32⟩
  | 43 => ⟨S960000, .i1⟩
  | 44 => ⟨S_, .i32⟩
  | 45 => ⟨S960000, .i32⟩
  | 46 => ⟨S960000, .i32⟩
  | 47 => ⟨S960000, .i32⟩
  | 48 => ⟨S960000x1, .i32⟩
  | 49 => ⟨S960000x3, .f32⟩
  | 50 => ⟨S_, .i32⟩
  | 51 => ⟨S960000, .i32⟩
  | 52 => ⟨S960000, .i1⟩
  | 53 => ⟨S_, .i32⟩
  | 54 => ⟨S960000, .i32⟩
  | 55 => ⟨S960000, .i32⟩
  | 56 => ⟨S960000, .i32⟩
  | 57 => ⟨S960000x1, .i32⟩
  | 58 => ⟨S320000x3, .f32⟩
  | 59 => ⟨S_, .i32⟩
  | 60 => ⟨S960000, .i32⟩
  | 61 => ⟨S960000, .i1⟩
  | 62 => ⟨S_, .i32⟩
  | 63 => ⟨S960000, .i32⟩
  | 64 => ⟨S960000, .i32⟩
  | 65 => ⟨S960000, .i32⟩
  | 66 => ⟨S960000x1, .i32⟩
  | 67 => ⟨S960000x3, .f32⟩
  | 68 => ⟨S_, .i32⟩
  | 69 => ⟨S960000, .i32⟩
  | 70 => ⟨S960000, .i1⟩
  | 71 => ⟨S_, .i32⟩
  | 72 => ⟨S960000, .i32⟩
  | 73 => ⟨S960000, .i32⟩
  | 74 => ⟨S960000, .i32⟩
  | 75 => ⟨S960000x1, .i32⟩
  | 76 => ⟨S320000x3, .f32⟩
  | 77 => ⟨S320000x3, .f32⟩
  | 78 => ⟨S2x4x40000x3, .f32⟩
  | _ => ⟨S320000x128, .f32⟩

abbrev hbmTy (i : Nat) : BufTy := match i / 128 with
  | 0 => hbmTy0_0 i
  | 1 => hbmTy0_1 i
  | _ => ⟨S320000x128, .f32⟩

abbrev bufTy : (tb : Table) → Fin (tcTables nBuf tb) → BufTy
  | .hbm, ⟨i, _⟩ => hbmTy i
  | .local _ .vmem, ⟨0, _⟩ => ⟨S6400x128, .f32⟩
  | .local _ .vmem, ⟨1, _⟩ => ⟨S6400x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S6400x128, .f32⟩
  | .local _ .vmem, ⟨7, _⟩ => ⟨S6400x128, .f32⟩
  | .local _ .vmem, ⟨8, _⟩ => ⟨S6400x128, .f32⟩
  | .local _ .vmem, ⟨9, _⟩ => ⟨S6400x128, .f32⟩
  | .local _ .vmem, ⟨10, _⟩ => ⟨S6400x128, .f32⟩
  | .local _ .vmem, ⟨11, _⟩ => ⟨S6400x128, .f32⟩
  | .local _ .vmem, ⟨12, _⟩ => ⟨S6400x128, .f32⟩
  | .local _ .vmem, ⟨13, _⟩ => ⟨S6400x128, .f32⟩
  | .local _ .vmem, ⟨14, _⟩ => ⟨S6400x128, .f32⟩
  | .local _ .vmem, ⟨15, _⟩ => ⟨S6400x128, .f32⟩
  | .local _ .vmem, ⟨16, _⟩ => ⟨S6400x128, .f32⟩
  | .local _ .vmem, ⟨17, _⟩ => ⟨S6400x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S6400x128, .f32⟩
  | .local _ .vmem, ⟨23, _⟩ => ⟨S6400x128, .f32⟩
  | .local _ .vmem, ⟨24, _⟩ => ⟨S6400x128, .f32⟩
  | .local _ .vmem, ⟨25, _⟩ => ⟨S6400x128, .f32⟩
  | .local _ .vmem, ⟨26, _⟩ => ⟨S6400x128, .f32⟩
  | .local _ .vmem, ⟨27, _⟩ => ⟨S6400x128, .f32⟩
  | .local _ .vmem, ⟨28, _⟩ => ⟨S6400x128, .f32⟩
  | .local _ .vmem, ⟨29, _⟩ => ⟨S6400x128, .f32⟩
  | .local _ .vmem, ⟨30, _⟩ => ⟨S6400x128, .f32⟩
  | .local _ .vmem, ⟨31, _⟩ => ⟨S6400x128, .f32⟩
  | .local _ .vmem, ⟨32, _⟩ => ⟨S6400x128, .f32⟩
  | .local _ .vmem, ⟨33, _⟩ => ⟨S6400x128, .f32⟩
  | .local _ .vmem, ⟨34, _⟩ => ⟨S128x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S6400x128, .f32⟩
  | .local _ .vmem, ⟨39, _⟩ => ⟨S6400x128, .f32⟩
  | .local _ .vmem, ⟨40, _⟩ => ⟨S6400x128, .f32⟩
  | .local _ .vmem, ⟨41, _⟩ => ⟨S6400x128, .f32⟩
  | .local _ .vmem, ⟨42, _⟩ => ⟨S6400x128, .f32⟩
  | .local _ .vmem, ⟨43, _⟩ => ⟨S6400x128, .f32⟩
  | .local _ .vmem, ⟨44, _⟩ => ⟨S6400x128, .f32⟩
  | .local _ .vmem, ⟨45, _⟩ => ⟨S6400x128, .f32⟩
  | .local _ .vmem, ⟨46, _⟩ => ⟨S6400x128, .f32⟩
  | .local _ .vmem, ⟨47, _⟩ => ⟨S6400x128, .f32⟩
  | .local _ .vmem, ⟨48, _⟩ => ⟨S6400x128, .f32⟩
  | .local _ .vmem, ⟨49, _⟩ => ⟨S6400x128, .f32⟩
  | .local _ .vmem, ⟨50, _⟩ => ⟨S6400x128, .f32⟩
  | .local _ .vmem, ⟨51, _⟩ => ⟨S6400x128, .f32⟩
  | .local _ .vmem, ⟨52, _⟩ => ⟨S128x3, .f32⟩
  | .local _ .vmem, ⟨53, _⟩ => ⟨S1x3, .f32⟩
  | .local _ .vmem, ⟨54, _⟩ => ⟨S128x3, .f32⟩
  | .local _ .vmem, ⟨55, _⟩ => ⟨S1x3, .f32⟩
  | .local _ .vmem, ⟨56, _⟩ => ⟨S6400x3, .f32⟩
  | .local _ .vmem, ⟨57, _⟩ => ⟨S6400x3, .f32⟩
  | .local _ .vmem, ⟨58, _⟩ => ⟨S6400x3, .f32⟩
  | .local _ .vmem, ⟨59, _⟩ => ⟨S6400x3, .f32⟩
  | .local _ .vmem, ⟨60, _⟩ => ⟨S6400x3, .f32⟩
  | .local _ .vmem, ⟨61, _⟩ => ⟨S6400x3, .f32⟩
  | .local _ .vmem, ⟨62, _⟩ => ⟨S6400x3, .f32⟩
  | .local _ .vmem, ⟨63, _⟩ => ⟨S6400x3, .f32⟩
  | .local _ .vmem, ⟨64, _⟩ => ⟨S6400x3, .f32⟩
  | .local _ .vmem, ⟨65, _⟩ => ⟨S6400x3, .f32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2_0 : Ref sig .tc := ⟨.hbm, 20, rfl⟩
abbrev main_v2_1 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_c : Ref sig .tc := ⟨.hbm, 28, rfl⟩
abbrev main_v8 : Ref sig .tc := ⟨.hbm, 29, rfl⟩
abbrev main_v9 : Ref sig .tc := ⟨.hbm, 30, rfl⟩
abbrev main_c_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_1 : Ref sig .tc := ⟨.hbm, 37, rfl⟩
abbrev main_v15 : Ref sig .tc := ⟨.hbm, 38, rfl⟩
abbrev main_v16 : Ref sig .tc := ⟨.hbm, 39, rfl⟩
abbrev main_c_2 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_3 : Ref sig .tc := ⟨.hbm, 46, rfl⟩
abbrev main_v22 : Ref sig .tc := ⟨.hbm, 47, rfl⟩
abbrev main_v23 : Ref sig .tc := ⟨.hbm, 48, rfl⟩
abbrev main_c_4 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_5 : Ref sig .tc := ⟨.hbm, 55, rfl⟩
abbrev main_v29 : Ref sig .tc := ⟨.hbm, 56, rfl⟩
abbrev main_v30 : Ref sig .tc := ⟨.hbm, 57, rfl⟩
abbrev main_c_6 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39_0 : Ref sig .tc := ⟨.hbm, 67, rfl⟩
abbrev main_v39_1 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_7 : Ref sig .tc := ⟨.hbm, 73, rfl⟩
abbrev main_v44 : Ref sig .tc := ⟨.hbm, 74, rfl⟩
abbrev main_c_8 : Ref sig .tc := ⟨.hbm, 75, rfl⟩
abbrev main_v45 : Ref sig .tc := ⟨.hbm, 76, rfl⟩
abbrev main_v46 : Ref sig .tc := ⟨.hbm, 77, rfl⟩
abbrev main_c_9 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_c_10 : Ref sig .tc := ⟨.hbm, 84, rfl⟩
abbrev main_v52 : Ref sig .tc := ⟨.hbm, 85, rfl⟩
abbrev main_v53 : Ref sig .tc := ⟨.hbm, 86, rfl⟩
abbrev main_c_11 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_c_12 : Ref sig .tc := ⟨.hbm, 93, rfl⟩
abbrev main_v59 : Ref sig .tc := ⟨.hbm, 94, rfl⟩
abbrev main_v60 : Ref sig .tc := ⟨.hbm, 95, rfl⟩
abbrev main_c_13 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_c_14 : Ref sig .tc := ⟨.hbm, 102, rfl⟩
abbrev main_v66 : Ref sig .tc := ⟨.hbm, 103, rfl⟩
abbrev main_v67 : Ref sig .tc := ⟨.hbm, 104, rfl⟩
abbrev main_c_15 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76_0 : Ref sig .tc := ⟨.hbm, 114, rfl⟩
abbrev main_v76_1 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_16 : Ref sig .tc := ⟨.hbm, 120, rfl⟩
abbrev main_v81 : Ref sig .tc := ⟨.hbm, 121, rfl⟩
abbrev main_c_17 : Ref sig .tc := ⟨.hbm, 122, rfl⟩
abbrev main_v82 : Ref sig .tc := ⟨.hbm, 123, rfl⟩
abbrev main_v83 : Ref sig .tc := ⟨.hbm, 124, rfl⟩
abbrev main_c_18 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_c_19 : Ref sig .tc := ⟨.hbm, 131, rfl⟩
abbrev main_v89 : Ref sig .tc := ⟨.hbm, 132, rfl⟩
abbrev main_v90 : Ref sig .tc := ⟨.hbm, 133, rfl⟩
abbrev main_c_20 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_c_21 : Ref sig .tc := ⟨.hbm, 140, rfl⟩
abbrev main_v96 : Ref sig .tc := ⟨.hbm, 141, rfl⟩
abbrev main_v97 : Ref sig .tc := ⟨.hbm, 142, rfl⟩
abbrev main_c_22 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_c_23 : Ref sig .tc := ⟨.hbm, 149, rfl⟩
abbrev main_v103 : Ref sig .tc := ⟨.hbm, 150, rfl⟩
abbrev main_v104 : Ref sig .tc := ⟨.hbm, 151, rfl⟩
abbrev main_c_24 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113_0 : Ref sig .tc := ⟨.hbm, 161, rfl⟩
abbrev main_v113_1 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_cst_25 : Ref sig .tc := ⟨.hbm, 167, rfl⟩
abbrev main_v118 : Ref sig .tc := ⟨.hbm, 168, rfl⟩
abbrev main_c_26 : Ref sig .tc := ⟨.hbm, 169, rfl⟩
abbrev main_v119 : Ref sig .tc := ⟨.hbm, 170, rfl⟩
abbrev main_v120 : Ref sig .tc := ⟨.hbm, 171, rfl⟩
abbrev main_c_27 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_c_28 : Ref sig .tc := ⟨.hbm, 178, rfl⟩
abbrev main_v126 : Ref sig .tc := ⟨.hbm, 179, rfl⟩
abbrev main_v127 : Ref sig .tc := ⟨.hbm, 180, rfl⟩
abbrev main_c_29 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_c_30 : Ref sig .tc := ⟨.hbm, 187, rfl⟩
abbrev main_v133 : Ref sig .tc := ⟨.hbm, 188, rfl⟩
abbrev main_v134 : Ref sig .tc := ⟨.hbm, 189, rfl⟩
abbrev main_c_31 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_c_32 : Ref sig .tc := ⟨.hbm, 196, rfl⟩
abbrev main_v140 : Ref sig .tc := ⟨.hbm, 197, rfl⟩
abbrev main_v141 : Ref sig .tc := ⟨.hbm, 198, rfl⟩
abbrev main_c_33 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg5_1 : Ref sig .tc := ⟨.vmem, 39, rfl⟩
abbrev cc4_stg6_0 : Ref sig .tc := ⟨.vmem, 40, rfl⟩
abbrev cc4_stg6_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc5_stg3_0 : Ref sig .tc := ⟨.vmem, 48, rfl⟩
abbrev cc5_stg3_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg2_0 : Ref sig .tc := ⟨.vmem, 53, rfl⟩
abbrev cc6_stg3_0 : Ref sig .tc := ⟨.vmem, 54, rfl⟩
abbrev cc6_stg4_0 : Ref sig .tc := ⟨.vmem, 55, rfl⟩
abbrev cc6_stg5_0 : Ref sig .tc := ⟨.vmem, 56, rfl⟩
abbrev cc6_stg5_1 : Ref sig .tc := ⟨.vmem, 57, rfl⟩
abbrev cc6_stg6_0 : Ref sig .tc := ⟨.vmem, 58, rfl⟩
abbrev cc6_stg6_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg1_1 : Ref sig .tc := ⟨.vmem, 63, rfl⟩
abbrev cc7_stg2_0 : Ref sig .tc := ⟨.vmem, 64, rfl⟩
abbrev cc7_stg2_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc2_sem6_0 : DmaSem sig := 24
abbrev cc2_sem6_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem4_0 : DmaSem sig := 37
abbrev cc4_sem5_0 : DmaSem sig := 38
abbrev cc4_sem5_1 : DmaSem sig := 39
abbrev cc4_sem6_0 : DmaSem sig := 40
abbrev cc4_sem6_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47
abbrev cc5_sem3_0 : DmaSem sig := 48
abbrev cc5_sem3_1 : DmaSem sig := 49
abbrev cc6_sem0_0 : DmaSem sig := 50
abbrev cc6_sem0_1 : DmaSem sig := 51
abbrev cc6_sem1_0 : DmaSem sig := 52
abbrev cc6_sem2_0 : DmaSem sig := 53
abbrev cc6_sem3_0 : DmaSem sig := 54
abbrev cc6_sem4_0 : DmaSem sig := 55
abbrev cc6_sem5_0 : DmaSem sig := 56
abbrev cc6_sem5_1 : DmaSem sig := 57
abbrev cc6_sem6_0 : DmaSem sig := 58
abbrev cc6_sem6_1 : DmaSem sig := 59
abbrev cc7_sem0_0 : DmaSem sig := 60
abbrev cc7_sem0_1 : DmaSem sig := 61
abbrev cc7_sem1_0 : DmaSem sig := 62
abbrev cc7_sem1_1 : DmaSem sig := 63
abbrev cc7_sem2_0 : DmaSem sig := 64
abbrev cc7_sem2_1 : DmaSem sig := 65

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S6400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S6400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S6400x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S6400x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6400x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6400x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S6400x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6400x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S6400x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S6400x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S6400x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S6400x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S6400x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S6400x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S6400x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x3 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x3 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x3 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x3 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S6400x3 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S6400x3 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S6400x3 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S6400x3 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S6400x3 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  shapeCasts_S128_S1x128 : S128.ShapeCasts S1x128
  inb_S6400x128_S6400x128_0_0 : ∀ a, (![0, 0] : Fin 2 → Nat) a + S6400x128.size a ≤ S6400x128.size a
  h_S6400x128 : 0 < S6400x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  slices_S960000x2_S960000x1_0_0 : S960000x2.Slices ![0, 0] S960000x1
  shapeCasts_S960000x1_S960000 : S960000x1.ShapeCasts S960000
  slices_S960000x2_S960000x1_0_1 : S960000x2.Slices ![0, 1] S960000x1
  bcast_S_S320000x128 : S_.BroadcastsInDim S320000x128 (![] : Fin 0 → Fin S320000x128.rank)
  bcast_S_S960000 : S_.BroadcastsInDim S960000 (![] : Fin 0 → Fin S960000.rank)
  bcast_S960000_S960000x1_0 : S960000.BroadcastsInDim S960000x1 (![0] : Fin 1 → Fin S960000x1.rank)
  shapeCasts_S6400x128_S6400x128 : S6400x128.ShapeCasts S6400x128
  shapeCasts_S3_S1x3 : S3.ShapeCasts S1x3
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S6400x3 : S1x3.Broadcasts S6400x3
  inb_S6400x3_S6400x3_0_0 : ∀ a, (![0, 0] : Fin 2 → Nat) a + S6400x3.size a ≤ S6400x3.size a
  h_S6400x3 : 0 < S6400x3.numel
  bcast_S_S320000x3 : S_.BroadcastsInDim S320000x3 (![] : Fin 0 → Fin S320000x3.rank)
  shapeCasts_S6400x3_S6400x3 : S6400x3.ShapeCasts S6400x3
  shapeCasts_S320000x3_S2x4x40000x3 : S320000x3.ShapeCasts S2x4x40000x3
  dot_S6400x128_S128x128_S6400x128_1_0_0_1_n_n_wf : DotDims.WF S6400x128 S128x128 S6400x128 [1] [0] [0] [1] [] []
  gather_S320000x128_S960000x1_S960000x128_1_0_n_n_0_1_1128_wf : GatherDims.WF S320000x128 S960000x1 S960000x128 [1] [0] [] [0] [] 1 ![1, 128]
  scatter_S320000x128_S960000x1_S960000x128_1_0_0_1_wf : ScatterDims.WF S320000x128 S960000x1 S960000x128 [1] [0] [0] 1
  dot_S6400x128_S128x3_S6400x3_1_0_0_1_n_n_wf : DotDims.WF S6400x128 S128x3 S6400x3 [1] [0] [0] [1] [] []
  gather_S320000x3_S960000x1_S960000x3_1_0_n_n_0_1_13_wf : GatherDims.WF S320000x3 S960000x1 S960000x3 [1] [0] [] [0] [] 1 ![1, 3]
  scatter_S320000x3_S960000x1_S960000x3_1_0_0_1_wf : ScatterDims.WF S320000x3 S960000x1 S960000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S320000x128.size a
  hwx0_0 : ∀ i : grid0.Coords, EltTy.bits .f32 = 32 ∨ (Rect.block (s := S320000x128) S6400x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6400x128.size a ≤ S320000x128.size a
  hwx0_5 : ∀ i : grid0.Coords, EltTy.bits .f32 = 32 ∨ (Rect.block (s := S320000x128) S6400x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S6400x128.size a ≤ S320000x128.size a
  hwx0_6 : ∀ i : grid0.Coords, EltTy.bits .f32 = 32 ∨ (Rect.block (s := S320000x128) S6400x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x128.size a ≤ S320000x128.size a
  hwx1_0 : ∀ i : grid1.Coords, EltTy.bits .f32 = 32 ∨ (Rect.block (s := S320000x128) S6400x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x128.size a ≤ S320000x128.size a
  hwx1_1 : ∀ i : grid1.Coords, EltTy.bits .f32 = 32 ∨ (Rect.block (s := S320000x128) S6400x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6400x128.size a ≤ S320000x128.size a
  hwx1_2 : ∀ i : grid1.Coords, EltTy.bits .f32 = 32 ∨ (Rect.block (s := S320000x128) S6400x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x128.size a ≤ S320000x128.size a
  hwx2_0 : ∀ i : grid2.Coords, EltTy.bits .f32 = 32 ∨ (Rect.block (s := S320000x128) S6400x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S6400x128.size a ≤ S320000x128.size a
  hwx2_5 : ∀ i : grid2.Coords, EltTy.bits .f32 = 32 ∨ (Rect.block (s := S320000x128) S6400x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S6400x128.size a ≤ S320000x128.size a
  hwx2_6 : ∀ i : grid2.Coords, EltTy.bits .f32 = 32 ∨ (Rect.block (s := S320000x128) S6400x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6400x128.size a ≤ S320000x128.size a
  hwx3_0 : ∀ i : grid3.Coords, EltTy.bits .f32 = 32 ∨ (Rect.block (s := S320000x128) S6400x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6400x128.size a ≤ S320000x128.size a
  hwx3_1 : ∀ i : grid3.Coords, EltTy.bits .f32 = 32 ∨ (Rect.block (s := S320000x128) S6400x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S6400x128.size a ≤ S320000x128.size a
  hwx3_2 : ∀ i : grid3.Coords, EltTy.bits .f32 = 32 ∨ (Rect.block (s := S320000x128) S6400x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6400x128.size a ≤ S320000x128.size a
  hwx4_0 : ∀ i : grid4.Coords, EltTy.bits .f32 = 32 ∨ (Rect.block (s := S320000x128) S6400x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S6400x128.size a ≤ S320000x128.size a
  hwx4_5 : ∀ i : grid4.Coords, EltTy.bits .f32 = 32 ∨ (Rect.block (s := S320000x128) S6400x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S6400x128.size a ≤ S320000x128.size a
  hwx4_6 : ∀ i : grid4.Coords, EltTy.bits .f32 = 32 ∨ (Rect.block (s := S320000x128) S6400x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S6400x128.size a ≤ S320000x128.size a
  hwx5_0 : ∀ i : grid5.Coords, EltTy.bits .f32 = 32 ∨ (Rect.block (s := S320000x128) S6400x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S6400x128.size a ≤ S320000x128.size a
  hwx5_1 : ∀ i : grid5.Coords, EltTy.bits .f32 = 32 ∨ (Rect.block (s := S320000x128) S6400x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S6400x128.size a ≤ S320000x128.size a
  hwx5_2 : ∀ i : grid5.Coords, EltTy.bits .f32 = 32 ∨ (Rect.block (s := S320000x128) S6400x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S6400x128.size a ≤ S320000x128.size a
  hwx5_3 : ∀ i : grid5.Coords, EltTy.bits .f32 = 32 ∨ (Rect.block (s := S320000x128) S6400x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S6400x128.size a ≤ S320000x128.size a
  hwx6_0 : ∀ i : grid6.Coords, EltTy.bits .f32 = 32 ∨ (Rect.block (s := S320000x128) S6400x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x3.size a ≤ S128x3.size a
  hwx6_1 : ∀ i : grid6.Coords, EltTy.bits .f32 = 32 ∨ (Rect.block (s := S128x3) S128x3.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x3.size a ≤ S1x3.size a
  hwx6_2 : ∀ i : grid6.Coords, EltTy.bits .f32 = 32 ∨ (Rect.block (s := S1x3) S1x3.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x3.size a ≤ S128x3.size a
  hwx6_3 : ∀ i : grid6.Coords, EltTy.bits .f32 = 32 ∨ (Rect.block (s := S128x3) S128x3.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x3.size a ≤ S1x3.size a
  hwx6_4 : ∀ i : grid6.Coords, EltTy.bits .f32 = 32 ∨ (Rect.block (s := S1x3) S1x3.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S6400x3.size a ≤ S320000x3.size a
  hwx6_5 : ∀ i : grid6.Coords, EltTy.bits .f32 = 32 ∨ (Rect.block (s := S320000x3) S6400x3.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S6400x3.size a ≤ S320000x3.size a
  hwx6_6 : ∀ i : grid6.Coords, EltTy.bits .f32 = 32 ∨ (Rect.block (s := S320000x3) S6400x3.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S6400x3.size a ≤ S320000x3.size a
  hwx7_0 : ∀ i : grid7.Coords, EltTy.bits .f32 = 32 ∨ (Rect.block (s := S320000x3) S6400x3.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S6400x3.size a ≤ S320000x3.size a
  hwx7_1 : ∀ i : grid7.Coords, EltTy.bits .f32 = 32 ∨ (Rect.block (s := S320000x3) S6400x3.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S6400x3.size a ≤ S320000x3.size a
  hwx7_2 : ∀ i : grid7.Coords, EltTy.bits .f32 = 32 ∨ (Rect.block (s := S320000x3) S6400x3.size (cc7_transform_2 i) (hinb7_2 i)).WholeWords (EltTy.packing .f32)

variable [Facts₀]

def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def gather_S320000x128_S960000x1_S960000x128_1_0_n_n_0_1_1128 : GatherDims S320000x128 S960000x1 S960000x128 where
  offsetDims := [1]
  collapsedSliceDims := [0]
  operandBatchingDims := []
  startIndicesBatchingDims := []
  startIndexMap := [0]
  indexVectorDim := 1
  sliceSizes := ![1, 128]
  wf := gather_S320000x128_S960000x1_S960000x128_1_0_n_n_0_1_1128_wf
def scatter_S320000x128_S960000x1_S960000x128_1_0_0_1 : ScatterDims S320000x128 S960000x1 S960000x128 where
  updateWindowDims := [1]
  insertedWindowDims := [0]
  scatterDimsToOperandDims := [0]
  indexVectorDim := 1
  wf := scatter_S320000x128_S960000x1_S960000x128_1_0_0_1_wf
def dot_S6400x128_S128x3_S6400x3_1_0_0_1_n_n : DotDims S6400x128 S128x3 S6400x3 where
  lhsContracting := [1]
  rhsContracting := [0]
  lhsNonContracting := [0]
  rhsNonContracting := [1]
  lhsBatch := []
  rhsBatch := []
  wf := dot_S6400x128_S128x3_S6400x3_1_0_0_1_n_n_wf
def gather_S320000x3_S960000x1_S960000x3_1_0_n_n_0_1_13 : GatherDims S320000x3 S960000x1 S960000x3 where
  offsetDims := [1]
  collapsedSliceDims := [0]
  operandBatchingDims := []
  startIndicesBatchingDims := []
  startIndexMap := [0]
  indexVectorDim := 1
  sliceSizes := ![1, 3]
  wf := gather_S320000x3_S960000x1_S960000x3_1_0_n_n_0_1_13_wf
def scatter_S320000x3_S960000x1_S960000x3_1_0_0_1 : ScatterDims S320000x3 S960000x1 S960000x3 where
  updateWindowDims := [1]
  insertedWindowDims := [0]
  scatterDimsToOperandDims := [0]
  indexVectorDim := 1
  wf := scatter_S320000x3_S960000x1_S960000x3_1_0_0_1_wf

abbrev win0_0 : Pipeline.Window sig grid0 :=
  Pipeline.Window.ofSpec (Memref.whole main_arg0) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S6400x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S6400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v2_0) S6400x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S6400x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S6400x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v36) S6400x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39_0) S6400x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v39_1) S6400x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v39_0) S6400x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S6400x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v73) S6400x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v73) S6400x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg12) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v75) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v76_0) S6400x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v76_1) S6400x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v76_0) S6400x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v109) S6400x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg0) S6400x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v110) S6400x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v110) S6400x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg14) S128x3.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v111) S1x3.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg16) S128x3.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v112) S1x3.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v113_0) S6400x3.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v113_1) S6400x3.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v113_0) S6400x3.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v146) S6400x3.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v147) S6400x3.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S320000x128 : Shape := ⟨2, ![320000, 128]⟩
abbrev S960000x2 : Shape := ⟨2, ![960000, 2]⟩
abbrev S128x128 : Shape := ⟨2, ![128, 128]⟩
abbrev S128 : Shape := ⟨1, ![128]⟩
abbrev S128x3 : Shape := ⟨2, ![128, 3]⟩
abbrev S3 : Shape := ⟨1, ![3]⟩
abbrev S1x128 : Shape := ⟨2, ![1, 128]⟩
abbrev S960000x1 : Shape := ⟨2, ![960000, 1]⟩
abbrev S960000 : Shape := ⟨1, ![960000]⟩
abbrev S_ : Shape := ⟨0, ![]⟩
abbrev S960000x128 : Shape := ⟨2, ![960000, 128]⟩
abbrev S320000x3 : Shape := ⟨2, ![320000, 3]⟩
abbrev S1x3 : Shape := ⟨2, ![1, 3]⟩
abbrev S960000x3 : Shape := ⟨2, ![960000, 3]⟩
abbrev S2x4x40000x3 : Shape := ⟨4, ![2, 4, 40000, 3]⟩

abbrev nBuf : Space → Nat
  | .hbm => 233
  | .vmem => 0
  | .smem => 0
  | _ => 0

abbrev hbmTy0_0 (i : Nat) : BufTy := match i % 128 with
  | 0 => ⟨S320000x128, .f32⟩
  | 1 => ⟨S960000x2, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x3, .f32⟩
  | 15 => ⟨S3, .f32⟩
  | 16 => ⟨S128x3, .f32⟩
  | 17 => ⟨S3, .f32⟩
  | 18 => ⟨S320000x128, .f32⟩
  | 19 => ⟨S1x128, .f32⟩
  | 20 => ⟨S320000x128, .f32⟩
  | 21 => ⟨S320000x128, .f32⟩
  | 22 => ⟨S320000x128, .f32⟩
  | 23 => ⟨S1x128, .f32⟩
  | 24 => ⟨S320000x128, .f32⟩
  | 25 => ⟨S320000x128, .f32⟩
  | 26 => ⟨S960000x1, .i32⟩
  | 27 => ⟨S960000, .i32⟩
  | 28 => ⟨S960000x1, .i32⟩
  | 29 => ⟨S960000, .i32⟩
  | 30 => ⟨S_, .f32⟩
  | 31 => ⟨S320000x128, .f32⟩
  | 32 => ⟨S_, .i32⟩
  | 33 => ⟨S960000, .i32⟩
  | 34 => ⟨S960000, .i1⟩
  | 35 => ⟨S_, .i32⟩
  | 36 => ⟨S960000, .i32⟩
  | 37 => ⟨S960000, .i32⟩
  | 38 => ⟨S960000, .i32⟩
  | 39 => ⟨S960000x1, .i32⟩
  | 40 => ⟨S960000x128, .f32⟩
  | 41 => ⟨S_, .i32⟩
  | 42 => ⟨S960000, .i32⟩
  | 43 => ⟨S960000, .i1⟩
  | 44 => ⟨S_, .i32⟩
  | 45 => ⟨S960000, .i32⟩
  | 46 => ⟨S960000, .i32⟩
  | 47 => ⟨S960000, .i32⟩
  | 48 => ⟨S960000x1, .i32⟩
  | 49 => ⟨S320000x128, .f32⟩
  | 50 => ⟨S_, .i32⟩
  | 51 => ⟨S960000, .i32⟩
  | 52 => ⟨S960000, .i1⟩
  | 53 => ⟨S_, .i32⟩
  | 54 => ⟨S960000, .i32⟩
  | 55 => ⟨S960000, .i32⟩
  | 56 => ⟨S960000, .i32⟩
  | 57 => ⟨S960000x1, .i32⟩
  | 58 => ⟨S960000x128, .f32⟩
  | 59 => ⟨S_, .i32⟩
  | 60 => ⟨S960000, .i32⟩
  | 61 => ⟨S960000, .i1⟩
  | 62 => ⟨S_, .i32⟩
  | 63 => ⟨S960000, .i32⟩
  | 64 => ⟨S960000, .i32⟩
  | 65 => ⟨S960000, .i32⟩
  | 66 => ⟨S960000x1, .i32⟩
  | 67 => ⟨S320000x128, .f32⟩
  | 68 => ⟨S320000x128, .f32⟩
  | 69 => ⟨S_, .f32⟩
  | 70 => ⟨S320000x128, .f32⟩
  | 71 => ⟨S320000x128, .f32⟩
  | 72 => ⟨S320000x128, .f32⟩
  | 73 => ⟨S1x128, .f32⟩
  | 74 => ⟨S320000x128, .f32⟩
  | 75 => ⟨S320000x128, .f32⟩
  | 76 => ⟨S320000x128, .f32⟩
  | 77 => ⟨S1x128, .f32⟩
  | 78 => ⟨S320000x128, .f32⟩
  | 79 => ⟨S320000x128, .f32⟩
  | 80 => ⟨S960000x1, .i32⟩
  | 81 => ⟨S960000, .i32⟩
  | 82 => ⟨S960000x1, .i32⟩
  | 83 => ⟨S960000, .i32⟩
  | 84 => ⟨S_, .f32⟩
  | 85 => ⟨S320000x128, .f32⟩
  | 86 => ⟨S_, .i32⟩
  | 87 => ⟨S960000, .i32⟩
  | 88 => ⟨S960000, .i1⟩
  | 89 => ⟨S_, .i32⟩
  | 90 => ⟨S960000, .i32⟩
  | 91 => ⟨S960000, .i32⟩
  | 92 => ⟨S960000, .i32⟩
  | 93 => ⟨S960000x1, .i32⟩
  | 94 => ⟨S960000x128, .f32⟩
  | 95 => ⟨S_, .i32⟩
  | 96 => ⟨S960000, .i32⟩
  | 97 => ⟨S960000, .i1⟩
  | 98 => ⟨S_, .i32⟩
  | 99 => ⟨S960000, .i32⟩
  | 100 => ⟨S960000, .i32⟩
  | 101 => ⟨S960000, .i32⟩
  | 102 => ⟨S960000x1, .i32⟩
  | 103 => ⟨S320000x128, .f32⟩
  | 104 => ⟨S_, .i32⟩
  | 105 => ⟨S960000, .i32⟩
  | 106 => ⟨S960000, .i1⟩
  | 107 => ⟨S_, .i32⟩
  | 108 => ⟨S960000, .i32⟩
  | 109 => ⟨S960000, .i32⟩
  | 110 => ⟨S960000, .i32⟩
  | 111 => ⟨S960000x1, .i32⟩
  | 112 => ⟨S960000x128, .f32⟩
  | 113 => ⟨S_, .i32⟩
  | 114 => ⟨S960000, .i32⟩
  | 115 => ⟨S960000, .i1⟩
  | 116 => ⟨S_, .i32⟩
  | 117 => ⟨S960000, .i32⟩
  | 118 => ⟨S960000, .i32⟩
  | 119 => ⟨S960000, .i32⟩
  | 120 => ⟨S960000x1, .i32⟩
  | 121 => ⟨S320000x128, .f32⟩
  | 122 => ⟨S320000x128, .f32⟩
  | 123 => ⟨S_, .f32⟩
  | 124 => ⟨S320000x128, .f32⟩
  | 125 => ⟨S320000x128, .f32⟩
  | 126 => ⟨S320000x128, .f32⟩
  | 127 => ⟨S1x128, .f32⟩
  | _ => ⟨S320000x128, .f32⟩

abbrev hbmTy0_1 (i : Nat) : BufTy := match i % 128 with
  | 0 => ⟨S320000x128, .f32⟩
  | 1 => ⟨S320000x128, .f32⟩
  | 2 => ⟨S320000x128, .f32⟩
  | 3 => ⟨S1x128, .f32⟩
  | 4 => ⟨S320000x128, .f32⟩
  | 5 => ⟨S320000x128, .f32⟩
  | 6 => ⟨S960000x1, .i32⟩
  | 7 => ⟨S960000, .i32⟩
  | 8 => ⟨S960000x1, .i32⟩
  | 9 => ⟨S960000, .i32⟩
  | 10 => ⟨S_, .f32⟩
  | 11 => ⟨S320000x128, .f32⟩
  | 12 => ⟨S_, .i32⟩
  | 13 => ⟨S960000, .i32⟩
  | 14 => ⟨S960000, .i1⟩
  | 15 => ⟨S_, .i32⟩
  | 16 => ⟨S960000, .i32⟩
  | 17 => ⟨S960000, .i32⟩
  | 18 => ⟨S960000, .i32⟩
  | 19 => ⟨S960000x1, .i32⟩
  | 20 => ⟨S960000x128, .f32⟩
  | 21 => ⟨S_, .i32⟩
  | 22 => ⟨S960000, .i32⟩
  | 23 => ⟨S960000, .i1⟩
  | 24 => ⟨S_, .i32⟩
  | 25 => ⟨S960000, .i32⟩
  | 26 => ⟨S960000, .i32⟩
  | 27 => ⟨S960000, .i32⟩
  | 28 => ⟨S960000x1, .i32⟩
  | 29 => ⟨S320000x128, .f32⟩
  | 30 => ⟨S_, .i32⟩
  | 31 => ⟨S960000, .i32⟩
  | 32 => ⟨S960000, .i1⟩
  | 33 => ⟨S_, .i32⟩
  | 34 => ⟨S960000, .i32⟩
  | 35 => ⟨S960000, .i32⟩
  | 36 => ⟨S960000, .i32⟩
  | 37 => ⟨S960000x1, .i32⟩
  | 38 => ⟨S960000x128, .f32⟩
  | 39 => ⟨S_, .i32⟩
  | 40 => ⟨S960000, .i32⟩
  | 41 => ⟨S960000, .i1⟩
  | 42 => ⟨S_, .i32⟩
  | 43 => ⟨S960000, .i32⟩
  | 44 => ⟨S960000, .i32⟩
  | 45 => ⟨S960000, .i32⟩
  | 46 => ⟨S960000x1, .i32⟩
  | 47 => ⟨S320000x128, .f32⟩
  | 48 => ⟨S320000x128, .f32⟩
  | 49 => ⟨S_, .f32⟩
  | 50 => ⟨S320000x128, .f32⟩
  | 51 => ⟨S320000x128, .f32⟩
  | 52 => ⟨S320000x128, .f32⟩
  | 53 => ⟨S320000x3, .f32⟩
  | 54 => ⟨S1x3, .f32⟩
  | 55 => ⟨S320000x3, .f32⟩
  | 56 => ⟨S320000x3, .f32⟩
  | 57 => ⟨S320000x3, .f32⟩
  | 58 => ⟨S1x3, .f32⟩
  | 59 => ⟨S320000x3, .f32⟩
  | 60 => ⟨S320000x3, .f32⟩
  | 61 => ⟨S960000x1, .i32⟩
  | 62 => ⟨S960000, .i32⟩
  | 63 => ⟨S960000x1, .i32⟩
  | 64 => ⟨S960000, .i32⟩
  | 65 => ⟨S_, .f32⟩
  | 66 => ⟨S320000x3, .f32⟩
  | 67 => ⟨S_, .i32⟩
  | 68 => ⟨S960000, .i32⟩
  | 69 => ⟨S960000, .i1⟩
  | 70 => ⟨S_, .i32⟩
  | 71 => ⟨S960000, .i32⟩
  | 72 => ⟨S960000, .i32⟩
  | 73 => ⟨S960000, .i32⟩
  | 74 => ⟨S960000x1, .i32⟩
  | 75 => ⟨S960000x3, .f32⟩
  | 76 => ⟨S_, .i32⟩
  | 77 => ⟨S960000, .i32⟩
  | 78 => ⟨S960000, .i1⟩
  | 79 => ⟨S_, .i32⟩
  | 80 => ⟨S960000, .i32⟩
  | 81 => ⟨S960000, .i32⟩
  | 82 => ⟨S960000, .i32⟩
  | 83 => ⟨S960000x1, .i32⟩
  | 84 => ⟨S320000x3, .f32⟩
  | 85 => ⟨S_, .i32⟩
  | 86 => ⟨S960000, .i32⟩
  | 87 => ⟨S960000, .i1⟩
  | 88 => ⟨S_, .i32⟩
  | 89 => ⟨S960000, .i32⟩
  | 90 => ⟨S960000, .i32⟩
  | 91 => ⟨S960000, .i32⟩
  | 92 => ⟨S960000x1, .i32⟩
  | 93 => ⟨S960000x3, .f32⟩
  | 94 => ⟨S_, .i32⟩
  | 95 => ⟨S960000, .i32⟩
  | 96 => ⟨S960000, .i1⟩
  | 97 => ⟨S_, .i32⟩
  | 98 => ⟨S960000, .i32⟩
  | 99 => ⟨S960000, .i32⟩
  | 100 => ⟨S960000, .i32⟩
  | 101 => ⟨S960000x1, .i32⟩
  | 102 => ⟨S320000x3, .f32⟩
  | 103 => ⟨S320000x3, .f32⟩
  | 104 => ⟨S2x4x40000x3, .f32⟩
  | _ => ⟨S320000x128, .f32⟩

abbrev hbmTy (i : Nat) : BufTy := match i / 128 with
  | 0 => hbmTy0_0 i
  | 1 => hbmTy0_1 i
  | _ => ⟨S320000x128, .f32⟩

abbrev bufTy : (tb : Table) → Fin (tcTables nBuf tb) → BufTy
  | .hbm, ⟨i, _⟩ => hbmTy i
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_1 : Ref sig .tc := ⟨.hbm, 41, rfl⟩
abbrev main_v20 : Ref sig .tc := ⟨.hbm, 42, rfl⟩
abbrev main_v21 : Ref sig .tc := ⟨.hbm, 43, rfl⟩
abbrev main_c_2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_3 : Ref sig .tc := ⟨.hbm, 50, rfl⟩
abbrev main_v27 : Ref sig .tc := ⟨.hbm, 51, rfl⟩
abbrev main_v28 : Ref sig .tc := ⟨.hbm, 52, rfl⟩
abbrev main_c_4 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_5 : Ref sig .tc := ⟨.hbm, 59, rfl⟩
abbrev main_v34 : Ref sig .tc := ⟨.hbm, 60, rfl⟩
abbrev main_v35 : Ref sig .tc := ⟨.hbm, 61, rfl⟩
abbrev main_c_6 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_call0_cst : Ref sig .tc := ⟨.hbm, 69, rfl⟩
abbrev main_call0_v0 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_7 : Ref sig .tc := ⟨.hbm, 84, rfl⟩
abbrev main_v55 : Ref sig .tc := ⟨.hbm, 85, rfl⟩
abbrev main_c_8 : Ref sig .tc := ⟨.hbm, 86, rfl⟩
abbrev main_v56 : Ref sig .tc := ⟨.hbm, 87, rfl⟩
abbrev main_v57 : Ref sig .tc := ⟨.hbm, 88, rfl⟩
abbrev main_c_9 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_10 : Ref sig .tc := ⟨.hbm, 95, rfl⟩
abbrev main_v63 : Ref sig .tc := ⟨.hbm, 96, rfl⟩
abbrev main_v64 : Ref sig .tc := ⟨.hbm, 97, rfl⟩
abbrev main_c_11 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_c_12 : Ref sig .tc := ⟨.hbm, 104, rfl⟩
abbrev main_v70 : Ref sig .tc := ⟨.hbm, 105, rfl⟩
abbrev main_v71 : Ref sig .tc := ⟨.hbm, 106, rfl⟩
abbrev main_c_13 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_c_14 : Ref sig .tc := ⟨.hbm, 113, rfl⟩
abbrev main_v77 : Ref sig .tc := ⟨.hbm, 114, rfl⟩
abbrev main_v78 : Ref sig .tc := ⟨.hbm, 115, rfl⟩
abbrev main_c_15 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_call1_cst : Ref sig .tc := ⟨.hbm, 123, rfl⟩
abbrev main_call1_v0 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_16 : Ref sig .tc := ⟨.hbm, 138, rfl⟩
abbrev main_v98 : Ref sig .tc := ⟨.hbm, 139, rfl⟩
abbrev main_c_17 : Ref sig .tc := ⟨.hbm, 140, rfl⟩
abbrev main_v99 : Ref sig .tc := ⟨.hbm, 141, rfl⟩
abbrev main_v100 : Ref sig .tc := ⟨.hbm, 142, rfl⟩
abbrev main_c_18 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_c_19 : Ref sig .tc := ⟨.hbm, 149, rfl⟩
abbrev main_v106 : Ref sig .tc := ⟨.hbm, 150, rfl⟩
abbrev main_v107 : Ref sig .tc := ⟨.hbm, 151, rfl⟩
abbrev main_c_20 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_c_21 : Ref sig .tc := ⟨.hbm, 158, rfl⟩
abbrev main_v113 : Ref sig .tc := ⟨.hbm, 159, rfl⟩
abbrev main_v114 : Ref sig .tc := ⟨.hbm, 160, rfl⟩
abbrev main_c_22 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_c_23 : Ref sig .tc := ⟨.hbm, 167, rfl⟩
abbrev main_v120 : Ref sig .tc := ⟨.hbm, 168, rfl⟩
abbrev main_v121 : Ref sig .tc := ⟨.hbm, 169, rfl⟩
abbrev main_c_24 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_call2_cst : Ref sig .tc := ⟨.hbm, 177, rfl⟩
abbrev main_call2_v0 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_cst_25 : Ref sig .tc := ⟨.hbm, 193, rfl⟩
abbrev main_v142 : Ref sig .tc := ⟨.hbm, 194, rfl⟩
abbrev main_c_26 : Ref sig .tc := ⟨.hbm, 195, rfl⟩
abbrev main_v143 : Ref sig .tc := ⟨.hbm, 196, rfl⟩
abbrev main_v144 : Ref sig .tc := ⟨.hbm, 197, rfl⟩
abbrev main_c_27 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_c_28 : Ref sig .tc := ⟨.hbm, 204, rfl⟩
abbrev main_v150 : Ref sig .tc := ⟨.hbm, 205, rfl⟩
abbrev main_v151 : Ref sig .tc := ⟨.hbm, 206, rfl⟩
abbrev main_c_29 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_c_30 : Ref sig .tc := ⟨.hbm, 213, rfl⟩
abbrev main_v157 : Ref sig .tc := ⟨.hbm, 214, rfl⟩
abbrev main_v158 : Ref sig .tc := ⟨.hbm, 215, rfl⟩
abbrev main_c_31 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_c_32 : Ref sig .tc := ⟨.hbm, 222, rfl⟩
abbrev main_v164 : Ref sig .tc := ⟨.hbm, 223, rfl⟩
abbrev main_v165 : Ref sig .tc := ⟨.hbm, 224, rfl⟩
abbrev main_c_33 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  slices_S960000x2_S960000x1_0_0 : S960000x2.Slices ![0, 0] S960000x1
  shapeCasts_S960000x1_S960000 : S960000x1.ShapeCasts S960000
  slices_S960000x2_S960000x1_0_1 : S960000x2.Slices ![0, 1] S960000x1
  bcast_S_S320000x128 : S_.BroadcastsInDim S320000x128 (![] : Fin 0 → Fin S320000x128.rank)
  bcast_S_S960000 : S_.BroadcastsInDim S960000 (![] : Fin 0 → Fin S960000.rank)
  bcast_S960000_S960000x1_0 : S960000.BroadcastsInDim S960000x1 (![0] : Fin 1 → Fin S960000x1.rank)
  bcast_S3_S1x3_1 : S3.BroadcastsInDim S1x3 (![1] : Fin 1 → Fin S1x3.rank)
  bcast_S1x3_S320000x3_0_1 : S1x3.BroadcastsInDim S320000x3 (![0, 1] : Fin 2 → Fin S320000x3.rank)
  bcast_S_S320000x3 : S_.BroadcastsInDim S320000x3 (![] : Fin 0 → Fin S320000x3.rank)
  shapeCasts_S320000x3_S2x4x40000x3 : S320000x3.ShapeCasts S2x4x40000x3
  dot_S320000x128_S128x128_S320000x128_1_0_0_1_n_n_wf : DotDims.WF S320000x128 S128x128 S320000x128 [1] [0] [0] [1] [] []
  gather_S320000x128_S960000x1_S960000x128_1_0_n_n_0_1_1128_wf : GatherDims.WF S320000x128 S960000x1 S960000x128 [1] [0] [] [0] [] 1 ![1, 128]
  scatter_S320000x128_S960000x1_S960000x128_1_0_0_1_wf : ScatterDims.WF S320000x128 S960000x1 S960000x128 [1] [0] [0] 1
  dot_S320000x128_S128x3_S320000x3_1_0_0_1_n_n_wf : DotDims.WF S320000x128 S128x3 S320000x3 [1] [0] [0] [1] [] []
  gather_S320000x3_S960000x1_S960000x3_1_0_n_n_0_1_13_wf : GatherDims.WF S320000x3 S960000x1 S960000x3 [1] [0] [] [0] [] 1 ![1, 3]
  scatter_S320000x3_S960000x1_S960000x3_1_0_0_1_wf : ScatterDims.WF S320000x3 S960000x1 S960000x3 [1] [0] [0] 1

variable [Facts₀]

def dot_S320000x128_S128x128_S320000x128_1_0_0_1_n_n : DotDims S320000x128 S128x128 S320000x128 where
  lhsContracting := [1]
  rhsContracting := [0]
  lhsNonContracting := [0]
  rhsNonContracting := [1]
  lhsBatch := []
  rhsBatch := []
  wf := dot_S320000x128_S128x128_S320000x128_1_0_0_1_n_n_wf
def gather_S320000x128_S960000x1_S960000x128_1_0_n_n_0_1_1128 : GatherDims S320000x128 S960000x1 S960000x128 where
  offsetDims := [1]
  collapsedSliceDims := [0]
  operandBatchingDims := []
  startIndicesBatchingDims := []
  startIndexMap := [0]
  indexVectorDim := 1
  sliceSizes := ![1, 128]
  wf := gather_S320000x128_S960000x1_S960000x128_1_0_n_n_0_1_1128_wf
def scatter_S320000x128_S960000x1_S960000x128_1_0_0_1 : ScatterDims S320000x128 S960000x1 S960000x128 where
  updateWindowDims := [1]
  insertedWindowDims := [0]
  scatterDimsToOperandDims := [0]
  indexVectorDim := 1
  wf := scatter_S320000x128_S960000x1_S960000x128_1_0_0_1_wf
def dot_S320000x128_S128x3_S320000x3_1_0_0_1_n_n : DotDims S320000x128 S128x3 S320000x3 where
  lhsContracting := [1]
  rhsContracting := [0]
  lhsNonContracting := [0]
  rhsNonContracting := [1]
  lhsBatch := []
  rhsBatch := []
  wf := dot_S320000x128_S128x3_S320000x3_1_0_0_1_n_n_wf
def gather_S320000x3_S960000x1_S960000x3_1_0_n_n_0_1_13 : GatherDims S320000x3 S960000x1 S960000x3 where
  offsetDims := [1]
  collapsedSliceDims := [0]
  operandBatchingDims := []
  startIndicesBatchingDims := []
  startIndexMap := [0]
  indexVectorDim := 1
  sliceSizes := ![1, 3]
  wf := gather_S320000x3_S960000x1_S960000x3_1_0_n_n_0_1_13_wf
def scatter_S320000x3_S960000x1_S960000x3_1_0_0_1 : ScatterDims S320000x3 S960000x1 S960000x3 where
  updateWindowDims := [1]
  insertedWindowDims := [0]
  scatterDimsToOperandDims := [0]
  indexVectorDim := 1
  wf := scatter_S320000x3_S960000x1_S960000x3_1_0_0_1_wf

class Facts : Prop extends Facts₀ where

variable [Facts]
-- ==== Proof.KRun.lean ====
/-
  The idealized kernel's run with its RESULT named.

  The program is eight pipelined regions among nine stretches of host operations. Its run from the launch memory
  ends with every unscoped buffer of a core at the last boundary's contents `W17` (the fold of the stretches'
  operations and the regions' write-backs from the launch memory). The frame statement reads only the argument
  arrays off that final state; here the result array `main_v148` is read off it as well, at `W17`.
-/
import proofs.«139470_j6889127543462_1_alg».proof.Proof.Gen.KernelIdeal.Frame

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result array at the last boundary's
    contents and the argument arrays as launched: the launch over @main's seventeen segments, the last thread state
    read against the final state, buffer by buffer. -/
theorem run_named : θ_run defs (onTc (τ := τ) (main (F := F))) ⟨m, fun _ => 0, ρ⟩ (fun r => ∀ c : Dev nD,
      r.2.mem ((c.tc : Thread nD τ).loc main_v148) = W17 m ρ c (Proc.devRef .tc main_v148)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v148 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c),
       (h c _ (mem_uc main_arg14 (by decide))).trans (W17_main_arg14 m ρ c),
       (h c _ (mem_uc main_arg15 (by decide))).trans (W17_main_arg15 m ρ c),
       (h c _ (mem_uc main_arg16 (by decide))).trans (W17_main_arg16 m ρ c),
       (h c _ (mem_uc main_arg17 (by decide))).trans (W17_main_arg17 m ρ c)⟩)

end Cert.KernelIdeal.Net

end
-- ==== Proof.Spec.lean ====
/-
  The network both programs compute, as functions of whole arrays, for any float instance.

  One graph-convolution layer takes vertex features `x` (320000 rows), the edge list `e` (960000 pairs of vertex
  numbers) and two affine maps, and returns `h0 + agg` where `h0 = x·W0 + b0`, `h1 = x·W1 + b1` and `agg` is the
  neighbour sum of `h1`: starting from zero, every edge `(s, d)` adds row `d` of `h1` to row `s`, and then every edge
  adds row `s` of `h1` to row `d`. Three layers of width 128 are followed by a maximum with zero (the third also by
  adding the input features back); a fourth layer of width 3 has no maximum; the result is re-laid as 2×4×40000×3.

  The pieces are spelled with the host operations of the reference program, so that program's stages unfold to
  them; the kernel's regions are proved to compute the same whole-array functions.
-/
import proofs.«139470_j6889127543462_1_alg».proof.Proof.Gen.ReferenceIdeal

noncomputable section

namespace Cert.Net

open Idealize.ShloMosaic Cert.ReferenceIdeal Cert.ReferenceIdeal.Gen

variable {F : FTy → Type} [FloatOps F]

/-- Array types: vertex features of width 128 and 3, weights, one-row biases, the edge list and its columns. -/
abbrev X128 (F : FTy → Type) := (⟨S320000x128, .f32⟩ : BufTy).Contents (Elt F)
abbrev X3 (F : FTy → Type) := (⟨S320000x3, .f32⟩ : BufTy).Contents (Elt F)
abbrev W128 (F : FTy → Type) := (⟨S128x128, .f32⟩ : BufTy).Contents (Elt F)
abbrev W3 (F : FTy → Type) := (⟨S128x3, .f32⟩ : BufTy).Contents (Elt F)
abbrev B128 (F : FTy → Type) := (⟨S128, .f32⟩ : BufTy).Contents (Elt F)
abbrev B3 (F : FTy → Type) := (⟨S3, .f32⟩ : BufTy).Contents (Elt F)
abbrev R128 (F : FTy → Type) := (⟨S1x128, .f32⟩ : BufTy).Contents (Elt F)
abbrev R3 (F : FTy → Type) := (⟨S1x3, .f32⟩ : BufTy).Contents (Elt F)
abbrev Edges (F : FTy → Type) := (⟨S960000x2, .i32⟩ : BufTy).Contents (Elt F)
abbrev EIdx (F : FTy → Type) := (⟨S960000x1, .i32⟩ : BufTy).Contents (Elt F)
abbrev ECol (F : FTy → Type) := (⟨S960000, .i32⟩ : BufTy).Contents (Elt F)
abbrev Out (F : FTy → Type) := (⟨S2x4x40000x3, .f32⟩ : BufTy).Contents (Elt F)

/-! ## The affine maps: `x·W` plus a one-row bias repeated down the rows -/

def lin128 (x : X128 F) (W : W128 F) (b : R128 F) : X128 F :=
  addf (Host.dotGeneral dot_S320000x128_S128x128_S320000x128_1_0_0_1_n_n none x W)
    (broadcastInDim S320000x128 ![0, 1] bcast_S1x128_S320000x128_0_1 b)

def lin3 (x : X128 F) (W : W3 F) (b : R3 F) : X3 F :=
  addf (Host.dotGeneral dot_S320000x128_S128x3_S320000x3_1_0_0_1_n_n none x W)
    (broadcastInDim S320000x3 ![0, 1] bcast_S1x3_S320000x3_0_1 b)

/-- A bias vector as a one-row matrix. -/
def row128 (b : B128 F) : R128 F := broadcastInDim S1x128 ![1] bcast_S128_S1x128_1 b
def row3 (b : B3 F) : R3 F := broadcastInDim S1x3 ![1] bcast_S3_S1x3_1 b

/-- The same one-row matrix obtained by re-laying the vector (a reshape instead of a broadcast). -/
def relaidRow128 (b : B128 F) : R128 F := shapeCast S1x128 b (by decide)
def relaidRow3 (b : B3 F) : R3 F := shapeCast S1x3 b (by decide)

/-! ## The edge list's columns, as row numbers -/

/-- Column 0 (the edge's first vertex) and column 1 (its second) of the edge list. -/
def col0 (e : Edges F) : ECol F :=
  shapeCast S960000 (extractStridedSlice S960000x1 ![0, 0] e slices_S960000x2_S960000x1_0_0) shapeCasts_S960000x1_S960000
def col1 (e : Edges F) : ECol F :=
  shapeCast S960000 (extractStridedSlice S960000x1 ![0, 1] e slices_S960000x2_S960000x1_0_1) shapeCasts_S960000x1_S960000

/-- A column of vertex numbers as gather / scatter indices: a negative number counts from the end (320000 is
    added to it), and the column becomes a 960000×1 index array. -/
def wrap (v : ECol F) : EIdx F :=
  broadcastInDim S960000x1 ![0] bcast_S960000_S960000x1_0
    (select (cmpi .slt v (broadcastInDim S960000 ![] bcast_S_S960000 (constantI S_ 32 0#32)))
      (addi v (broadcastInDim S960000 ![] bcast_S_S960000 (constantI S_ 32 320000#32))) v)

/-! ## The neighbour sum -/

def agg128 (e : Edges F) (h1 : X128 F) : X128 F :=
  Host.scatterAdd scatter_S320000x128_S960000x1_S960000x128_1_0_0_1
    (Host.scatterAdd scatter_S320000x128_S960000x1_S960000x128_1_0_0_1
      (broadcastInDim S320000x128 ![] bcast_S_S320000x128 (constant S_ .f32 0x00000000#32))
      (wrap (col0 e))
      (Host.gather gather_S320000x128_S960000x1_S960000x128_1_0_n_n_0_1_1128 h1 (wrap (col1 e))))
    (wrap (col1 e))
    (Host.gather gather_S320000x128_S960000x1_S960000x128_1_0_n_n_0_1_1128 h1 (wrap (col0 e)))

def agg3 (e : Edges F) (h1 : X3 F) : X3 F :=
  Host.scatterAdd scatter_S320000x3_S960000x1_S960000x3_1_0_0_1
    (Host.scatterAdd scatter_S320000x3_S960000x1_S960000x3_1_0_0_1
      (broadcastInDim S320000x3 ![] bcast_S_S320000x3 (constant S_ .f32 0x00000000#32))
      (wrap (col0 e))
      (Host.gather gather_S320000x3_S960000x1_S960000x3_1_0_n_n_0_1_13 h1 (wrap (col1 e))))
    (wrap (col1 e))
    (Host.gather gather_S320000x3_S960000x1_S960000x3_1_0_n_n_0_1_13 h1 (wrap (col0 e)))

/-! ## Combining the vertex's own term with the neighbour sum -/

/-- `max (h0 + agg, 0)`. -/
def relu128 (h0 agg : X128 F) : X128 F :=
  maximumf (addf h0 agg) (broadcastInDim S320000x128 ![] bcast_S_S320000x128 (constant S_ .f32 0x00000000#32))

/-- `max (h0 + agg, 0) + res`. -/
def reluRes128 (h0 agg res : X128 F) : X128 F := addf (relu128 h0 agg) res

/-- `h0 + agg`. -/
def plain3 (h0 agg : X3 F) : X3 F := addf h0 agg

/-- The 320000×3 result re-laid as 2×4×40000×3. -/
def relay (y : X3 F) : Out F := shapeCast S2x4x40000x3 y shapeCasts_S320000x3_S2x4x40000x3

/-! ## The network

Stated over the pieces as PARAMETERS (`fa`, `fb` the two affine maps of a layer, `g` its combination), so the kernel's
run can be read once for any functions its regions compute; `net` is the instance at the pieces above. -/

/-- A layer of width 128 followed by a maximum with zero. -/
def layer128 (fa fb : X128 F → W128 F → R128 F → X128 F) (g : X128 F → X128 F → X128 F)
    (x : X128 F) (e : Edges F) (W0 : W128 F) (b0 : R128 F) (W1 : W128 F) (b1 : R128 F) : X128 F :=
  g (fa x W0 b0) (agg128 e (fb x W1 b1))

/-- The same with a residual input. -/
def layerRes128 (fa fb : X128 F → W128 F → R128 F → X128 F) (g : X128 F → X128 F → X128 F → X128 F)
    (x res : X128 F) (e : Edges F) (W0 : W128 F) (b0 : R128 F) (W1 : W128 F) (b1 : R128 F) : X128 F :=
  g (fa x W0 b0) (agg128 e (fb x W1 b1)) res

/-- The last layer, of width 3. -/
def layer3 (fa fb : X128 F → W3 F → R3 F → X3 F) (g : X3 F → X3 F → X3 F)
    (x : X128 F) (e : Edges F) (W0 : W3 F) (b0 : R3 F) (W1 : W3 F) (b1 : R3 F) : X3 F :=
  g (fa x W0 b0) (agg3 e (fb x W1 b1))

/-- The whole network at the pieces above, biases given as one-row matrices. -/
def netRows (x : X128 F) (e : Edges F)
    (W00 : W128 F) (b00 : R128 F) (W10 : W128 F) (b10 : R128 F)
    (W01 : W128 F) (b01 : R128 F) (W11 : W128 F) (b11 : R128 F)
    (W02 : W128 F) (b02 : R128 F) (W12 : W128 F) (b12 : R128 F)
    (W03 : W3 F) (b03 : R3 F) (W13 : W3 F) (b13 : R3 F) : Out F :=
  relay (layer3 lin3 lin3 plain3
    (layerRes128 lin128 lin128 reluRes128
      (layer128 lin128 lin128 relu128 (layer128 lin128 lin128 relu128 x e W00 b00 W10 b10) e W01 b01 W11 b11)
      x e W02 b02 W12 b12)
    e W03 b03 W13 b13)

end Cert.Net

end
-- ==== Proof.LibRegionOp.lean ====
/-
  A pipelined region with one output array, read as one more line of the host program around it.

  A region's exit contents are its entry contents with the pipeline's arrays replaced by what the pipeline leaves in
  them. When every array but one is left as the region found it, and that one holds the value a host operation
  writing only that array would have computed from the entry contents, the exit contents ARE that operation's
  result on the entry contents. A program of several regions among host lines then reads, buffer by buffer, as one
  straight line of operations.
-/
import Idealize.ShloMosaic.Lib.Pipeline.FrameSuffix

noncomputable section

namespace Cert.RegionOp

open Idealize.ShloMosaic Idealize.ShloMosaic.Pipeline Idealize.ShloMosaic.TcCoe

variable {nD : Nat} {τ : Topo} {sig : RefSig} {Val : EltTy → Type}

/-- The exit contents of a region whose arrays `A` agree with the entry contents `V` except at window `o`'s array,
    where they hold what `op` — an operation writing that array only — computes from `V`: they are `op.result V`,
    at every buffer of the device. -/
theorem withArrays_eq_result {gr W : Nat} (win : Fin W → WinSpec sig gr) (hinj : Function.Injective (arrRef win))
    (c : Dev nD) (V : Valuation τ sig Val) (A : (w : Fin W) → Buf Val ((win w).arr.view.loc (c.tc : Thread nD τ)))
    (o : Fin W) (op : HloOp τ sig Val)
    (hw : op.writes = {Proc.devRef .tc (arrRef win o)})
    (hin : ∀ w, w ≠ o → A w = V (Proc.devRef .tc (arrRef win w)))
    (hout : A o = op.result V (Proc.devRef .tc (arrRef win o))) :
    withArrays win c V A = op.result V := by
  funext b
  by_cases h : ∃ w, Proc.devRef .tc (arrRef win w) = b
  · obtain ⟨w, rfl⟩ := h
    rw [withArrays_arr win hinj c V A w]
    by_cases hwo : w = o
    · subst hwo; exact hout
    · rw [hin w hwo]
      refine (op.result_of_not_mem V ?_).symm
      rw [hw, Finset.mem_singleton]
      exact fun e => hwo (hinj (Proc.devRef_injective _ e))
  · have hb : withArrays win c V A b = V b := by unfold withArrays; rw [dif_neg h]
    rw [hb]
    refine (op.result_of_not_mem V ?_).symm
    rw [hw, Finset.mem_singleton]
    exact fun e => h ⟨o, e.symm⟩

end Cert.RegionOp

end
-- ==== Proof.LibRegionOp2.lean ====
/-
  A pipelined region with TWO output arrays, read as two more lines of the host program around it.

  A region's exit contents are its entry contents with the pipeline's arrays replaced by what the pipeline leaves in
  them. When every array but two is left as the region found it, and each of the two holds the value a host operation
  writing only that array would have computed, the exit contents ARE the second operation's result on the first
  operation's result on the entry contents. (The one-output case is `Cert.RegionOp.withArrays_eq_result`.)
-/
import Idealize.ShloMosaic.Lib.Pipeline.FrameSuffix

noncomputable section

namespace Cert.RegionOp

open Idealize.ShloMosaic Idealize.ShloMosaic.Pipeline Idealize.ShloMosaic.TcCoe

variable {nD : Nat} {τ : Topo} {sig : RefSig} {Val : EltTy → Type}

/-- The exit contents of a region whose arrays `A` agree with the entry contents `V` except at the arrays of the
    two distinct windows `o₁`, `o₂`, where they hold what `op₁` and then `op₂` — each writing its own array only —
    compute from `V`: they are `op₂.result (op₁.result V)`, at every buffer of the device. -/
theorem withArrays_eq_result₂ {gr W : Nat} (win : Fin W → WinSpec sig gr) (hinj : Function.Injective (arrRef win))
    (c : Dev nD) (V : Valuation τ sig Val) (A : (w : Fin W) → Buf Val ((win w).arr.view.loc (c.tc : Thread nD τ)))
    (o₁ o₂ : Fin W) (ho : o₁ ≠ o₂) (op₁ op₂ : HloOp τ sig Val)
    (hw₁ : op₁.writes = {Proc.devRef .tc (arrRef win o₁)})
    (hw₂ : op₂.writes = {Proc.devRef .tc (arrRef win o₂)})
    (hin : ∀ w, w ≠ o₁ → w ≠ o₂ → A w = V (Proc.devRef .tc (arrRef win w)))
    (hout₁ : A o₁ = op₁.result V (Proc.devRef .tc (arrRef win o₁)))
    (hout₂ : A o₂ = op₂.result (op₁.result V) (Proc.devRef .tc (arrRef win o₂))) :
    withArrays win c V A = op₂.result (op₁.result V) := by
  funext b
  by_cases h : ∃ w, Proc.devRef .tc (arrRef win w) = b
  · obtain ⟨w, rfl⟩ := h
    rw [withArrays_arr win hinj c V A w]
    by_cases hw2 : w = o₂
    · subst hw2; exact hout₂
    · have n2 : Proc.devRef (τ := τ) .tc (arrRef win w) ∉ op₂.writes := by
        rw [hw₂, Finset.mem_singleton]
        exact fun e => hw2 (hinj (Proc.devRef_injective _ e))
      rw [op₂.result_of_not_mem _ n2]
      by_cases hw1 : w = o₁
      · subst hw1; exact hout₁
      · rw [hin w hw1 hw2]
        refine (op₁.result_of_not_mem V ?_).symm
        rw [hw₁, Finset.mem_singleton]
        exact fun e => hw1 (hinj (Proc.devRef_injective _ e))
  · have hb : withArrays win c V A b = V b := by unfold withArrays; rw [dif_neg h]
    rw [hb]
    have n2 : b ∉ op₂.writes := by
      rw [hw₂, Finset.mem_singleton]
      exact fun e => h ⟨o₂, e.symm⟩
    have n1 : b ∉ op₁.writes := by
      rw [hw₁, Finset.mem_singleton]
      exact fun e => h ⟨o₁, e.symm⟩
    rw [op₂.result_of_not_mem _ n2, op₁.result_of_not_mem V n1]

end Cert.RegionOp

end
-- ==== Proof.LibCat.lean ====
/-
  Reading a concatenation of two or of three buffers back from a run of host operations: the result holds the
  operation's function of each operand's contents at that operand's own reference, so that the operands' contents can
  in turn be read back. (The family of operand references is literal; under the operation's binder it is not, and the
  contents of "the k-th operand" could not be rewritten further.)
-/
import Idealize.ShloMosaic.Lib.StableHlo.Run

noncomputable section

namespace Cert.Lib

open Idealize.ShloMosaic Idealize.ShloMosaic.StableHlo Idealize.SL.Sem

variable {τ : Topo} {sig : RefSig} {Val : EltTy → Type}

/-- A two-operand concatenation's result, each operand's contents at its own reference. -/
theorem nary2_result' {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (no_index (Proc.devRef .tc y))
      = f (Fin.cons (F (Proc.devRef .tc x)) (Fin.cons (F (Proc.devRef .tc a)) (fun i => i.elim0))) := by
  rw [nary_result]; congr 1; funext k; fin_cases k <;> rfl

/-- A three-operand concatenation's result, each operand's contents at its own reference. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Contents carried to a typed reference's buffer type and back are the contents. -/
theorem ofBuf_toBuf {T : BufTy} (x : TRef sig T) (v : T.Contents Val) : x.ofBuf (x.toBuf v) = v := by
  obtain ⟨r, h, h2, h3⟩ := x
  subst h
  rfl
/-- Contents carried from a typed reference's buffer type and back are the contents. -/
theorem toBuf_ofBuf {T : BufTy} (x : TRef sig T) (v : x.ref.ty.Contents Val) : x.toBuf (x.ofBuf v) = v := by
  obtain ⟨r, h, h2, h3⟩ := x
  subst h
  rfl

/-- Folding a list of host operations cut in two: first the head part, then the tail part from what it leaves. -/
theorem after_append (l1 l2 : List (HloOp τ sig Val)) (V : Valuation τ sig Val) :
    after (l1 ++ l2) V = after l2 (after l1 V) := by
  induction l1 generalizing V with
  | nil => rfl
  | cons op l ih => exact ih (op.result V)

/-- The same two facts in rewriting form. -/
theorem nary2_result {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (Proc.devRef .tc y)
      = f (Fin.cons (F (Proc.devRef .tc x)) (Fin.cons (F (Proc.devRef .tc a)) (fun i => i.elim0))) :=
  nary2_result' f hxs hy F
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) :=
  nary3_result' f hxs hy F

end Cert.Lib

/-- The results of a literal list of host operations by one simp pass, two- and three-operand concatenations included. -/
macro "after_results_cat" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.Lib.nary2_result', Cert.Lib.nary3_result', Idealize.ShloMosaic.StableHlo.nary4_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- Goes on reading inside a concatenation's operands, one rewrite per operation (the one-pass form does not enter them). -/
macro "finish_results_rw" : tactic =>
  `(tactic| (repeat (first
      | rw [Idealize.ShloMosaic.StableHlo.nullary_result] | rw [Idealize.ShloMosaic.StableHlo.unary_result] | rw [Idealize.ShloMosaic.StableHlo.binary_result]
      | rw [Idealize.ShloMosaic.StableHlo.ternary_result] | rw [Idealize.ShloMosaic.StableHlo.quaternary_result] | rw [Idealize.ShloMosaic.StableHlo.reshape_result]
      | rw [Cert.Lib.nary2_result] | rw [Cert.Lib.nary3_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.quaternary_result_ne]; rotate_left; decide)
      | (rw [Idealize.ShloMosaic.StableHlo.reshape_result_ne]; rotate_left; decide)
      | (rw [Idealize.ShloMosaic.StableHlo.nary_result_ne]; rotate_left; decide))))

end
-- ==== Proof.KOps1.lean ====
/-
  The idealized kernel's run through layer 1, read as one straight line of operations.

  From the layer's entry the program runs: two bias re-layings, the region computing the two affine maps (two output
  arrays), the thirty-three host operations of the neighbour sum, and the region combining the two. A region
  whose output arrays end at known functions of its input arrays acts on the buffer contents as one host operation
  per output would. So the contents at the layer's exit are the fold of ONE list of operations from the contents at
  its entry, and the result buffer is read back through that list, for whatever functions `fa`, `fb`, `g` the regions
  compute; the argument arrays later layers read are untouched.
-/
import proofs.«139470_j6889127543462_1_alg».proof.Proof.Gen.KernelIdeal.Frame
import proofs.«139470_j6889127543462_1_alg».proof.Proof.Spec
import proofs.«139470_j6889127543462_1_alg».proof.Proof.LibRegionOp
import proofs.«139470_j6889127543462_1_alg».proof.Proof.LibRegionOp2
import proofs.«139470_j6889127543462_1_alg».proof.Proof.LibCat
import Idealize.ShloMosaic.Lib.StableHlo.Run

set_option maxRecDepth 16384

noncomputable section

namespace Cert.KernelIdeal.Net

open Cert.KernelIdeal Cert.KernelIdeal.Gen
open Idealize.ShloMosaic Idealize.ShloMosaic.TcCoe Idealize.ShloMosaic.Pipeline Idealize.ShloMosaic.StableHlo Idealize.SL.Sem
open Cert.Net (X128 X3 W128 W3 R128 R3 B128 B3 Edges)

variable {F : FTy → Type} [FloatOps F]
variable (m : (ℓ : Loc nD τ sig) → Buf (Elt F) ℓ) (ρ : Dev nD → PrngReg)
variable (fa fb : X128 F → W128 F → R128 F → X128 F) (g : X128 F → X128 F → X128 F)

/-- Region 0's two outputs and region 1's output, each as the operation that would write it. -/
def rop0a : HloOp τ sig (Elt F) := ternary main_arg0 main_arg2 main_v0 main_v2_0 fa
def rop0b : HloOp τ sig (Elt F) := ternary main_arg0 main_arg4 main_v1 main_v2_1 fb
def rop1 : HloOp τ sig (Elt F) := binary main_v2_0 main_v35 main_v36 g

/-- The layer as one list of operations. -/
def layer1Ops : List (HloOp τ sig (Elt F)) :=
  hostOps0 ++ ([rop0a fa, rop0b fb] ++ (hostOps1 ++ [rop1 g]))

section
variable (Ha : ∀ (V : (c : Dev nD) → (b : Ref sig .tc) → Buf (Elt F) ((c : Thread nD τ).loc b)) (c : Dev nD),
    (dat0 (F := F) V c).arrAt 5 cfg0.N = fa (V c main_arg0) (V c main_arg2) (V c main_v0))
variable (Hb : ∀ (V : (c : Dev nD) → (b : Ref sig .tc) → Buf (Elt F) ((c : Thread nD τ).loc b)) (c : Dev nD),
    (dat0 (F := F) V c).arrAt 6 cfg0.N = fb (V c main_arg0) (V c main_arg4) (V c main_v1))
variable (Hg : ∀ (V : (c : Dev nD) → (b : Ref sig .tc) → Buf (Elt F) ((c : Thread nD τ).loc b)) (c : Dev nD),
    (dat1 (F := F) V c).arrAt 2 cfg1.N = g (V c main_v2_0) (V c main_v35))

set_option maxHeartbeats 2000000 in
include Ha Hb in
/-- Region 0's exit contents are its two operations' results on its entry contents. -/
theorem W2_ops (c : Dev nD) : W2 m ρ c = (rop0b fb).result ((rop0a fa).result (W1 m ρ c)) := by
  unfold W2
  refine Cert.RegionOp.withArrays_eq_result₂ spec0 launch0.win.arr_inj c (W1 m ρ c) _ 5 6 (by decide)
    (rop0a fa) (rop0b fb) rfl rfl ?_ ?_ ?_
  · intro w h5 h6
    fin_cases w
    · exact ((dat0 (V1 m ρ) c).arrAt_in 0 rfl _).trans (A_eq0 (V1 m ρ) c 0)
    · exact ((dat0 (V1 m ρ) c).arrAt_in 1 rfl _).trans (A_eq0 (V1 m ρ) c 1)
    · exact ((dat0 (V1 m ρ) c).arrAt_in 2 rfl _).trans (A_eq0 (V1 m ρ) c 2)
    · exact ((dat0 (V1 m ρ) c).arrAt_in 3 rfl _).trans (A_eq0 (V1 m ρ) c 3)
    · exact ((dat0 (V1 m ρ) c).arrAt_in 4 rfl _).trans (A_eq0 (V1 m ρ) c 4)
    · exact absurd rfl h5
    · exact absurd rfl h6
  · exact (Ha (V1 m ρ) c).trans (ternary_result main_arg0 main_arg2 main_v0 main_v2_0 fa _ _ _ _ (W1 m ρ c)).symm
  · refine (Hb (V1 m ρ) c).trans ?_
    unfold rop0b rop0a
    rw [ternary_result' (y := main_v2_1), ternary_result_ne' (h := by decide), ternary_result_ne' (h := by decide),
      ternary_result_ne' (h := by decide)]

set_option maxHeartbeats 2000000 in
include Hg in
/-- Region 1's exit contents are its operation's result on its entry contents. -/
theorem W4_ops (c : Dev nD) : W4 m ρ c = (rop1 g).result (W3 m ρ c) := by
  unfold W4
  refine Cert.RegionOp.withArrays_eq_result spec1 launch1.win.arr_inj c (W3 m ρ c) _ 2 (rop1 g) rfl ?_ ?_
  · intro w h2
    fin_cases w
    · exact ((dat1 (V3 m ρ) c).arrAt_in 0 rfl _).trans (A_eq1 (V3 m ρ) c 0)
    · exact ((dat1 (V3 m ρ) c).arrAt_in 1 rfl _).trans (A_eq1 (V3 m ρ) c 1)
    · exact absurd rfl h2
  · exact (Hg (V3 m ρ) c).trans (binary_result main_v2_0 main_v35 main_v36 g _ _ _ (W3 m ρ c)).symm

include Ha Hb Hg in
/-- The contents at the exit are the fold of the layer's operations from the contents at its entry. -/
theorem W4_eq (c : Dev nD) : W4 m ρ c = after (layer1Ops fa fb g) (W0 m ρ c) := by
  rw [W4_ops m ρ g Hg c]
  show (rop1 g).result (after hostOps1 (W2 m ρ c)) = _
  rw [W2_ops m ρ fa fb Ha Hb c]
  unfold layer1Ops
  rw [Cert.Lib.after_append, Cert.Lib.after_append, Cert.Lib.after_append]
  rfl
end

/-- THE LAYER'S VALUE: from any entry contents `Wk`, the result buffer after the layer's operations. -/
theorem layer1_val (Wk : Valuation τ sig (Elt F)) :
    after (layer1Ops fa fb g) Wk (Proc.devRef .tc main_v36)
      = Cert.Net.layer128 fa fb g (Wk (Proc.devRef .tc main_arg0)) (Wk (Proc.devRef .tc main_arg1)) (Wk (Proc.devRef .tc main_arg2)) (Cert.Net.relaidRow128 (Wk (Proc.devRef .tc main_arg3))) (Wk (Proc.devRef .tc main_arg4)) (Cert.Net.relaidRow128 (Wk (Proc.devRef .tc main_arg5))) := by
  unfold layer1Ops rop0a rop0b rop1
  simp only [hostOps0, hostOps1, List.cons_append, List.nil_append]
  after_results_simp
  rfl

/-- No operation of the layer writes argument 0. -/
theorem layer1_keep_arg0 (Wk : Valuation τ sig (Elt F)) :
    after (layer1Ops fa fb g) Wk (Proc.devRef .tc main_arg0) = Wk (Proc.devRef .tc main_arg0) :=
  StableHlo.after_of_forall_not_mem (b := Proc.devRef .tc main_arg0) _ _ (List.forall_iff_forall_mem.mp (by
    simp only [layer1Ops, rop0a, rop0b, rop1, hostOps0, hostOps1, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the layer writes argument 1. -/
theorem layer1_keep_arg1 (Wk : Valuation τ sig (Elt F)) :
    after (layer1Ops fa fb g) Wk (Proc.devRef .tc main_arg1) = Wk (Proc.devRef .tc main_arg1) :=
  StableHlo.after_of_forall_not_mem (b := Proc.devRef .tc main_arg1) _ _ (List.forall_iff_forall_mem.mp (by
    simp only [layer1Ops, rop0a, rop0b, rop1, hostOps0, hostOps1, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the layer writes argument 6. -/
theorem layer1_keep_arg6 (Wk : Valuation τ sig (Elt F)) :
    after (layer1Ops fa fb g) Wk (Proc.devRef .tc main_arg6) = Wk (Proc.devRef .tc main_arg6) :=
  StableHlo.after_of_forall_not_mem (b := Proc.devRef .tc main_arg6) _ _ (List.forall_iff_forall_mem.mp (by
    simp only [layer1Ops, rop0a, rop0b, rop1, hostOps0, hostOps1, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the layer writes argument 7. -/
theorem layer1_keep_arg7 (Wk : Valuation τ sig (Elt F)) :
    after (layer1Ops fa fb g) Wk (Proc.devRef .tc main_arg7) = Wk (Proc.devRef .tc main_arg7) :=
  StableHlo.after_of_forall_not_mem (b := Proc.devRef .tc main_arg7) _ _ (List.forall_iff_forall_mem.mp (by
    simp only [layer1Ops, rop0a, rop0b, rop1, hostOps0, hostOps1, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the layer writes argument 8. -/
theorem layer1_keep_arg8 (Wk : Valuation τ sig (Elt F)) :
    after (layer1Ops fa fb g) Wk (Proc.devRef .tc main_arg8) = Wk (Proc.devRef .tc main_arg8) :=
  StableHlo.after_of_forall_not_mem (b := Proc.devRef .tc main_arg8) _ _ (List.forall_iff_forall_mem.mp (by
    simp only [layer1Ops, rop0a, rop0b, rop1, hostOps0, hostOps1, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the layer writes argument 9. -/
theorem layer1_keep_arg9 (Wk : Valuation τ sig (Elt F)) :
    after (layer1Ops fa fb g) Wk (Proc.devRef .tc main_arg9) = Wk (Proc.devRef .tc main_arg9) :=
  StableHlo.after_of_forall_not_mem (b := Proc.devRef .tc main_arg9) _ _ (List.forall_iff_forall_mem.mp (by
    simp only [layer1Ops, rop0a, rop0b, rop1, hostOps0, hostOps1, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the layer writes argument 10. -/
theorem layer1_keep_arg10 (Wk : Valuation τ sig (Elt F)) :
    after (layer1Ops fa fb g) Wk (Proc.devRef .tc main_arg10) = Wk (Proc.devRef .tc main_arg10) :=
  StableHlo.after_of_forall_not_mem (b := Proc.devRef .tc main_arg10) _ _ (List.forall_iff_forall_mem.mp (by
    simp only [layer1Ops, rop0a, rop0b, rop1, hostOps0, hostOps1, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the layer writes argument 11. -/
theorem layer1_keep_arg11 (Wk : Valuation τ sig (Elt F)) :
    after (layer1Ops fa fb g) Wk (Proc.devRef .tc main_arg11) = Wk (Proc.devRef .tc main_arg11) :=
  StableHlo.after_of_forall_not_mem (b := Proc.devRef .tc main_arg11) _ _ (List.forall_iff_forall_mem.mp (by
    simp only [layer1Ops, rop0a, rop0b, rop1, hostOps0, hostOps1, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the layer writes argument 12. -/
theorem layer1_keep_arg12 (Wk : Valuation τ sig (Elt F)) :
    after (layer1Ops fa fb g) Wk (Proc.devRef .tc main_arg12) = Wk (Proc.devRef .tc main_arg12) :=
  StableHlo.after_of_forall_not_mem (b := Proc.devRef .tc main_arg12) _ _ (List.forall_iff_forall_mem.mp (by
    simp only [layer1Ops, rop0a, rop0b, rop1, hostOps0, hostOps1, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the layer writes argument 13. -/
theorem layer1_keep_arg13 (Wk : Valuation τ sig (Elt F)) :
    after (layer1Ops fa fb g) Wk (Proc.devRef .tc main_arg13) = Wk (Proc.devRef .tc main_arg13) :=
  StableHlo.after_of_forall_not_mem (b := Proc.devRef .tc main_arg13) _ _ (List.forall_iff_forall_mem.mp (by
    simp only [layer1Ops, rop0a, rop0b, rop1, hostOps0, hostOps1, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the layer writes argument 14. -/
theorem layer1_keep_arg14 (Wk : Valuation τ sig (Elt F)) :
    after (layer1Ops fa fb g) Wk (Proc.devRef .tc main_arg14) = Wk (Proc.devRef .tc main_arg14) :=
  StableHlo.after_of_forall_not_mem (b := Proc.devRef .tc main_arg14) _ _ (List.forall_iff_forall_mem.mp (by
    simp only [layer1Ops, rop0a, rop0b, rop1, hostOps0, hostOps1, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the layer writes argument 15. -/
theorem layer1_keep_arg15 (Wk : Valuation τ sig (Elt F)) :
    after (layer1Ops fa fb g) Wk (Proc.devRef .tc main_arg15) = Wk (Proc.devRef .tc main_arg15) :=
  StableHlo.after_of_forall_not_mem (b := Proc.devRef .tc main_arg15) _ _ (List.forall_iff_forall_mem.mp (by
    simp only [layer1Ops, rop0a, rop0b, rop1, hostOps0, hostOps1, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the layer writes argument 16. -/
theorem layer1_keep_arg16 (Wk : Valuation τ sig (Elt F)) :
    after (layer1Ops fa fb g) Wk (Proc.devRef .tc main_arg16) = Wk (Proc.devRef .tc main_arg16) :=
  StableHlo.after_of_forall_not_mem (b := Proc.devRef .tc main_arg16) _ _ (List.forall_iff_forall_mem.mp (by
    simp only [layer1Ops, rop0a, rop0b, rop1, hostOps0, hostOps1, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the layer writes argument 17. -/
theorem layer1_keep_arg17 (Wk : Valuation τ sig (Elt F)) :
    after (layer1Ops fa fb g) Wk (Proc.devRef .tc main_arg17) = Wk (Proc.devRef .tc main_arg17) :=
  StableHlo.after_of_forall_not_mem (b := Proc.devRef .tc main_arg17) _ _ (List.forall_iff_forall_mem.mp (by
    simp only [layer1Ops, rop0a, rop0b, rop1, hostOps0, hostOps1, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.Net

end
-- ==== Proof.KOps2.lean ====
/-
  The idealized kernel's run through layer 2, read as one straight line of operations.

  From the layer's entry the program runs: two bias re-layings, the region computing the two affine maps (two output
  arrays), the thirty-three host operations of the neighbour sum, and the region combining the two. A region
  whose output arrays end at known functions of its input arrays acts on the buffer contents as one host operation
  per output would. So the contents at the layer's exit are the fold of ONE list of operations from the contents at
  its entry, and the result buffer is read back through that list, for whatever functions `fa`, `fb`, `g` the regions
  compute; the argument arrays later layers read are untouched.
-/
import proofs.«139470_j6889127543462_1_alg».proof.Proof.Gen.KernelIdeal.Frame
import proofs.«139470_j6889127543462_1_alg».proof.Proof.Spec
import proofs.«139470_j6889127543462_1_alg».proof.Proof.LibRegionOp
import proofs.«139470_j6889127543462_1_alg».proof.Proof.LibRegionOp2
import proofs.«139470_j6889127543462_1_alg».proof.Proof.LibCat
import Idealize.ShloMosaic.Lib.StableHlo.Run

set_option maxRecDepth 16384

noncomputable section

namespace Cert.KernelIdeal.Net

open Cert.KernelIdeal Cert.KernelIdeal.Gen
open Idealize.ShloMosaic Idealize.ShloMosaic.TcCoe Idealize.ShloMosaic.Pipeline Idealize.ShloMosaic.StableHlo Idealize.SL.Sem
open Cert.Net (X128 X3 W128 W3 R128 R3 B128 B3 Edges)

variable {F : FTy → Type} [FloatOps F]
variable (m : (ℓ : Loc nD τ sig) → Buf (Elt F) ℓ) (ρ : Dev nD → PrngReg)
variable (fa fb : X128 F → W128 F → R128 F → X128 F) (g : X128 F → X128 F → X128 F)

/-- Region 2's two outputs and region 3's output, each as the operation that would write it. -/
def rop2a : HloOp τ sig (Elt F) := ternary main_v36 main_arg6 main_v37 main_v39_0 fa
def rop2b : HloOp τ sig (Elt F) := ternary main_v36 main_arg8 main_v38 main_v39_1 fb
def rop3 : HloOp τ sig (Elt F) := binary main_v39_0 main_v72 main_v73 g

/-- The layer as one list of operations. -/
def layer2Ops : List (HloOp τ sig (Elt F)) :=
  hostOps2 ++ ([rop2a fa, rop2b fb] ++ (hostOps3 ++ [rop3 g]))

section
variable (Ha : ∀ (V : (c : Dev nD) → (b : Ref sig .tc) → Buf (Elt F) ((c : Thread nD τ).loc b)) (c : Dev nD),
    (dat2 (F := F) V c).arrAt 5 cfg2.N = fa (V c main_v36) (V c main_arg6) (V c main_v37))
variable (Hb : ∀ (V : (c : Dev nD) → (b : Ref sig .tc) → Buf (Elt F) ((c : Thread nD τ).loc b)) (c : Dev nD),
    (dat2 (F := F) V c).arrAt 6 cfg2.N = fb (V c main_v36) (V c main_arg8) (V c main_v38))
variable (Hg : ∀ (V : (c : Dev nD) → (b : Ref sig .tc) → Buf (Elt F) ((c : Thread nD τ).loc b)) (c : Dev nD),
    (dat3 (F := F) V c).arrAt 2 cfg3.N = g (V c main_v39_0) (V c main_v72))

set_option maxHeartbeats 2000000 in
include Ha Hb in
/-- Region 2's exit contents are its two operations' results on its entry contents. -/
theorem W6_ops (c : Dev nD) : W6 m ρ c = (rop2b fb).result ((rop2a fa).result (W5 m ρ c)) := by
  unfold W6
  refine Cert.RegionOp.withArrays_eq_result₂ spec2 launch2.win.arr_inj c (W5 m ρ c) _ 5 6 (by decide)
    (rop2a fa) (rop2b fb) rfl rfl ?_ ?_ ?_
  · intro w h5 h6
    fin_cases w
    · exact ((dat2 (V5 m ρ) c).arrAt_in 0 rfl _).trans (A_eq2 (V5 m ρ) c 0)
    · exact ((dat2 (V5 m ρ) c).arrAt_in 1 rfl _).trans (A_eq2 (V5 m ρ) c 1)
    · exact ((dat2 (V5 m ρ) c).arrAt_in 2 rfl _).trans (A_eq2 (V5 m ρ) c 2)
    · exact ((dat2 (V5 m ρ) c).arrAt_in 3 rfl _).trans (A_eq2 (V5 m ρ) c 3)
    · exact ((dat2 (V5 m ρ) c).arrAt_in 4 rfl _).trans (A_eq2 (V5 m ρ) c 4)
    · exact absurd rfl h5
    · exact absurd rfl h6
  · exact (Ha (V5 m ρ) c).trans (ternary_result main_v36 main_arg6 main_v37 main_v39_0 fa _ _ _ _ (W5 m ρ c)).symm
  · refine (Hb (V5 m ρ) c).trans ?_
    unfold rop2b rop2a
    rw [ternary_result' (y := main_v39_1), ternary_result_ne' (h := by decide), ternary_result_ne' (h := by decide),
      ternary_result_ne' (h := by decide)]

set_option maxHeartbeats 2000000 in
include Hg in
/-- Region 3's exit contents are its operation's result on its entry contents. -/
theorem W8_ops (c : Dev nD) : W8 m ρ c = (rop3 g).result (W7 m ρ c) := by
  unfold W8
  refine Cert.RegionOp.withArrays_eq_result spec3 launch3.win.arr_inj c (W7 m ρ c) _ 2 (rop3 g) rfl ?_ ?_
  · intro w h2
    fin_cases w
    · exact ((dat3 (V7 m ρ) c).arrAt_in 0 rfl _).trans (A_eq3 (V7 m ρ) c 0)
    · exact ((dat3 (V7 m ρ) c).arrAt_in 1 rfl _).trans (A_eq3 (V7 m ρ) c 1)
    · exact absurd rfl h2
  · exact (Hg (V7 m ρ) c).trans (binary_result main_v39_0 main_v72 main_v73 g _ _ _ (W7 m ρ c)).symm

include Ha Hb Hg in
/-- The contents at the exit are the fold of the layer's operations from the contents at its entry. -/
theorem W8_eq (c : Dev nD) : W8 m ρ c = after (layer2Ops fa fb g) (W4 m ρ c) := by
  rw [W8_ops m ρ g Hg c]
  show (rop3 g).result (after hostOps3 (W6 m ρ c)) = _
  rw [W6_ops m ρ fa fb Ha Hb c]
  unfold layer2Ops
  rw [Cert.Lib.after_append, Cert.Lib.after_append, Cert.Lib.after_append]
  rfl
end

/-- THE LAYER'S VALUE: from any entry contents `Wk`, the result buffer after the layer's operations. -/
theorem layer2_val (Wk : Valuation τ sig (Elt F)) :
    after (layer2Ops fa fb g) Wk (Proc.devRef .tc main_v73)
      = Cert.Net.layer128 fa fb g (Wk (Proc.devRef .tc main_v36)) (Wk (Proc.devRef .tc main_arg1)) (Wk (Proc.devRef .tc main_arg6)) (Cert.Net.relaidRow128 (Wk (Proc.devRef .tc main_arg7))) (Wk (Proc.devRef .tc main_arg8)) (Cert.Net.relaidRow128 (Wk (Proc.devRef .tc main_arg9))) := by
  unfold layer2Ops rop2a rop2b rop3
  simp only [hostOps2, hostOps3, List.cons_append, List.nil_append]
  after_results_simp
  rfl

/-- No operation of the layer writes argument 0. -/
theorem layer2_keep_arg0 (Wk : Valuation τ sig (Elt F)) :
    after (layer2Ops fa fb g) Wk (Proc.devRef .tc main_arg0) = Wk (Proc.devRef .tc main_arg0) :=
  StableHlo.after_of_forall_not_mem (b := Proc.devRef .tc main_arg0) _ _ (List.forall_iff_forall_mem.mp (by
    simp only [layer2Ops, rop2a, rop2b, rop3, hostOps2, hostOps3, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the layer writes argument 1. -/
theorem layer2_keep_arg1 (Wk : Valuation τ sig (Elt F)) :
    after (layer2Ops fa fb g) Wk (Proc.devRef .tc main_arg1) = Wk (Proc.devRef .tc main_arg1) :=
  StableHlo.after_of_forall_not_mem (b := Proc.devRef .tc main_arg1) _ _ (List.forall_iff_forall_mem.mp (by
    simp only [layer2Ops, rop2a, rop2b, rop3, hostOps2, hostOps3, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the layer writes argument 10. -/
theorem layer2_keep_arg10 (Wk : Valuation τ sig (Elt F)) :
    after (layer2Ops fa fb g) Wk (Proc.devRef .tc main_arg10) = Wk (Proc.devRef .tc main_arg10) :=
  StableHlo.after_of_forall_not_mem (b := Proc.devRef .tc main_arg10) _ _ (List.forall_iff_forall_mem.mp (by
    simp only [layer2Ops, rop2a, rop2b, rop3, hostOps2, hostOps3, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the layer writes argument 11. -/
theorem layer2_keep_arg11 (Wk : Valuation τ sig (Elt F)) :
    after (layer2Ops fa fb g) Wk (Proc.devRef .tc main_arg11) = Wk (Proc.devRef .tc main_arg11) :=
  StableHlo.after_of_forall_not_mem (b := Proc.devRef .tc main_arg11) _ _ (List.forall_iff_forall_mem.mp (by
    simp only [layer2Ops, rop2a, rop2b, rop3, hostOps2, hostOps3, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the layer writes argument 12. -/
theorem layer2_keep_arg12 (Wk : Valuation τ sig (Elt F)) :
    after (layer2Ops fa fb g) Wk (Proc.devRef .tc main_arg12) = Wk (Proc.devRef .tc main_arg12) :=
  StableHlo.after_of_forall_not_mem (b := Proc.devRef .tc main_arg12) _ _ (List.forall_iff_forall_mem.mp (by
    simp only [layer2Ops, rop2a, rop2b, rop3, hostOps2, hostOps3, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the layer writes argument 13. -/
theorem layer2_keep_arg13 (Wk : Valuation τ sig (Elt F)) :
    after (layer2Ops fa fb g) Wk (Proc.devRef .tc main_arg13) = Wk (Proc.devRef .tc main_arg13) :=
  StableHlo.after_of_forall_not_mem (b := Proc.devRef .tc main_arg13) _ _ (List.forall_iff_forall_mem.mp (by
    simp only [layer2Ops, rop2a, rop2b, rop3, hostOps2, hostOps3, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the layer writes argument 14. -/
theorem layer2_keep_arg14 (Wk : Valuation τ sig (Elt F)) :
    after (layer2Ops fa fb g) Wk (Proc.devRef .tc main_arg14) = Wk (Proc.devRef .tc main_arg14) :=
  StableHlo.after_of_forall_not_mem (b := Proc.devRef .tc main_arg14) _ _ (List.forall_iff_forall_mem.mp (by
    simp only [layer2Ops, rop2a, rop2b, rop3, hostOps2, hostOps3, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the layer writes argument 15. -/
theorem layer2_keep_arg15 (Wk : Valuation τ sig (Elt F)) :
    after (layer2Ops fa fb g) Wk (Proc.devRef .tc main_arg15) = Wk (Proc.devRef .tc main_arg15) :=
  StableHlo.after_of_forall_not_mem (b := Proc.devRef .tc main_arg15) _ _ (List.forall_iff_forall_mem.mp (by
    simp only [layer2Ops, rop2a, rop2b, rop3, hostOps2, hostOps3, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the layer writes argument 16. -/
theorem layer2_keep_arg16 (Wk : Valuation τ sig (Elt F)) :
    after (layer2Ops fa fb g) Wk (Proc.devRef .tc main_arg16) = Wk (Proc.devRef .tc main_arg16) :=
  StableHlo.after_of_forall_not_mem (b := Proc.devRef .tc main_arg16) _ _ (List.forall_iff_forall_mem.mp (by
    simp only [layer2Ops, rop2a, rop2b, rop3, hostOps2, hostOps3, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the layer writes argument 17. -/
theorem layer2_keep_arg17 (Wk : Valuation τ sig (Elt F)) :
    after (layer2Ops fa fb g) Wk (Proc.devRef .tc main_arg17) = Wk (Proc.devRef .tc main_arg17) :=
  StableHlo.after_of_forall_not_mem (b := Proc.devRef .tc main_arg17) _ _ (List.forall_iff_forall_mem.mp (by
    simp only [layer2Ops, rop2a, rop2b, rop3, hostOps2, hostOps3, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.Net

end
-- ==== Proof.KOps3.lean ====
/-
  The idealized kernel's run through layer 3, read as one straight line of operations.

  From the layer's entry the program runs: two bias re-layings, the region computing the two affine maps (two output
  arrays), the thirty-three host operations of the neighbour sum, and the region combining the two. A region
  whose output arrays end at known functions of its input arrays acts on the buffer contents as one host operation
  per output would. So the contents at the layer's exit are the fold of ONE list of operations from the contents at
  its entry, and the result buffer is read back through that list, for whatever functions `fa`, `fb`, `g` the regions
  compute; the argument arrays later layers read are untouched.
-/
import proofs.«139470_j6889127543462_1_alg».proof.Proof.Gen.KernelIdeal.Frame
import proofs.«139470_j6889127543462_1_alg».proof.Proof.Spec
import proofs.«139470_j6889127543462_1_alg».proof.Proof.LibRegionOp
import proofs.«139470_j6889127543462_1_alg».proof.Proof.LibRegionOp2
import proofs.«139470_j6889127543462_1_alg».proof.Proof.LibCat
import Idealize.ShloMosaic.Lib.StableHlo.Run

set_option maxRecDepth 16384

noncomputable section

namespace Cert.KernelIdeal.Net

open Cert.KernelIdeal Cert.KernelIdeal.Gen
open Idealize.ShloMosaic Idealize.ShloMosaic.TcCoe Idealize.ShloMosaic.Pipeline Idealize.ShloMosaic.StableHlo Idealize.SL.Sem
open Cert.Net (X128 X3 W128 W3 R128 R3 B128 B3 Edges)

variable {F : FTy → Type} [FloatOps F]
variable (m : (ℓ : Loc nD τ sig) → Buf (Elt F) ℓ) (ρ : Dev nD → PrngReg)
variable (fa fb : X128 F → W128 F → R128 F → X128 F) (g : X128 F → X128 F → X128 F → X128 F)

/-- Region 4's two outputs and region 5's output, each as the operation that would write it. -/
def rop4a : HloOp τ sig (Elt F) := ternary main_v73 main_arg10 main_v74 main_v76_0 fa
def rop4b : HloOp τ sig (Elt F) := ternary main_v73 main_arg12 main_v75 main_v76_1 fb
def rop5 : HloOp τ sig (Elt F) := ternary main_v76_0 main_v109 main_arg0 main_v110 g

/-- The layer as one list of operations. -/
def layer3Ops : List (HloOp τ sig (Elt F)) :=
  hostOps4 ++ ([rop4a fa, rop4b fb] ++ (hostOps5 ++ [rop5 g]))

section
variable (Ha : ∀ (V : (c : Dev nD) → (b : Ref sig .tc) → Buf (Elt F) ((c : Thread nD τ).loc b)) (c : Dev nD),
    (dat4 (F := F) V c).arrAt 5 cfg4.N = fa (V c main_v73) (V c main_arg10) (V c main_v74))
variable (Hb : ∀ (V : (c : Dev nD) → (b : Ref sig .tc) → Buf (Elt F) ((c : Thread nD τ).loc b)) (c : Dev nD),
    (dat4 (F := F) V c).arrAt 6 cfg4.N = fb (V c main_v73) (V c main_arg12) (V c main_v75))
variable (Hg : ∀ (V : (c : Dev nD) → (b : Ref sig .tc) → Buf (Elt F) ((c : Thread nD τ).loc b)) (c : Dev nD),
    (dat5 (F := F) V c).arrAt 3 cfg5.N = g (V c main_v76_0) (V c main_v109) (V c main_arg0))

set_option maxHeartbeats 2000000 in
include Ha Hb in
/-- Region 4's exit contents are its two operations' results on its entry contents. -/
theorem W10_ops (c : Dev nD) : W10 m ρ c = (rop4b fb).result ((rop4a fa).result (W9 m ρ c)) := by
  unfold W10
  refine Cert.RegionOp.withArrays_eq_result₂ spec4 launch4.win.arr_inj c (W9 m ρ c) _ 5 6 (by decide)
    (rop4a fa) (rop4b fb) rfl rfl ?_ ?_ ?_
  · intro w h5 h6
    fin_cases w
    · exact ((dat4 (V9 m ρ) c).arrAt_in 0 rfl _).trans (A_eq4 (V9 m ρ) c 0)
    · exact ((dat4 (V9 m ρ) c).arrAt_in 1 rfl _).trans (A_eq4 (V9 m ρ) c 1)
    · exact ((dat4 (V9 m ρ) c).arrAt_in 2 rfl _).trans (A_eq4 (V9 m ρ) c 2)
    · exact ((dat4 (V9 m ρ) c).arrAt_in 3 rfl _).trans (A_eq4 (V9 m ρ) c 3)
    · exact ((dat4 (V9 m ρ) c).arrAt_in 4 rfl _).trans (A_eq4 (V9 m ρ) c 4)
    · exact absurd rfl h5
    · exact absurd rfl h6
  · exact (Ha (V9 m ρ) c).trans (ternary_result main_v73 main_arg10 main_v74 main_v76_0 fa _ _ _ _ (W9 m ρ c)).symm
  · refine (Hb (V9 m ρ) c).trans ?_
    unfold rop4b rop4a
    rw [ternary_result' (y := main_v76_1), ternary_result_ne' (h := by decide), ternary_result_ne' (h := by decide),
      ternary_result_ne' (h := by decide)]

set_option maxHeartbeats 2000000 in
include Hg in
/-- Region 5's exit contents are its operation's result on its entry contents. -/
theorem W12_ops (c : Dev nD) : W12 m ρ c = (rop5 g).result (W11 m ρ c) := by
  unfold W12
  refine Cert.RegionOp.withArrays_eq_result spec5 launch5.win.arr_inj c (W11 m ρ c) _ 3 (rop5 g) rfl ?_ ?_
  · intro w h2
    fin_cases w
    · exact ((dat5 (V11 m ρ) c).arrAt_in 0 rfl _).trans (A_eq5 (V11 m ρ) c 0)
    · exact ((dat5 (V11 m ρ) c).arrAt_in 1 rfl _).trans (A_eq5 (V11 m ρ) c 1)
    · exact ((dat5 (V11 m ρ) c).arrAt_in 2 rfl _).trans (A_eq5 (V11 m ρ) c 2)
    · exact absurd rfl h2
  · exact (Hg (V11 m ρ) c).trans (ternary_result main_v76_0 main_v109 main_arg0 main_v110 g _ _ _ _ (W11 m ρ c)).symm

include Ha Hb Hg in
/-- The contents at the exit are the fold of the layer's operations from the contents at its entry. -/
theorem W12_eq (c : Dev nD) : W12 m ρ c = after (layer3Ops fa fb g) (W8 m ρ c) := by
  rw [W12_ops m ρ g Hg c]
  show (rop5 g).result (after hostOps5 (W10 m ρ c)) = _
  rw [W10_ops m ρ fa fb Ha Hb c]
  unfold layer3Ops
  rw [Cert.Lib.after_append, Cert.Lib.after_append, Cert.Lib.after_append]
  rfl
end

/-- THE LAYER'S VALUE: from any entry contents `Wk`, the result buffer after the layer's operations. -/
theorem layer3_val (Wk : Valuation τ sig (Elt F)) :
    after (layer3Ops fa fb g) Wk (Proc.devRef .tc main_v110)
      = Cert.Net.layerRes128 fa fb g (Wk (Proc.devRef .tc main_v73)) (Wk (Proc.devRef .tc main_arg0)) (Wk (Proc.devRef .tc main_arg1)) (Wk (Proc.devRef .tc main_arg10)) (Cert.Net.relaidRow128 (Wk (Proc.devRef .tc main_arg11))) (Wk (Proc.devRef .tc main_arg12)) (Cert.Net.relaidRow128 (Wk (Proc.devRef .tc main_arg13))) := by
  unfold layer3Ops rop4a rop4b rop5
  simp only [hostOps4, hostOps5, List.cons_append, List.nil_append]
  after_results_simp
  rfl

/-- No operation of the layer writes argument 1. -/
theorem layer3_keep_arg1 (Wk : Valuation τ sig (Elt F)) :
    after (layer3Ops fa fb g) Wk (Proc.devRef .tc main_arg1) = Wk (Proc.devRef .tc main_arg1) :=
  StableHlo.after_of_forall_not_mem (b := Proc.devRef .tc main_arg1) _ _ (List.forall_iff_forall_mem.mp (by
    simp only [layer3Ops, rop4a, rop4b, rop5, hostOps4, hostOps5, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the layer writes argument 14. -/
theorem layer3_keep_arg14 (Wk : Valuation τ sig (Elt F)) :
    after (layer3Ops fa fb g) Wk (Proc.devRef .tc main_arg14) = Wk (Proc.devRef .tc main_arg14) :=
  StableHlo.after_of_forall_not_mem (b := Proc.devRef .tc main_arg14) _ _ (List.forall_iff_forall_mem.mp (by
    simp only [layer3Ops, rop4a, rop4b, rop5, hostOps4, hostOps5, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the layer writes argument 15. -/
theorem layer3_keep_arg15 (Wk : Valuation τ sig (Elt F)) :
    after (layer3Ops fa fb g) Wk (Proc.devRef .tc main_arg15) = Wk (Proc.devRef .tc main_arg15) :=
  StableHlo.after_of_forall_not_mem (b := Proc.devRef .tc main_arg15) _ _ (List.forall_iff_forall_mem.mp (by
    simp only [layer3Ops, rop4a, rop4b, rop5, hostOps4, hostOps5, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the layer writes argument 16. -/
theorem layer3_keep_arg16 (Wk : Valuation τ sig (Elt F)) :
    after (layer3Ops fa fb g) Wk (Proc.devRef .tc main_arg16) = Wk (Proc.devRef .tc main_arg16) :=
  StableHlo.after_of_forall_not_mem (b := Proc.devRef .tc main_arg16) _ _ (List.forall_iff_forall_mem.mp (by
    simp only [layer3Ops, rop4a, rop4b, rop5, hostOps4, hostOps5, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the layer writes argument 17. -/
theorem layer3_keep_arg17 (Wk : Valuation τ sig (Elt F)) :
    after (layer3Ops fa fb g) Wk (Proc.devRef .tc main_arg17) = Wk (Proc.devRef .tc main_arg17) :=
  StableHlo.after_of_forall_not_mem (b := Proc.devRef .tc main_arg17) _ _ (List.forall_iff_forall_mem.mp (by
    simp only [layer3Ops, rop4a, rop4b, rop5, hostOps4, hostOps5, List.cons_append, List.nil_append,
      List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.Net

end
-- ==== Proof.KOps4.lean ====
/-
  The idealized kernel's run through the last layer (width 3) and the final re-laying, read as one straight line of operations.

  From the layer's entry the program runs: two bias re-layings, the region computing the two affine maps (two output
  arrays), the thirty-three host operations of the neighbour sum, and the region combining the two, then the final re-laying. A region
  whose output arrays end at known functions of its input arrays acts on the buffer contents as one host operation
  per output would. So the contents at the layer's exit are the fold of ONE list of operations from the contents at
  its entry, and the result buffer is read back through that list, for whatever functions `fa`, `fb`, `g` the regions
  compute; the argument arrays later layers read are untouched.
-/
import proofs.«139470_j6889127543462_1_alg».proof.Proof.Gen.KernelIdeal.Frame
import proofs.«139470_j6889127543462_1_alg».proof.Proof.Spec
import proofs.«139470_j6889127543462_1_alg».proof.Proof.LibRegionOp
import proofs.«139470_j6889127543462_1_alg».proof.Proof.LibRegionOp2
import proofs.«139470_j6889127543462_1_alg».proof.Proof.LibCat
import Idealize.ShloMosaic.Lib.StableHlo.Run

set_option maxRecDepth 16384

noncomputable section

namespace Cert.KernelIdeal.Net

open Cert.KernelIdeal Cert.KernelIdeal.Gen
open Idealize.ShloMosaic Idealize.ShloMosaic.TcCoe Idealize.ShloMosaic.Pipeline Idealize.ShloMosaic.StableHlo Idealize.SL.Sem
open Cert.Net (X128 X3 W128 W3 R128 R3 B128 B3 Edges)

variable {F : FTy → Type} [FloatOps F]
variable (m : (ℓ : Loc nD τ sig) → Buf (Elt F) ℓ) (ρ : Dev nD → PrngReg)
variable (fa fb : X128 F → W3 F → R3 F → X3 F) (g : X3 F → X3 F → X3 F)

/-- Region 6's two outputs and region 7's output, each as the operation that would write it. -/
def rop6a : HloOp τ sig (Elt F) := ternary main_v110 main_arg14 main_v111 main_v113_0 fa
def rop6b : HloOp τ sig (Elt F) := ternary main_v110 main_arg16 main_v112 main_v113_1 fb
def rop7 : HloOp τ sig (Elt F) := binary main_v113_0 main_v146 main_v147 g

/-- The layer as one list of operations. -/
def layer4Ops : List (HloOp τ sig (Elt F)) :=
  hostOps6 ++ ([rop6a fa, rop6b fb] ++ (hostOps7 ++ ([rop7 g] ++ hostOps8)))

section
variable (Ha : ∀ (V : (c : Dev nD) → (b : Ref sig .tc) → Buf (Elt F) ((c : Thread nD τ).loc b)) (c : Dev nD),
    (dat6 (F := F) V c).arrAt 5 cfg6.N = fa (V c main_v110) (V c main_arg14) (V c main_v111))
variable (Hb : ∀ (V : (c : Dev nD) → (b : Ref sig .tc) → Buf (Elt F) ((c : Thread nD τ).loc b)) (c : Dev nD),
    (dat6 (F := F) V c).arrAt 6 cfg6.N = fb (V c main_v110) (V c main_arg16) (V c main_v112))
variable (Hg : ∀ (V : (c : Dev nD) → (b : Ref sig .tc) → Buf (Elt F) ((c : Thread nD τ).loc b)) (c : Dev nD),
    (dat7 (F := F) V c).arrAt 2 cfg7.N = g (V c main_v113_0) (V c main_v146))

set_option maxHeartbeats 2000000 in
include Ha Hb in
/-- Region 6's exit contents are its two operations' results on its entry contents. -/
theorem W14_ops (c : Dev nD) : W14 m ρ c = (rop6b fb).result ((rop6a fa).result (W13 m ρ c)) := by
  unfold W14
  refine Cert.RegionOp.withArrays_eq_result₂ spec6 launch6.win.arr_inj c (W13 m ρ c) _ 5 6 (by decide)
    (rop6a fa) (rop6b fb) rfl rfl ?_ ?_ ?_
  · intro w h5 h6
    fin_cases w
    · exact ((dat6 (V13 m ρ) c).arrAt_in 0 rfl _).trans (A_eq6 (V13 m ρ) c 0)
    · exact ((dat6 (V13 m ρ) c).arrAt_in 1 rfl _).trans (A_eq6 (V13 m ρ) c 1)
    · exact ((dat6 (V13 m ρ) c).arrAt_in 2 rfl _).trans (A_eq6 (V13 m ρ) c 2)
    · exact ((dat6 (V13 m ρ) c).arrAt_in 3 rfl _).trans (A_eq6 (V13 m ρ) c 3)
    · exact ((dat6 (V13 m ρ) c).arrAt_in 4 rfl _).trans (A_eq6 (V13 m ρ) c 4)
    · exact absurd rfl h5
    · exact absurd rfl h6
  · exact (Ha (V13 m ρ) c).trans (ternary_result main_v110 main_arg14 main_v111 main_v113_0 fa _ _ _ _ (W13 m ρ c)).symm
  · refine (Hb (V13 m ρ) c).trans ?_
    unfold rop6b rop6a
    rw [ternary_result' (y := main_v113_1), ternary_result_ne' (h := by decide), ternary_result_ne' (h := by decide),
      ternary_result_ne' (h := by decide)]

set_option maxHeartbeats 2000000 in
include Hg in
/-- Region 7's exit contents are its operation's result on its entry contents. -/
theorem W16_ops (c : Dev nD) : W16 m ρ c = (rop7 g).result (W15 m ρ c) := by
  unfold W16
  refine Cert.RegionOp.withArrays_eq_result spec7 launch7.win.arr_inj c (W15 m ρ c) _ 2 (rop7 g) rfl ?_ ?_
  · intro w h2
    fin_cases w
    · exact ((dat7 (V15 m ρ) c).arrAt_in 0 rfl _).trans (A_eq7 (V15 m ρ) c 0)
    · exact ((dat7 (V15 m ρ) c).arrAt_in 1 rfl _).trans (A_eq7 (V15 m ρ) c 1)
    · exact absurd rfl h2
  · exact (Hg (V15 m ρ) c).trans (binary_result main_v113_0 main_v146 main_v147 g _ _ _ (W15 m ρ c)).symm

include Ha Hb Hg in
/-- The contents at the exit are the fold of the layer's operations from the contents at its entry. -/
theorem W17_eq (c : Dev nD) : W17 m ρ c = after (layer4Ops fa fb g) (W12 m ρ c) := by
  show after hostOps8 (W16 m ρ c) = _
  rw [W16_ops m ρ g Hg c]
  show after hostOps8 ((rop7 g).result (after hostOps7 (W14 m ρ c))) = _
  rw [W14_ops m ρ fa fb Ha Hb c]
  unfold layer4Ops
  rw [Cert.Lib.after_append, Cert.Lib.after_append, Cert.Lib.after_append, Cert.Lib.after_append]
  rfl
end

/-- THE LAYER'S VALUE: from any entry contents `Wk`, the result buffer after the layer's operations. -/
theorem layer4_val (Wk : Valuation τ sig (Elt F)) :
    after (layer4Ops fa fb g) Wk (Proc.devRef .tc main_v148)
      = Cert.Net.relay (Cert.Net.layer3 fa fb g (Wk (Proc.devRef .tc main_v110)) (Wk (Proc.devRef .tc main_arg1)) (Wk (Proc.devRef .tc main_arg14)) (Cert.Net.relaidRow3 (Wk (Proc.devRef .tc main_arg15))) (Wk (Proc.devRef .tc main_arg16)) (Cert.Net.relaidRow3 (Wk (Proc.devRef .tc main_arg17)))) := by
  unfold layer4Ops rop6a rop6b rop7
  simp only [hostOps6, hostOps7, hostOps8, List.cons_append, List.nil_append]
  after_results_simp
  rfl

end Cert.KernelIdeal.Net

end
-- ==== Proof.KNet.lean ====
/-
  The idealized kernel's result buffer at the end of its run, as the network of the launch arguments.

  Given what each of the eight regions leaves in its output arrays — the affine maps and the combinations of the
  specification, of the region's input arrays — the buffer contents at the end of each layer are the fold of that
  layer's operations from the contents at its start. Reading the result buffer back layer by layer, with the
  argument arrays untouched throughout, gives the specification's network of the launch memory's argument arrays,
  each bias re-laid as a one-row matrix. The float instance is arbitrary here; the region facts are hypotheses.
-/
import proofs.«139470_j6889127543462_1_alg».proof.Proof.KOps1
import proofs.«139470_j6889127543462_1_alg».proof.Proof.KOps2
import proofs.«139470_j6889127543462_1_alg».proof.Proof.KOps3
import proofs.«139470_j6889127543462_1_alg».proof.Proof.KOps4

set_option maxRecDepth 16384

noncomputable section

namespace Cert.KernelIdeal.Net

open Cert.KernelIdeal Cert.KernelIdeal.Gen
open Idealize.ShloMosaic Idealize.ShloMosaic.TcCoe Idealize.ShloMosaic.Pipeline Idealize.ShloMosaic.StableHlo Idealize.SL.Sem
open Cert.Net

variable {F : FTy → Type} [FloatOps F]
variable (m : (ℓ : Loc nD τ sig) → Buf (Elt F) ℓ) (ρ : Dev nD → PrngReg)

variable (H0a : ∀ (V : (c : Dev nD) → (b : Ref sig .tc) → Buf (Elt F) ((c : Thread nD τ).loc b)) (c : Dev nD),
    (dat0 (F := F) V c).arrAt 5 cfg0.N = lin128 (V c main_arg0) (V c main_arg2) (V c main_v0))
variable (H0b : ∀ (V : (c : Dev nD) → (b : Ref sig .tc) → Buf (Elt F) ((c : Thread nD τ).loc b)) (c : Dev nD),
    (dat0 (F := F) V c).arrAt 6 cfg0.N = lin128 (V c main_arg0) (V c main_arg4) (V c main_v1))
variable (H1 : ∀ (V : (c : Dev nD) → (b : Ref sig .tc) → Buf (Elt F) ((c : Thread nD τ).loc b)) (c : Dev nD),
    (dat1 (F := F) V c).arrAt 2 cfg1.N = relu128 (V c main_v2_0) (V c main_v35))
variable (H2a : ∀ (V : (c : Dev nD) → (b : Ref sig .tc) → Buf (Elt F) ((c : Thread nD τ).loc b)) (c : Dev nD),
    (dat2 (F := F) V c).arrAt 5 cfg2.N = lin128 (V c main_v36) (V c main_arg6) (V c main_v37))
variable (H2b : ∀ (V : (c : Dev nD) → (b : Ref sig .tc) → Buf (Elt F) ((c : Thread nD τ).loc b)) (c : Dev nD),
    (dat2 (F := F) V c).arrAt 6 cfg2.N = lin128 (V c main_v36) (V c main_arg8) (V c main_v38))
variable (H3 : ∀ (V : (c : Dev nD) → (b : Ref sig .tc) → Buf (Elt F) ((c : Thread nD τ).loc b)) (c : Dev nD),
    (dat3 (F := F) V c).arrAt 2 cfg3.N = relu128 (V c main_v39_0) (V c main_v72))
variable (H4a : ∀ (V : (c : Dev nD) → (b : Ref sig .tc) → Buf (Elt F) ((c : Thread nD τ).loc b)) (c : Dev nD),
    (dat4 (F := F) V c).arrAt 5 cfg4.N = lin128 (V c main_v73) (V c main_arg10) (V c main_v74))
variable (H4b : ∀ (V : (c : Dev nD) → (b : Ref sig .tc) → Buf (Elt F) ((c : Thread nD τ).loc b)) (c : Dev nD),
    (dat4 (F := F) V c).arrAt 6 cfg4.N = lin128 (V c main_v73) (V c main_arg12) (V c main_v75))
variable (H5 : ∀ (V : (c : Dev nD) → (b : Ref sig .tc) → Buf (Elt F) ((c : Thread nD τ).loc b)) (c : Dev nD),
    (dat5 (F := F) V c).arrAt 3 cfg5.N = reluRes128 (V c main_v76_0) (V c main_v109) (V c main_arg0))
variable (H6a : ∀ (V : (c : Dev nD) → (b : Ref sig .tc) → Buf (Elt F) ((c : Thread nD τ).loc b)) (c : Dev nD),
    (dat6 (F := F) V c).arrAt 5 cfg6.N = lin3 (V c main_v110) (V c main_arg14) (V c main_v111))
variable (H6b : ∀ (V : (c : Dev nD) → (b : Ref sig .tc) → Buf (Elt F) ((c : Thread nD τ).loc b)) (c : Dev nD),
    (dat6 (F := F) V c).arrAt 6 cfg6.N = lin3 (V c main_v110) (V c main_arg16) (V c main_v112))
variable (H7 : ∀ (V : (c : Dev nD) → (b : Ref sig .tc) → Buf (Elt F) ((c : Thread nD τ).loc b)) (c : Dev nD),
    (dat7 (F := F) V c).arrAt 2 cfg7.N = plain3 (V c main_v113_0) (V c main_v146))

set_option maxHeartbeats 8000000 in
include H0a H0b H1 H2a H2b H3 H4a H4b H5 H6a H6b H7 in
/-- THE KERNEL'S RESULT: at the last boundary the result buffer holds the network of the launch arguments. -/
theorem W17_net (c : Dev nD) :
    W17 m ρ c (Proc.devRef .tc main_v148)
      = netRows (m ((c.tc : Thread nD τ).loc main_arg0)) (m ((c.tc : Thread nD τ).loc main_arg1))
          (m ((c.tc : Thread nD τ).loc main_arg2)) (relaidRow128 (m ((c.tc : Thread nD τ).loc main_arg3))) (m ((c.tc : Thread nD τ).loc main_arg4)) (relaidRow128 (m ((c.tc : Thread nD τ).loc main_arg5)))
          (m ((c.tc : Thread nD τ).loc main_arg6)) (relaidRow128 (m ((c.tc : Thread nD τ).loc main_arg7))) (m ((c.tc : Thread nD τ).loc main_arg8)) (relaidRow128 (m ((c.tc : Thread nD τ).loc main_arg9)))
          (m ((c.tc : Thread nD τ).loc main_arg10)) (relaidRow128 (m ((c.tc : Thread nD τ).loc main_arg11))) (m ((c.tc : Thread nD τ).loc main_arg12)) (relaidRow128 (m ((c.tc : Thread nD τ).loc main_arg13)))
          (m ((c.tc : Thread nD τ).loc main_arg14)) (relaidRow3 (m ((c.tc : Thread nD τ).loc main_arg15))) (m ((c.tc : Thread nD τ).loc main_arg16)) (relaidRow3 (m ((c.tc : Thread nD τ).loc main_arg17))) := by
  rw [W17_eq m ρ lin3 lin3 plain3 H6a H6b H7 c, layer4_val]
  rw [W12_eq m ρ lin128 lin128 reluRes128 H4a H4b H5 c, layer3_val,
    layer3_keep_arg1, layer3_keep_arg14, layer3_keep_arg15, layer3_keep_arg16, layer3_keep_arg17]
  rw [W8_eq m ρ lin128 lin128 relu128 H2a H2b H3 c, layer2_val,
    layer2_keep_arg0, layer2_keep_arg1, layer2_keep_arg10, layer2_keep_arg11, layer2_keep_arg12, layer2_keep_arg13,
    layer2_keep_arg14, layer2_keep_arg15, layer2_keep_arg16, layer2_keep_arg17]
  rw [W4_eq m ρ lin128 lin128 relu128 H0a H0b H1 c, layer1_val,
    layer1_keep_arg0, layer1_keep_arg1, layer1_keep_arg6, layer1_keep_arg7, layer1_keep_arg8, layer1_keep_arg9,
    layer1_keep_arg10, layer1_keep_arg11, layer1_keep_arg12, layer1_keep_arg13,
    layer1_keep_arg14, layer1_keep_arg15, layer1_keep_arg16, layer1_keep_arg17]
  rfl

end Cert.KernelIdeal.Net

end
-- ==== Proof.KComb1.lean ====
/-
  Region 1 (`max (h0 + agg, 0)` on 6400-row blocks), as one whole-array function, for any float instance.

  The grid has 50 points; point `t` loads rows 6400·t … 6400·t + 6399 of the 2 input arrays, and writes the same
  rows of the output. The body is pointwise, so what point `t` writes back is block `t` of the pointwise function of
  the whole input arrays; the 50 blocks tile the 320000 rows, so the output array ends holding that function.
-/
import proofs.«139470_j6889127543462_1_alg».proof.Proof.Gen.KernelIdeal.Frame
import proofs.«139470_j6889127543462_1_alg».proof.Proof.Spec
import Idealize.ShloMosaic.Lib.Pipeline.Value

set_option maxRecDepth 16384

noncomputable section

namespace Cert.KernelIdeal.Net

open Cert.KernelIdeal Cert.KernelIdeal.Gen
open Idealize.ShloMosaic Idealize.ShloMosaic.TcCoe Idealize.ShloMosaic.Pipeline Idealize.SL.Sem

variable {F : FTy → Type} [FloatOps F]
variable (V : (c : Dev nD) → (b : Ref sig .tc) → Buf (Elt F) ((c : Thread nD τ).loc b))

theorem zero2_c1 : (![0, 0] : Fin 2 → Nat) = fun _ => 0 := funext fun a => by fin_cases a <;> rfl

/-- The index maps, decided over the grid: every input's block sits where the output's does, block `t` at row block `t`. -/
theorem idx1 : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) = t.val ∧ win1_2.index t (1 : Fin 2) = 0 :=
  (by decide +kernel : ∀ t : Fin grid1.N, _)

/-- The body's payload at an index, from its loads there. -/
theorem pay1_apply (x0 x1 : Vec F S6400x128 .f32) (j : S6400x128.Idx) :
    k1_pay1 x0 x1 j = FloatOps.maximumf (FloatOps.addf (x0 j) (x1 j)) (FloatOps.ofBits .f32 0x00000000#32) := by
  unfold k1_pay1
  show FloatOps.maximumf (FloatOps.addf (shapeCast S6400x128 x0 shapeCasts_S6400x128_S6400x128 j) (shapeCast S6400x128 x1 shapeCasts_S6400x128_S6400x128 j)) (FloatOps.ofBits .f32 0x00000000#32) = _
  rw [shapeCast_self, shapeCast_self]

/-- What point `t` writes back is block `t` of `max (h0 + agg, 0)` of the arrays as the region finds them. -/
theorem flushed1 (c : Dev nD) (t : Fin cfg1.N) :
    (dat1 V c).flushed 2 t
      = ((cfg1.win 2).blk t).view.read (Elt F) (Cert.Net.relu128 (F := F) (V c main_v2_0) (V c main_v35)) := by
  show (cfg1.win 2).cut (grid1.coords t) ((dat1 V c).after 2 t) = _
  rw [after1_2]
  unfold out1_2
  rw [View.canon_unit_zero zero2_c1]
  simp only [View.ld_unit_zero (S := S6400x128) zero2_c1]
  obtain ⟨e0, e1, e2, e3, e4, e5⟩ := idx1 t
  have h0 : ∀ j, ((cfg1.win 0).blk t).view.emb j = ((cfg1.win 2).blk t).view.emb j := fun j => by
    funext a; apply Fin.ext
    match a with
    | ⟨0, _⟩ => show win1_0.index t (0 : Fin 2) * 6400 + 1 * (j 0).val = win1_2.index t (0 : Fin 2) * 6400 + 1 * (j 0).val; omega
    | ⟨1, _⟩ => show win1_0.index t (1 : Fin 2) * 128 + 1 * (j 1).val = win1_2.index t (1 : Fin 2) * 128 + 1 * (j 1).val; omega
  have h1 : ∀ j, ((cfg1.win 1).blk t).view.emb j = ((cfg1.win 2).blk t).view.emb j := fun j => by
    funext a; apply Fin.ext
    match a with
    | ⟨0, _⟩ => show win1_1.index t (0 : Fin 2) * 6400 + 1 * (j 0).val = win1_2.index t (0 : Fin 2) * 6400 + 1 * (j 0).val; omega
    | ⟨1, _⟩ => show win1_1.index t (1 : Fin 2) * 128 + 1 * (j 1).val = win1_2.index t (1 : Fin 2) * 128 + 1 * (j 1).val; omega
  funext j
  refine (pay1_apply (iblk1 V c 0 t) (iblk1 V c 1 t) j).trans ?_
  show FloatOps.maximumf (FloatOps.addf (V c main_v2_0 (((cfg1.win 0).blk t).view.emb j)) (V c main_v35 (((cfg1.win 1).blk t).view.emb j))) (FloatOps.ofBits .f32 0x00000000#32) = _
  rw [h0, h1]
  rfl

/-- An index of the array is in point `t`'s block iff each coordinate is in the block's range on its axis. -/
theorem mem_blk1 (t : Fin cfg1.N) (i : S320000x128.Idx) :
    i ∈ ((cfg1.win 2).blk t).view.set ↔ ∀ a : Fin 2, win1_2.index t a * S6400x128.size a ≤ (i a).val ∧ (i a).val < win1_2.index t a * S6400x128.size a + S6400x128.size a := by
  show i ∈ ((View.whole main_v36).slice (win1_2.rect t)).set ↔ _
  rw [View.set_slice_whole, Rect.mem_set_unit]
  exact Iff.rfl

/-- Every row is in the block of the point numbered by its row block. -/
theorem cover1 (i : S320000x128.Idx) : ∃ t : Fin cfg1.N, (cfg1.win 2).flush t = true ∧ i ∈ ((cfg1.win 2).blk t).view.set := by
  have hi0 : (i 0).val < 320000 := (i 0).isLt
  have hi1 : (i 1).val < 128 := (i 1).isLt
  have hN : cfg1.N = 50 := N_1
  refine ⟨⟨(i 0).val / 6400, by rw [hN]; omega⟩, flush1_2 _, ?_⟩
  rw [mem_blk1]
  obtain ⟨-, -, -, -, e4, e5⟩ := idx1 ⟨(i 0).val / 6400, by rw [hN]; omega⟩
  intro a
  match a with
  | ⟨0, _⟩ => show win1_2.index _ (0 : Fin 2) * 6400 ≤ (i 0).val ∧ (i 0).val < win1_2.index _ (0 : Fin 2) * 6400 + 6400; rw [e4]; show (i 0).val / 6400 * 6400 ≤ _ ∧ _ < (i 0).val / 6400 * 6400 + 6400; omega
  | ⟨1, _⟩ => show win1_2.index _ (1 : Fin 2) * 128 ≤ (i 1).val ∧ (i 1).val < win1_2.index _ (1 : Fin 2) * 128 + 128; rw [e5]; omega

/-- REGION 1: its output array ends at `max (h0 + agg, 0)` of its input arrays as the region finds them. -/
theorem region1 (c : Dev nD) :
    (dat1 V c).arrAt 2 cfg1.N = Cert.Net.relu128 (F := F) (V c main_v2_0) (V c main_v35) :=
  (dat1 V c).arrAt_eq_of_cover 2 _ (fun t _ => flushed1 V c t) cover1

end Cert.KernelIdeal.Net

end
-- ==== Proof.KComb3.lean ====
/-
  Region 3 (`max (h0 + agg, 0)` on 6400-row blocks), as one whole-array function, for any float instance.

  The grid has 50 points; point `t` loads rows 6400·t … 6400·t + 6399 of the 2 input arrays, and writes the same
  rows of the output. The body is pointwise, so what point `t` writes back is block `t` of the pointwise function of
  the whole input arrays; the 50 blocks tile the 320000 rows, so the output array ends holding that function.
-/
import proofs.«139470_j6889127543462_1_alg».proof.Proof.Gen.KernelIdeal.Frame
import proofs.«139470_j6889127543462_1_alg».proof.Proof.Spec
import Idealize.ShloMosaic.Lib.Pipeline.Value

set_option maxRecDepth 16384

noncomputable section

namespace Cert.KernelIdeal.Net

open Cert.KernelIdeal Cert.KernelIdeal.Gen
open Idealize.ShloMosaic Idealize.ShloMosaic.TcCoe Idealize.ShloMosaic.Pipeline Idealize.SL.Sem

variable {F : FTy → Type} [FloatOps F]
variable (V : (c : Dev nD) → (b : Ref sig .tc) → Buf (Elt F) ((c : Thread nD τ).loc b))

theorem zero2_c3 : (![0, 0] : Fin 2 → Nat) = fun _ => 0 := funext fun a => by fin_cases a <;> rfl

/-- The index maps, decided over the grid: every input's block sits where the output's does, block `t` at row block `t`. -/
theorem idx3 : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = win3_2.index t (1 : Fin 2)
    ∧ win3_2.index t (0 : Fin 2) = t.val ∧ win3_2.index t (1 : Fin 2) = 0 :=
  (by decide +kernel : ∀ t : Fin grid3.N, _)

/-- The body's payload at an index, from its loads there. -/
theorem pay3_apply (x0 x1 : Vec F S6400x128 .f32) (j : S6400x128.Idx) :
    k3_pay1 x0 x1 j = FloatOps.maximumf (FloatOps.addf (x0 j) (x1 j)) (FloatOps.ofBits .f32 0x00000000#32) := by
  unfold k3_pay1
  show FloatOps.maximumf (FloatOps.addf (shapeCast S6400x128 x0 shapeCasts_S6400x128_S6400x128 j) (shapeCast S6400x128 x1 shapeCasts_S6400x128_S6400x128 j)) (FloatOps.ofBits .f32 0x00000000#32) = _
  rw [shapeCast_self, shapeCast_self]

/-- What point `t` writes back is block `t` of `max (h0 + agg, 0)` of the arrays as the region finds them. -/
theorem flushed3 (c : Dev nD) (t : Fin cfg3.N) :
    (dat3 V c).flushed 2 t
      = ((cfg3.win 2).blk t).view.read (Elt F) (Cert.Net.relu128 (F := F) (V c main_v39_0) (V c main_v72)) := by
  show (cfg3.win 2).cut (grid3.coords t) ((dat3 V c).after 2 t) = _
  rw [after3_2]
  unfold out3_2
  rw [View.canon_unit_zero zero2_c3]
  simp only [View.ld_unit_zero (S := S6400x128) zero2_c3]
  obtain ⟨e0, e1, e2, e3, e4, e5⟩ := idx3 t
  have h0 : ∀ j, ((cfg3.win 0).blk t).view.emb j = ((cfg3.win 2).blk t).view.emb j := fun j => by
    funext a; apply Fin.ext
    match a with
    | ⟨0, _⟩ => show win3_0.index t (0 : Fin 2) * 6400 + 1 * (j 0).val = win3_2.index t (0 : Fin 2) * 6400 + 1 * (j 0).val; omega
    | ⟨1, _⟩ => show win3_0.index t (1 : Fin 2) * 128 + 1 * (j 1).val = win3_2.index t (1 : Fin 2) * 128 + 1 * (j 1).val; omega
  have h1 : ∀ j, ((cfg3.win 1).blk t).view.emb j = ((cfg3.win 2).blk t).view.emb j := fun j => by
    funext a; apply Fin.ext
    match a with
    | ⟨0, _⟩ => show win3_1.index t (0 : Fin 2) * 6400 + 1 * (j 0).val = win3_2.index t (0 : Fin 2) * 6400 + 1 * (j 0).val; omega
    | ⟨1, _⟩ => show win3_1.index t (1 : Fin 2) * 128 + 1 * (j 1).val = win3_2.index t (1 : Fin 2) * 128 + 1 * (j 1).val; omega
  funext j
  refine (pay3_apply (iblk3 V c 0 t) (iblk3 V c 1 t) j).trans ?_
  show FloatOps.maximumf (FloatOps.addf (V c main_v39_0 (((cfg3.win 0).blk t).view.emb j)) (V c main_v72 (((cfg3.win 1).blk t).view.emb j))) (FloatOps.ofBits .f32 0x00000000#32) = _
  rw [h0, h1]
  rfl

/-- An index of the array is in point `t`'s block iff each coordinate is in the block's range on its axis. -/
theorem mem_blk3 (t : Fin cfg3.N) (i : S320000x128.Idx) :
    i ∈ ((cfg3.win 2).blk t).view.set ↔ ∀ a : Fin 2, win3_2.index t a * S6400x128.size a ≤ (i a).val ∧ (i a).val < win3_2.index t a * S6400x128.size a + S6400x128.size a := by
  show i ∈ ((View.whole main_v73).slice (win3_2.rect t)).set ↔ _
  rw [View.set_slice_whole, Rect.mem_set_unit]
  exact Iff.rfl

/-- Every row is in the block of the point numbered by its row block. -/
theorem cover3 (i : S320000x128.Idx) : ∃ t : Fin cfg3.N, (cfg3.win 2).flush t = true ∧ i ∈ ((cfg3.win 2).blk t).view.set := by
  have hi0 : (i 0).val < 320000 := (i 0).isLt
  have hi1 : (i 1).val < 128 := (i 1).isLt
  have hN : cfg3.N = 50 := N_3
  refine ⟨⟨(i 0).val / 6400, by rw [hN]; omega⟩, flush3_2 _, ?_⟩
  rw [mem_blk3]
  obtain ⟨-, -, -, -, e4, e5⟩ := idx3 ⟨(i 0).val / 6400, by rw [hN]; omega⟩
  intro a
  match a with
  | ⟨0, _⟩ => show win3_2.index _ (0 : Fin 2) * 6400 ≤ (i 0).val ∧ (i 0).val < win3_2.index _ (0 : Fin 2) * 6400 + 6400; rw [e4]; show (i 0).val / 6400 * 6400 ≤ _ ∧ _ < (i 0).val / 6400 * 6400 + 6400; omega
  | ⟨1, _⟩ => show win3_2.index _ (1 : Fin 2) * 128 ≤ (i 1).val ∧ (i 1).val < win3_2.index _ (1 : Fin 2) * 128 + 128; rw [e5]; omega

/-- REGION 3: its output array ends at `max (h0 + agg, 0)` of its input arrays as the region finds them. -/
theorem region3 (c : Dev nD) :
    (dat3 V c).arrAt 2 cfg3.N = Cert.Net.relu128 (F := F) (V c main_v39_0) (V c main_v72) :=
  (dat3 V c).arrAt_eq_of_cover 2 _ (fun t _ => flushed3 V c t) cover3

end Cert.KernelIdeal.Net

end
-- ==== Proof.KComb5.lean ====
/-
  Region 5 (`max (h0 + agg, 0) + res` on 6400-row blocks), as one whole-array function, for any float instance.

  The grid has 50 points; point `t` loads rows 6400·t … 6400·t + 6399 of the 3 input arrays, and writes the same
  rows of the output. The body is pointwise, so what point `t` writes back is block `t` of the pointwise function of
  the whole input arrays; the 50 blocks tile the 320000 rows, so the output array ends holding that function.
-/
import proofs.«139470_j6889127543462_1_alg».proof.Proof.Gen.KernelIdeal.Frame
import proofs.«139470_j6889127543462_1_alg».proof.Proof.Spec
import Idealize.ShloMosaic.Lib.Pipeline.Value

set_option maxRecDepth 16384

noncomputable section

namespace Cert.KernelIdeal.Net

open Cert.KernelIdeal Cert.KernelIdeal.Gen
open Idealize.ShloMosaic Idealize.ShloMosaic.TcCoe Idealize.ShloMosaic.Pipeline Idealize.SL.Sem

variable {F : FTy → Type} [FloatOps F]
variable (V : (c : Dev nD) → (b : Ref sig .tc) → Buf (Elt F) ((c : Thread nD τ).loc b))

theorem zero2_c5 : (![0, 0] : Fin 2 → Nat) = fun _ => 0 := funext fun a => by fin_cases a <;> rfl

/-- The index maps, decided over the grid: every input's block sits where the output's does, block `t` at row block `t`. -/
theorem idx5 : ∀ t : Fin cfg5.N, win5_0.index t (0 : Fin 2) = win5_3.index t (0 : Fin 2)
    ∧ win5_0.index t (1 : Fin 2) = win5_3.index t (1 : Fin 2)
    ∧ win5_1.index t (0 : Fin 2) = win5_3.index t (0 : Fin 2)
    ∧ win5_1.index t (1 : Fin 2) = win5_3.index t (1 : Fin 2)
    ∧ win5_2.index t (0 : Fin 2) = win5_3.index t (0 : Fin 2)
    ∧ win5_2.index t (1 : Fin 2) = win5_3.index t (1 : Fin 2)
    ∧ win5_3.index t (0 : Fin 2) = t.val ∧ win5_3.index t (1 : Fin 2) = 0 :=
  (by decide +kernel : ∀ t : Fin grid5.N, _)

/-- The body's payload at an index, from its loads there. -/
theorem pay5_apply (x0 x1 x2 : Vec F S6400x128 .f32) (j : S6400x128.Idx) :
    k5_pay1 x0 x1 x2 j = FloatOps.addf (FloatOps.maximumf (FloatOps.addf (x0 j) (x1 j)) (FloatOps.ofBits .f32 0x00000000#32)) (x2 j) := by
  unfold k5_pay1
  show FloatOps.addf (FloatOps.maximumf (FloatOps.addf (shapeCast S6400x128 x0 shapeCasts_S6400x128_S6400x128 j) (shapeCast S6400x128 x1 shapeCasts_S6400x128_S6400x128 j)) (FloatOps.ofBits .f32 0x00000000#32)) (x2 j) = _
  rw [shapeCast_self, shapeCast_self]

/-- What point `t` writes back is block `t` of `max (h0 + agg, 0) + res` of the arrays as the region finds them. -/
theorem flushed5 (c : Dev nD) (t : Fin cfg5.N) :
    (dat5 V c).flushed 3 t
      = ((cfg5.win 3).blk t).view.read (Elt F) (Cert.Net.reluRes128 (F := F) (V c main_v76_0) (V c main_v109) (V c main_arg0)) := by
  show (cfg5.win 3).cut (grid5.coords t) ((dat5 V c).after 3 t) = _
  rw [after5_3]
  unfold out5_3
  rw [View.canon_unit_zero zero2_c5]
  simp only [View.ld_unit_zero (S := S6400x128) zero2_c5]
  obtain ⟨e0, e1, e2, e3, e4, e5, e6, e7⟩ := idx5 t
  have h0 : ∀ j, ((cfg5.win 0).blk t).view.emb j = ((cfg5.win 3).blk t).view.emb j := fun j => by
    funext a; apply Fin.ext
    match a with
    | ⟨0, _⟩ => show win5_0.index t (0 : Fin 2) * 6400 + 1 * (j 0).val = win5_3.index t (0 : Fin 2) * 6400 + 1 * (j 0).val; omega
    | ⟨1, _⟩ => show win5_0.index t (1 : Fin 2) * 128 + 1 * (j 1).val = win5_3.index t (1 : Fin 2) * 128 + 1 * (j 1).val; omega
  have h1 : ∀ j, ((cfg5.win 1).blk t).view.emb j = ((cfg5.win 3).blk t).view.emb j := fun j => by
    funext a; apply Fin.ext
    match a with
    | ⟨0, _⟩ => show win5_1.index t (0 : Fin 2) * 6400 + 1 * (j 0).val = win5_3.index t (0 : Fin 2) * 6400 + 1 * (j 0).val; omega
    | ⟨1, _⟩ => show win5_1.index t (1 : Fin 2) * 128 + 1 * (j 1).val = win5_3.index t (1 : Fin 2) * 128 + 1 * (j 1).val; omega
  have h2 : ∀ j, ((cfg5.win 2).blk t).view.emb j = ((cfg5.win 3).blk t).view.emb j := fun j => by
    funext a; apply Fin.ext
    match a with
    | ⟨0, _⟩ => show win5_2.index t (0 : Fin 2) * 6400 + 1 * (j 0).val = win5_3.index t (0 : Fin 2) * 6400 + 1 * (j 0).val; omega
    | ⟨1, _⟩ => show win5_2.index t (1 : Fin 2) * 128 + 1 * (j 1).val = win5_3.index t (1 : Fin 2) * 128 + 1 * (j 1).val; omega
  funext j
  refine (pay5_apply (iblk5 V c 0 t) (iblk5 V c 1 t) (iblk5 V c 2 t) j).trans ?_
  show FloatOps.addf (FloatOps.maximumf (FloatOps.addf (V c main_v76_0 (((cfg5.win 0).blk t).view.emb j)) (V c main_v109 (((cfg5.win 1).blk t).view.emb j))) (FloatOps.ofBits .f32 0x00000000#32)) (V c main_arg0 (((cfg5.win 2).blk t).view.emb j)) = _
  rw [h0, h1, h2]
  rfl

/-- An index of the array is in point `t`'s block iff each coordinate is in the block's range on its axis. -/
theorem mem_blk5 (t : Fin cfg5.N) (i : S320000x128.Idx) :
    i ∈ ((cfg5.win 3).blk t).view.set ↔ ∀ a : Fin 2, win5_3.index t a * S6400x128.size a ≤ (i a).val ∧ (i a).val < win5_3.index t a * S6400x128.size a + S6400x128.size a := by
  show i ∈ ((View.whole main_v110).slice (win5_3.rect t)).set ↔ _
  rw [View.set_slice_whole, Rect.mem_set_unit]
  exact Iff.rfl

/-- Every row is in the block of the point numbered by its row block. -/
theorem cover5 (i : S320000x128.Idx) : ∃ t : Fin cfg5.N, (cfg5.win 3).flush t = true ∧ i ∈ ((cfg5.win 3).blk t).view.set := by
  have hi0 : (i 0).val < 320000 := (i 0).isLt
  have hi1 : (i 1).val < 128 := (i 1).isLt
  have hN : cfg5.N = 50 := N_5
  refine ⟨⟨(i 0).val / 6400, by rw [hN]; omega⟩, flush5_3 _, ?_⟩
  rw [mem_blk5]
  obtain ⟨-, -, -, -, -, -, e4, e5⟩ := idx5 ⟨(i 0).val / 6400, by rw [hN]; omega⟩
  intro a
  match a with
  | ⟨0, _⟩ => show win5_3.index _ (0 : Fin 2) * 6400 ≤ (i 0).val ∧ (i 0).val < win5_3.index _ (0 : Fin 2) * 6400 + 6400; rw [e4]; show (i 0).val / 6400 * 6400 ≤ _ ∧ _ < (i 0).val / 6400 * 6400 + 6400; omega
  | ⟨1, _⟩ => show win5_3.index _ (1 : Fin 2) * 128 ≤ (i 1).val ∧ (i 1).val < win5_3.index _ (1 : Fin 2) * 128 + 128; rw [e5]; omega

/-- REGION 5: its output array ends at `max (h0 + agg, 0) + res` of its input arrays as the region finds them. -/
theorem region5 (c : Dev nD) :
    (dat5 V c).arrAt 3 cfg5.N = Cert.Net.reluRes128 (F := F) (V c main_v76_0) (V c main_v109) (V c main_arg0) :=
  (dat5 V c).arrAt_eq_of_cover 3 _ (fun t _ => flushed5 V c t) cover5

end Cert.KernelIdeal.Net

end
-- ==== Proof.KComb7.lean ====
/-
  Region 7 (`h0 + agg` on 6400-row blocks), as one whole-array function, for any float instance.

  The grid has 50 points; point `t` loads rows 6400·t … 6400·t + 6399 of the 2 input arrays, and writes the same
  rows of the output. The body is pointwise, so what point `t` writes back is block `t` of the pointwise function of
  the whole input arrays; the 50 blocks tile the 320000 rows, so the output array ends holding that function.
-/
import proofs.«139470_j6889127543462_1_alg».proof.Proof.Gen.KernelIdeal.Frame
import proofs.«139470_j6889127543462_1_alg».proof.Proof.Spec
import Idealize.ShloMosaic.Lib.Pipeline.Value

set_option maxRecDepth 16384

noncomputable section

namespace Cert.KernelIdeal.Net

open Cert.KernelIdeal Cert.KernelIdeal.Gen
open Idealize.ShloMosaic Idealize.ShloMosaic.TcCoe Idealize.ShloMosaic.Pipeline Idealize.SL.Sem

variable {F : FTy → Type} [FloatOps F]
variable (V : (c : Dev nD) → (b : Ref sig .tc) → Buf (Elt F) ((c : Thread nD τ).loc b))

theorem zero2_c7 : (![0, 0] : Fin 2 → Nat) = fun _ => 0 := funext fun a => by fin_cases a <;> rfl

/-- The index maps, decided over the grid: every input's block sits where the output's does, block `t` at row block `t`. -/
theorem idx7 : ∀ t : Fin cfg7.N, win7_0.index t (0 : Fin 2) = win7_2.index t (0 : Fin 2)
    ∧ win7_0.index t (1 : Fin 2) = win7_2.index t (1 : Fin 2)
    ∧ win7_1.index t (0 : Fin 2) = win7_2.index t (0 : Fin 2)
    ∧ win7_1.index t (1 : Fin 2) = win7_2.index t (1 : Fin 2)
    ∧ win7_2.index t (0 : Fin 2) = t.val ∧ win7_2.index t (1 : Fin 2) = 0 :=
  (by decide +kernel : ∀ t : Fin grid7.N, _)

/-- The body's payload at an index, from its loads there. -/
theorem pay7_apply (x0 x1 : Vec F S6400x3 .f32) (j : S6400x3.Idx) :
    k7_pay1 x0 x1 j = FloatOps.addf (x0 j) (x1 j) := by
  unfold k7_pay1
  show FloatOps.addf (shapeCast S6400x3 x0 shapeCasts_S6400x3_S6400x3 j) (shapeCast S6400x3 x1 shapeCasts_S6400x3_S6400x3 j) = _
  rw [shapeCast_self, shapeCast_self]

/-- What point `t` writes back is block `t` of `h0 + agg` of the arrays as the region finds them. -/
theorem flushed7 (c : Dev nD) (t : Fin cfg7.N) :
    (dat7 V c).flushed 2 t
      = ((cfg7.win 2).blk t).view.read (Elt F) (Cert.Net.plain3 (F := F) (V c main_v113_0) (V c main_v146)) := by
  show (cfg7.win 2).cut (grid7.coords t) ((dat7 V c).after 2 t) = _
  rw [after7_2]
  unfold out7_2
  rw [View.canon_unit_zero zero2_c7]
  simp only [View.ld_unit_zero (S := S6400x3) zero2_c7]
  obtain ⟨e0, e1, e2, e3, e4, e5⟩ := idx7 t
  have h0 : ∀ j, ((cfg7.win 0).blk t).view.emb j = ((cfg7.win 2).blk t).view.emb j := fun j => by
    funext a; apply Fin.ext
    match a with
    | ⟨0, _⟩ => show win7_0.index t (0 : Fin 2) * 6400 + 1 * (j 0).val = win7_2.index t (0 : Fin 2) * 6400 + 1 * (j 0).val; omega
    | ⟨1, _⟩ => show win7_0.index t (1 : Fin 2) * 3 + 1 * (j 1).val = win7_2.index t (1 : Fin 2) * 3 + 1 * (j 1).val; omega
  have h1 : ∀ j, ((cfg7.win 1).blk t).view.emb j = ((cfg7.win 2).blk t).view.emb j := fun j => by
    funext a; apply Fin.ext
    match a with
    | ⟨0, _⟩ => show win7_1.index t (0 : Fin 2) * 6400 + 1 * (j 0).val = win7_2.index t (0 : Fin 2) * 6400 + 1 * (j 0).val; omega
    | ⟨1, _⟩ => show win7_1.index t (1 : Fin 2) * 3 + 1 * (j 1).val = win7_2.index t (1 : Fin 2) * 3 + 1 * (j 1).val; omega
  funext j
  refine (pay7_apply (iblk7 V c 0 t) (iblk7 V c 1 t) j).trans ?_
  show FloatOps.addf (V c main_v113_0 (((cfg7.win 0).blk t).view.emb j)) (V c main_v146 (((cfg7.win 1).blk t).view.emb j)) = _
  rw [h0, h1]
  rfl

/-- An index of the array is in point `t`'s block iff each coordinate is in the block's range on its axis. -/
theorem mem_blk7 (t : Fin cfg7.N) (i : S320000x3.Idx) :
    i ∈ ((cfg7.win 2).blk t).view.set ↔ ∀ a : Fin 2, win7_2.index t a * S6400x3.size a ≤ (i a).val ∧ (i a).val < win7_2.index t a * S6400x3.size a + S6400x3.size a := by
  show i ∈ ((View.whole main_v147).slice (win7_2.rect t)).set ↔ _
  rw [View.set_slice_whole, Rect.mem_set_unit]
  exact Iff.rfl

/-- Every row is in the block of the point numbered by its row block. -/
theorem cover7 (i : S320000x3.Idx) : ∃ t : Fin cfg7.N, (cfg7.win 2).flush t = true ∧ i ∈ ((cfg7.win 2).blk t).view.set := by
  have hi0 : (i 0).val < 320000 := (i 0).isLt
  have hi1 : (i 1).val < 3 := (i 1).isLt
  have hN : cfg7.N = 50 := N_7
  refine ⟨⟨(i 0).val / 6400, by rw [hN]; omega⟩, flush7_2 _, ?_⟩
  rw [mem_blk7]
  obtain ⟨-, -, -, -, e4, e5⟩ := idx7 ⟨(i 0).val / 6400, by rw [hN]; omega⟩
  intro a
  match a with
  | ⟨0, _⟩ => show win7_2.index _ (0 : Fin 2) * 6400 ≤ (i 0).val ∧ (i 0).val < win7_2.index _ (0 : Fin 2) * 6400 + 6400; rw [e4]; show (i 0).val / 6400 * 6400 ≤ _ ∧ _ < (i 0).val / 6400 * 6400 + 6400; omega
  | ⟨1, _⟩ => show win7_2.index _ (1 : Fin 2) * 3 ≤ (i 1).val ∧ (i 1).val < win7_2.index _ (1 : Fin 2) * 3 + 3; rw [e5]; omega

/-- REGION 7: its output array ends at `h0 + agg` of its input arrays as the region finds them. -/
theorem region7 (c : Dev nD) :
    (dat7 V c).arrAt 2 cfg7.N = Cert.Net.plain3 (F := F) (V c main_v113_0) (V c main_v146) :=
  (dat7 V c).arrAt_eq_of_cover 2 _ (fun t _ => flushed7 V c t) cover7

end Cert.KernelIdeal.Net

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.MatBlock.lean ====
/-
  An affine map read at an index, on the extended reals, on both sides of the comparison.

  The kernel's body forms `x_blk · W + b` on a 6400-row block: a matrix-unit product into a zero accumulator plus the
  one-row bias repeated down the rows. The whole-array map forms `x · W + b` on all 320000 rows with the host's
  `dot_general` and a broadcast of the same one-row bias. At an index both are a sum over the 128 contraction
  positions of a row entry times a column entry, plus the bias entry of that column. So the block's element at `j`
  equals the array's element at `i` as soon as row `j 0` of the block is row `i 0` of the array and the columns agree.
  Stated over variable vectors, for output widths 128 and 3.
-/
import proofs.«139470_j6889127543462_1_alg».proof.Proof.Gen.KernelIdeal.Frame
import proofs.«139470_j6889127543462_1_alg».proof.Proof.Spec
import proofs.«139470_j6889127543462_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Net

open Cert.KernelIdeal Cert.KernelIdeal.Gen
open Idealize.ShloMosaic Idealize.ShloMosaic.TcCoe Idealize.ShloMosaic.Pipeline Idealize.SL.Sem
open Idealize.ShloMosaic.ValueIdx

/-! ## Width 128 -/

/-- The block side: product into the zero accumulator plus the repeated one-row bias, at block index `j`. -/
theorem blockAffine128_apply (xb : FVec Ideal S6400x128 .f32) (wb : FVec Ideal S128x128 .f32) (bb : FVec Ideal S1x128 .f32)
    (h1 h2 : (FTy.bf16).bits < (FTy.f32).bits) (hc : S1x128.ShapeCasts S1x128) (hbr : S1x128.Broadcasts S6400x128)
    (j : S6400x128.Idx) :
    addf (matmul dot_S6400x128_S128x128_S6400x128_1_0_0_1_n_n none (truncf .bf16 xb h1) (truncf .bf16 wb h2)
        (constant S6400x128 .f32 0x00000000#32)) (broadcastTo S6400x128 (shapeCast S1x128 bb hc) hbr) j
      = (∑ k : Fin 128, xb (ix2 (j 0) k) * wb (ix2 k (j 1))) + bb (ix2 (0 : Fin 1) (j 1)) := by
  rw [shapeCast_self]
  refine (addf_apply _ _ j).trans ?_
  refine congrArg₂ (· + ·) ?_ ?_
  · exact Cert.PlainDot.matmul_zero_apply 6400 128 128 none (truncf .bf16 xb h1) (truncf .bf16 wb h2) j
  · exact broadcastTo_apply bb hbr j (ix2 (0 : Fin 1) (j 1)) (fun a => match a with
      | ⟨0, _⟩ => by show 0 = if (1 : Nat) = 1 then 0 else _; rw [if_pos rfl]
      | ⟨1, _⟩ => by show (j 1).val = if (128 : Nat) = 1 then 0 else (j 1).val; rw [if_neg (by decide)])

/-- The array side: the host's product plus the broadcast one-row bias, at array index `i`. -/
theorem lin128_apply (X : Cert.Net.X128 Ideal) (W : Cert.Net.W128 Ideal) (B : Cert.Net.R128 Ideal) (i : S320000x128.Idx) :
    Cert.Net.lin128 (F := Ideal) X W B i
      = (∑ k : Fin 128, X (ix2 (i 0) k) * W (ix2 k (i 1))) + B (ix2 (0 : Fin 1) (i 1)) := by
  unfold Cert.Net.lin128
  refine (addf_apply _ _ i).trans ?_
  refine congrArg₂ (· + ·) ?_ ?_
  · exact Cert.PlainDot.dotGeneral_apply 320000 128 128 none .single X W i
  · exact broadcastInDim_apply _ _ B i (ix2 (0 : Fin 1) (i 1)) (fun a => match a with
      | ⟨0, _⟩ => by show 0 = if (1 : Nat) = 1 then 0 else _; rw [if_pos rfl]
      | ⟨1, _⟩ => by show (i 1).val = if (128 : Nat) = 1 then 0 else (i 1).val; rw [if_neg (by decide)])

/-- The block's element at `j` is the array's at `i`, given that the block's row, the weight column and the bias entry read
    there are the array's row, weight column and bias entry. -/
theorem blockAffine128_eq_lin (xb : FVec Ideal S6400x128 .f32) (wb : FVec Ideal S128x128 .f32) (bb : FVec Ideal S1x128 .f32)
    (h1 h2 : (FTy.bf16).bits < (FTy.f32).bits) (hc : S1x128.ShapeCasts S1x128) (hbr : S1x128.Broadcasts S6400x128)
    (X : Cert.Net.X128 Ideal) (W : Cert.Net.W128 Ideal) (B : Cert.Net.R128 Ideal)
    (j : S6400x128.Idx) (i : S320000x128.Idx)
    (hx : ∀ k : Fin 128, xb (ix2 (j 0) k) = X (ix2 (i 0) k))
    (hw : ∀ k : Fin 128, wb (ix2 k (j 1)) = W (ix2 k (i 1)))
    (hb : bb (ix2 (0 : Fin 1) (j 1)) = B (ix2 (0 : Fin 1) (i 1))) :
    addf (matmul dot_S6400x128_S128x128_S6400x128_1_0_0_1_n_n none (truncf .bf16 xb h1) (truncf .bf16 wb h2)
        (constant S6400x128 .f32 0x00000000#32)) (broadcastTo S6400x128 (shapeCast S1x128 bb hc) hbr) j
      = Cert.Net.lin128 (F := Ideal) X W B i := by
  refine (blockAffine128_apply xb wb bb h1 h2 hc hbr j).trans ?_
  refine Eq.trans ?_ (lin128_apply X W B i).symm
  refine congrArg₂ (· + ·) (Finset.sum_congr rfl fun k _ => ?_) hb
  rw [hx k, hw k]

/-! ## Width 3 -/

/-- The block side at width 3. -/
theorem blockAffine3_apply (xb : FVec Ideal S6400x128 .f32) (wb : FVec Ideal S128x3 .f32) (bb : FVec Ideal S1x3 .f32)
    (h1 h2 : (FTy.bf16).bits < (FTy.f32).bits) (hc : S1x3.ShapeCasts S1x3) (hbr : S1x3.Broadcasts S6400x3)
    (j : S6400x3.Idx) :
    addf (matmul dot_S6400x128_S128x3_S6400x3_1_0_0_1_n_n none (truncf .bf16 xb h1) (truncf .bf16 wb h2)
        (constant S6400x3 .f32 0x00000000#32)) (broadcastTo S6400x3 (shapeCast S1x3 bb hc) hbr) j
      = (∑ k : Fin 128, xb (ix2 (j 0) k) * wb (ix2 k (j 1))) + bb (ix2 (0 : Fin 1) (j 1)) := by
  rw [shapeCast_self]
  refine (addf_apply _ _ j).trans ?_
  refine congrArg₂ (· + ·) ?_ ?_
  · exact Cert.PlainDot.matmul_zero_apply 6400 128 3 none (truncf .bf16 xb h1) (truncf .bf16 wb h2) j
  · exact broadcastTo_apply bb hbr j (ix2 (0 : Fin 1) (j 1)) (fun a => match a with
      | ⟨0, _⟩ => by show 0 = if (1 : Nat) = 1 then 0 else _; rw [if_pos rfl]
      | ⟨1, _⟩ => by show (j 1).val = if (3 : Nat) = 1 then 0 else (j 1).val; rw [if_neg (by decide)])

/-- The array side at width 3. -/
theorem lin3_apply (X : Cert.Net.X128 Ideal) (W : Cert.Net.W3 Ideal) (B : Cert.Net.R3 Ideal) (i : S320000x3.Idx) :
    Cert.Net.lin3 (F := Ideal) X W B i
      = (∑ k : Fin 128, X (ix2 (i 0) k) * W (ix2 k (i 1))) + B (ix2 (0 : Fin 1) (i 1)) := by
  unfold Cert.Net.lin3
  refine (addf_apply _ _ i).trans ?_
  refine congrArg₂ (· + ·) ?_ ?_
  · exact Cert.PlainDot.dotGeneral_apply 320000 128 3 none .single X W i
  · exact broadcastInDim_apply _ _ B i (ix2 (0 : Fin 1) (i 1)) (fun a => match a with
      | ⟨0, _⟩ => by show 0 = if (1 : Nat) = 1 then 0 else _; rw [if_pos rfl]
      | ⟨1, _⟩ => by show (i 1).val = if (3 : Nat) = 1 then 0 else (i 1).val; rw [if_neg (by decide)])

/-- The block's element at `j` is the array's at `i`, at width 3, under the same three readings. -/
theorem blockAffine3_eq_lin (xb : FVec Ideal S6400x128 .f32) (wb : FVec Ideal S128x3 .f32) (bb : FVec Ideal S1x3 .f32)
    (h1 h2 : (FTy.bf16).bits < (FTy.f32).bits) (hc : S1x3.ShapeCasts S1x3) (hbr : S1x3.Broadcasts S6400x3)
    (X : Cert.Net.X128 Ideal) (W : Cert.Net.W3 Ideal) (B : Cert.Net.R3 Ideal)
    (j : S6400x3.Idx) (i : S320000x3.Idx)
    (hx : ∀ k : Fin 128, xb (ix2 (j 0) k) = X (ix2 (i 0) k))
    (hw : ∀ k : Fin 128, wb (ix2 k (j 1)) = W (ix2 k (i 1)))
    (hb : bb (ix2 (0 : Fin 1) (j 1)) = B (ix2 (0 : Fin 1) (i 1))) :
    addf (matmul dot_S6400x128_S128x3_S6400x3_1_0_0_1_n_n none (truncf .bf16 xb h1) (truncf .bf16 wb h2)
        (constant S6400x3 .f32 0x00000000#32)) (broadcastTo S6400x3 (shapeCast S1x3 bb hc) hbr) j
      = Cert.Net.lin3 (F := Ideal) X W B i := by
  refine (blockAffine3_apply xb wb bb h1 h2 hc hbr j).trans ?_
  refine Eq.trans ?_ (lin3_apply X W B i).symm
  refine congrArg₂ (· + ·) (Finset.sum_congr rfl fun k _ => ?_) hb
  rw [hx k, hw k]

end Cert.KernelIdeal.Net

end
-- ==== Proof.KMat0.lean ====
/-
  Region 0 (`x·W0 + b0` and `x·W1 + b1` on 6400-row blocks), each output as one whole-array function, on the extended reals.

  The grid has 50 points; point `t` loads rows 6400·t … 6400·t + 6399 of `x`, the whole of both weight matrices and of
  both one-row biases, and writes the same rows of the two outputs. An element of a block's product is a sum over
  the 128 contraction positions of entries of that one row of `x` and one column of `W`, so what point `t` writes back
  is block `t` of the affine map of the whole arrays; the 50 blocks tile the 320000 rows, so each output array ends
  holding that map.
-/
import proofs.«139470_j6889127543462_1_alg».proof.Proof.Gen.KernelIdeal.Frame
import proofs.«139470_j6889127543462_1_alg».proof.Proof.Spec
import proofs.«139470_j6889127543462_1_alg».proof.Proof.LibPlainDot
import proofs.«139470_j6889127543462_1_alg».proof.Proof.MatBlock
import Idealize.ShloMosaic.Lib.Pipeline.Value
import Idealize.ShloMosaic.Lib.ValueIdx

set_option maxRecDepth 16384

noncomputable section

namespace Cert.KernelIdeal.Net

open Cert.KernelIdeal Cert.KernelIdeal.Gen
open Idealize.ShloMosaic Idealize.ShloMosaic.TcCoe Idealize.ShloMosaic.Pipeline Idealize.SL.Sem
open Idealize.ShloMosaic.ValueIdx

variable (V : (c : Dev nD) → (b : Ref sig .tc) → Buf (Elt Ideal) ((c : Thread nD τ).loc b))

theorem zero2_0 : (![0, 0] : Fin 2 → Nat) = fun _ => 0 := funext fun a => by fin_cases a <;> rfl

/-- The index maps, decided over the grid: `x` and both outputs move with the point along the rows, block `t` at row
    block `t`; the weights and biases stay at their one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The payload stored to window 5 at block index `j` is the affine map of the whole arrays at array index `i`, when the
    block's row, weight column and bias entry read there are the arrays'. -/
theorem pay0_a (xb : Vec Ideal S6400x128 .f32) (wb : Vec Ideal S128x128 .f32) (bb : Vec Ideal S1x128 .f32)
    (X : Cert.Net.X128 Ideal) (W : Cert.Net.W128 Ideal) (B : Cert.Net.R128 Ideal) (j : S6400x128.Idx) (i : S320000x128.Idx)
    (hx : ∀ k : Fin 128, xb (ix2 (j 0) k) = X (ix2 (i 0) k))
    (hw : ∀ k : Fin 128, wb (ix2 k (j 1)) = W (ix2 k (i 1)))
    (hb : bb (ix2 (0 : Fin 1) (j 1)) = B (ix2 (0 : Fin 1) (i 1))) :
    k0_pay2 (F := Ideal) xb wb bb j = Cert.Net.lin128 (F := Ideal) X W B i := by
  unfold k0_pay2 k0_pay1
  exact blockAffine128_eq_lin xb wb bb _ _ _ _ X W B j i hx hw hb

/-- The payload stored to window 6 at block index `j` is the affine map of the whole arrays at array index `i`, when the
    block's row, weight column and bias entry read there are the arrays'. -/
theorem pay0_b (xb : Vec Ideal S6400x128 .f32) (wb : Vec Ideal S128x128 .f32) (bb : Vec Ideal S1x128 .f32)
    (X : Cert.Net.X128 Ideal) (W : Cert.Net.W128 Ideal) (B : Cert.Net.R128 Ideal) (j : S6400x128.Idx) (i : S320000x128.Idx)
    (hx : ∀ k : Fin 128, xb (ix2 (j 0) k) = X (ix2 (i 0) k))
    (hw : ∀ k : Fin 128, wb (ix2 k (j 1)) = W (ix2 k (i 1)))
    (hb : bb (ix2 (0 : Fin 1) (j 1)) = B (ix2 (0 : Fin 1) (i 1))) :
    k0_pay3 (F := Ideal) xb wb bb j = Cert.Net.lin128 (F := Ideal) X W B i := by
  unfold k0_pay3 k0_pay1
  exact blockAffine128_eq_lin xb wb bb _ _ _ _ X W B j i hx hw hb

/-- What point `t` writes back to window 5 is block `t` of the affine map of the arrays as the region finds them. -/
theorem flushed0_a (c : Dev nD) (t : Fin cfg0.N) :
    (dat0 (F := Ideal) V c).flushed 5 t
      = ((cfg0.win 5).blk t).view.read (Elt Ideal) (Cert.Net.lin128 (F := Ideal) (V c main_arg0) (V c main_arg2) (V c main_v0)) := by
  show (cfg0.win 5).cut (grid0.coords t) ((dat0 V c).after 5 t) = _
  rw [after0_5]
  unfold out0_5
  rw [View.canon_unit_zero zero2_0]
  simp only [View.ld_unit_zero (S := S6400x128) zero2_0, View.ld_unit_zero (S := S128x128) zero2_0, View.ld_unit_zero (S := S1x128) zero2_0]
  obtain ⟨a00, a01, a10, a11, a20, a21, a30, a31, a40, a41, a50, a51, a60, a61⟩ := idx0 t
  refine funext fun (j : S6400x128.Idx) => ?_
  obtain ⟨i, hi⟩ : ∃ i : S320000x128.Idx, i = ((cfg0.win 5).blk t).view.emb j := ⟨_, rfl⟩
  have hi0 : (i 0).val = win0_5.index t (0 : Fin 2) * 6400 + 1 * (j 0).val := by rw [hi]; rfl
  have hi1 : (i 1).val = win0_5.index t (1 : Fin 2) * 128 + 1 * (j 1).val := by rw [hi]; rfl
  show _ = Cert.Net.lin128 (F := Ideal) (V c main_arg0) (V c main_arg2) (V c main_v0) (((cfg0.win 5).blk t).view.emb j)
  rw [← hi]
  refine pay0_a (iblk0 V c 0 t) (iblk0 V c 1 t) (iblk0 V c 2 t) (V c main_arg0) (V c main_arg2) (V c main_v0) j i ?_ ?_ ?_
  · intro k
    show V c main_arg0 (((cfg0.win 0).blk t).view.emb (ix2 (j 0) k)) = V c main_arg0 (ix2 (i 0) k)
    refine congrArg _ (funext fun a => Fin.ext ?_)
    match a with
    | ⟨0, _⟩ => show win0_0.index t (0 : Fin 2) * 6400 + 1 * (j 0).val = (i 0).val; omega
    | ⟨1, _⟩ => show win0_0.index t (1 : Fin 2) * 128 + 1 * k.val = k.val; omega
  · intro k
    show V c main_arg2 (((cfg0.win 1).blk t).view.emb (ix2 k (j 1))) = V c main_arg2 (ix2 k (i 1))
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = (i 1).val; omega
  · show V c main_v0 (((cfg0.win 2).blk t).view.emb (ix2 (0 : Fin 1) (j 1))) = V c main_v0 (ix2 (0 : Fin 1) (i 1))
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * (j 1).val = (i 1).val; omega

/-- What point `t` writes back to window 6 is block `t` of the affine map of the arrays as the region finds them. -/
theorem flushed0_b (c : Dev nD) (t : Fin cfg0.N) :
    (dat0 (F := Ideal) V c).flushed 6 t
      = ((cfg0.win 6).blk t).view.read (Elt Ideal) (Cert.Net.lin128 (F := Ideal) (V c main_arg0) (V c main_arg4) (V c main_v1)) := by
  show (cfg0.win 6).cut (grid0.coords t) ((dat0 V c).after 6 t) = _
  rw [after0_6]
  unfold out0_6
  rw [View.canon_unit_zero zero2_0]
  simp only [View.ld_unit_zero (S := S6400x128) zero2_0, View.ld_unit_zero (S := S128x128) zero2_0, View.ld_unit_zero (S := S1x128) zero2_0]
  obtain ⟨a00, a01, a10, a11, a20, a21, a30, a31, a40, a41, a50, a51, a60, a61⟩ := idx0 t
  refine funext fun (j : S6400x128.Idx) => ?_
  obtain ⟨i, hi⟩ : ∃ i : S320000x128.Idx, i = ((cfg0.win 6).blk t).view.emb j := ⟨_, rfl⟩
  have hi0 : (i 0).val = win0_6.index t (0 : Fin 2) * 6400 + 1 * (j 0).val := by rw [hi]; rfl
  have hi1 : (i 1).val = win0_6.index t (1 : Fin 2) * 128 + 1 * (j 1).val := by rw [hi]; rfl
  show _ = Cert.Net.lin128 (F := Ideal) (V c main_arg0) (V c main_arg4) (V c main_v1) (((cfg0.win 6).blk t).view.emb j)
  rw [← hi]
  refine pay0_b (iblk0 V c 0 t) (iblk0 V c 3 t) (iblk0 V c 4 t) (V c main_arg0) (V c main_arg4) (V c main_v1) j i ?_ ?_ ?_
  · intro k
    show V c main_arg0 (((cfg0.win 0).blk t).view.emb (ix2 (j 0) k)) = V c main_arg0 (ix2 (i 0) k)
    refine congrArg _ (funext fun a => Fin.ext ?_)
    match a with
    | ⟨0, _⟩ => show win0_0.index t (0 : Fin 2) * 6400 + 1 * (j 0).val = (i 0).val; omega
    | ⟨1, _⟩ => show win0_0.index t (1 : Fin 2) * 128 + 1 * k.val = k.val; omega
  · intro k
    show V c main_arg4 (((cfg0.win 3).blk t).view.emb (ix2 k (j 1))) = V c main_arg4 (ix2 k (i 1))
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * (j 1).val = (i 1).val; omega
  · show V c main_v1 (((cfg0.win 4).blk t).view.emb (ix2 (0 : Fin 1) (j 1))) = V c main_v1 (ix2 (0 : Fin 1) (i 1))
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * (j 1).val = (i 1).val; omega

/-- An index of the array is in point `t`'s block of window 5 iff each coordinate is in the block's range on its axis. -/
theorem mem_blk0_a (t : Fin cfg0.N) (i : S320000x128.Idx) :
    i ∈ ((cfg0.win 5).blk t).view.set ↔ ∀ a : Fin 2, win0_5.index t a * S6400x128.size a ≤ (i a).val ∧ (i a).val < win0_5.index t a * S6400x128.size a + S6400x128.size a := by
  show i ∈ ((View.whole main_v2_0).slice (win0_5.rect t)).set ↔ _
  rw [View.set_slice_whole, Rect.mem_set_unit]
  exact Iff.rfl

/-- Every row is in the block of the point numbered by its row block: row `r` in block `r / 6400`. -/
theorem cover0_a (i : S320000x128.Idx) : ∃ t : Fin cfg0.N, (cfg0.win 5).flush t = true ∧ i ∈ ((cfg0.win 5).blk t).view.set := by
  have hi0 : (i 0).val < 320000 := (i 0).isLt
  have hi1 : (i 1).val < 128 := (i 1).isLt
  have hN : cfg0.N = 50 := N_0
  refine ⟨⟨(i 0).val / 6400, by rw [hN]; omega⟩, flush0_5 _, ?_⟩
  rw [mem_blk0_a]
  obtain ⟨-, -, -, -, -, -, -, -, -, -, a50, a51, a60, a61⟩ := idx0 ⟨(i 0).val / 6400, by rw [hN]; omega⟩
  intro a
  match a with
  | ⟨0, _⟩ => show win0_5.index _ (0 : Fin 2) * 6400 ≤ (i 0).val ∧ (i 0).val < win0_5.index _ (0 : Fin 2) * 6400 + 6400; rw [a50]; show (i 0).val / 6400 * 6400 ≤ _ ∧ _ < (i 0).val / 6400 * 6400 + 6400; omega
  | ⟨1, _⟩ => show win0_5.index _ (1 : Fin 2) * 128 ≤ (i 1).val ∧ (i 1).val < win0_5.index _ (1 : Fin 2) * 128 + 128; rw [a51]; omega

/-- An index of the array is in point `t`'s block of window 6 iff each coordinate is in the block's range on its axis. -/
theorem mem_blk0_b (t : Fin cfg0.N) (i : S320000x128.Idx) :
    i ∈ ((cfg0.win 6).blk t).view.set ↔ ∀ a : Fin 2, win0_6.index t a * S6400x128.size a ≤ (i a).val ∧ (i a).val < win0_6.index t a * S6400x128.size a + S6400x128.size a := by
  show i ∈ ((View.whole main_v2_1).slice (win0_6.rect t)).set ↔ _
  rw [View.set_slice_whole, Rect.mem_set_unit]
  exact Iff.rfl

/-- Every row is in the block of the point numbered by its row block: row `r` in block `r / 6400`. -/
theorem cover0_b (i : S320000x128.Idx) : ∃ t : Fin cfg0.N, (cfg0.win 6).flush t = true ∧ i ∈ ((cfg0.win 6).blk t).view.set := by
  have hi0 : (i 0).val < 320000 := (i 0).isLt
  have hi1 : (i 1).val < 128 := (i 1).isLt
  have hN : cfg0.N = 50 := N_0
  refine ⟨⟨(i 0).val / 6400, by rw [hN]; omega⟩, flush0_6 _, ?_⟩
  rw [mem_blk0_b]
  obtain ⟨-, -, -, -, -, -, -, -, -, -, a50, a51, a60, a61⟩ := idx0 ⟨(i 0).val / 6400, by rw [hN]; omega⟩
  intro a
  match a with
  | ⟨0, _⟩ => show win0_6.index _ (0 : Fin 2) * 6400 ≤ (i 0).val ∧ (i 0).val < win0_6.index _ (0 : Fin 2) * 6400 + 6400; rw [a60]; show (i 0).val / 6400 * 6400 ≤ _ ∧ _ < (i 0).val / 6400 * 6400 + 6400; omega
  | ⟨1, _⟩ => show win0_6.index _ (1 : Fin 2) * 128 ≤ (i 1).val ∧ (i 1).val < win0_6.index _ (1 : Fin 2) * 128 + 128; rw [a61]; omega

/-- REGION 0, window 5: the output array ends at the affine map of the input arrays as the region finds them. -/
theorem region0_a (c : Dev nD) :
    (dat0 (F := Ideal) V c).arrAt 5 cfg0.N = Cert.Net.lin128 (F := Ideal) (V c main_arg0) (V c main_arg2) (V c main_v0) :=
  (dat0 V c).arrAt_eq_of_cover 5 _ (fun t _ => flushed0_a V c t) cover0_a

/-- REGION 0, window 6: the output array ends at the affine map of the input arrays as the region finds them. -/
theorem region0_b (c : Dev nD) :
    (dat0 (F := Ideal) V c).arrAt 6 cfg0.N = Cert.Net.lin128 (F := Ideal) (V c main_arg0) (V c main_arg4) (V c main_v1) :=
  (dat0 V c).arrAt_eq_of_cover 6 _ (fun t _ => flushed0_b V c t) cover0_b

end Cert.KernelIdeal.Net

end
-- ==== Proof.KMat2.lean ====
/-
  Region 2 (`x·W0 + b0` and `x·W1 + b1` on 6400-row blocks), each output as one whole-array function, on the extended reals.

  The grid has 50 points; point `t` loads rows 6400·t … 6400·t + 6399 of `x`, the whole of both weight matrices and of
  both one-row biases, and writes the same rows of the two outputs. An element of a block's product is a sum over
  the 128 contraction positions of entries of that one row of `x` and one column of `W`, so what point `t` writes back
  is block `t` of the affine map of the whole arrays; the 50 blocks tile the 320000 rows, so each output array ends
  holding that map.
-/
import proofs.«139470_j6889127543462_1_alg».proof.Proof.Gen.KernelIdeal.Frame
import proofs.«139470_j6889127543462_1_alg».proof.Proof.Spec
import proofs.«139470_j6889127543462_1_alg».proof.Proof.LibPlainDot
import proofs.«139470_j6889127543462_1_alg».proof.Proof.MatBlock
import Idealize.ShloMosaic.Lib.Pipeline.Value
import Idealize.ShloMosaic.Lib.ValueIdx

set_option maxRecDepth 16384

noncomputable section

namespace Cert.KernelIdeal.Net

open Cert.KernelIdeal Cert.KernelIdeal.Gen
open Idealize.ShloMosaic Idealize.ShloMosaic.TcCoe Idealize.ShloMosaic.Pipeline Idealize.SL.Sem
open Idealize.ShloMosaic.ValueIdx

variable (V : (c : Dev nD) → (b : Ref sig .tc) → Buf (Elt Ideal) ((c : Thread nD τ).loc b))

theorem zero2_2 : (![0, 0] : Fin 2 → Nat) = fun _ => 0 := funext fun a => by fin_cases a <;> rfl

/-- The index maps, decided over the grid: `x` and both outputs move with the point along the rows, block `t` at row
    block `t`; the weights and biases stay at their one block. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- The body re-lays the loaded block to its own shape before narrowing it: that re-laying is the identity. -/
theorem trunc2_eq {F : FTy → Type} [FloatOps F] (v0 : Vec F S6400x128 .f32) : k2_pay1 (F := F) v0 = truncf .bf16 v0 (by decide) := by
  unfold k2_pay1
  show truncf .bf16 (shapeCast S6400x128 v0 _) _ = _
  rw [shapeCast_self]

/-- The payload stored to window 5 at block index `j` is the affine map of the whole arrays at array index `i`, when the
    block's row, weight column and bias entry read there are the arrays'. -/
theorem pay2_a (xb : Vec Ideal S6400x128 .f32) (wb : Vec Ideal S128x128 .f32) (bb : Vec Ideal S1x128 .f32)
    (X : Cert.Net.X128 Ideal) (W : Cert.Net.W128 Ideal) (B : Cert.Net.R128 Ideal) (j : S6400x128.Idx) (i : S320000x128.Idx)
    (hx : ∀ k : Fin 128, xb (ix2 (j 0) k) = X (ix2 (i 0) k))
    (hw : ∀ k : Fin 128, wb (ix2 k (j 1)) = W (ix2 k (i 1)))
    (hb : bb (ix2 (0 : Fin 1) (j 1)) = B (ix2 (0 : Fin 1) (i 1))) :
    k2_pay2 (F := Ideal) xb wb bb j = Cert.Net.lin128 (F := Ideal) X W B i := by
  unfold k2_pay2
  rw [trunc2_eq]
  exact blockAffine128_eq_lin xb wb bb _ _ _ _ X W B j i hx hw hb

/-- The payload stored to window 6 at block index `j` is the affine map of the whole arrays at array index `i`, when the
    block's row, weight column and bias entry read there are the arrays'. -/
theorem pay2_b (xb : Vec Ideal S6400x128 .f32) (wb : Vec Ideal S128x128 .f32) (bb : Vec Ideal S1x128 .f32)
    (X : Cert.Net.X128 Ideal) (W : Cert.Net.W128 Ideal) (B : Cert.Net.R128 Ideal) (j : S6400x128.Idx) (i : S320000x128.Idx)
    (hx : ∀ k : Fin 128, xb (ix2 (j 0) k) = X (ix2 (i 0) k))
    (hw : ∀ k : Fin 128, wb (ix2 k (j 1)) = W (ix2 k (i 1)))
    (hb : bb (ix2 (0 : Fin 1) (j 1)) = B (ix2 (0 : Fin 1) (i 1))) :
    k2_pay3 (F := Ideal) xb wb bb j = Cert.Net.lin128 (F := Ideal) X W B i := by
  unfold k2_pay3
  rw [trunc2_eq]
  exact blockAffine128_eq_lin xb wb bb _ _ _ _ X W B j i hx hw hb

/-- What point `t` writes back to window 5 is block `t` of the affine map of the arrays as the region finds them. -/
theorem flushed2_a (c : Dev nD) (t : Fin cfg2.N) :
    (dat2 (F := Ideal) V c).flushed 5 t
      = ((cfg2.win 5).blk t).view.read (Elt Ideal) (Cert.Net.lin128 (F := Ideal) (V c main_v36) (V c main_arg6) (V c main_v37)) := by
  show (cfg2.win 5).cut (grid2.coords t) ((dat2 V c).after 5 t) = _
  rw [after2_5]
  unfold out2_5
  rw [View.canon_unit_zero zero2_2]
  simp only [View.ld_unit_zero (S := S6400x128) zero2_2, View.ld_unit_zero (S := S128x128) zero2_2, View.ld_unit_zero (S := S1x128) zero2_2]
  obtain ⟨a00, a01, a10, a11, a20, a21, a30, a31, a40, a41, a50, a51, a60, a61⟩ := idx2 t
  refine funext fun (j : S6400x128.Idx) => ?_
  obtain ⟨i, hi⟩ : ∃ i : S320000x128.Idx, i = ((cfg2.win 5).blk t).view.emb j := ⟨_, rfl⟩
  have hi0 : (i 0).val = win2_5.index t (0 : Fin 2) * 6400 + 1 * (j 0).val := by rw [hi]; rfl
  have hi1 : (i 1).val = win2_5.index t (1 : Fin 2) * 128 + 1 * (j 1).val := by rw [hi]; rfl
  show _ = Cert.Net.lin128 (F := Ideal) (V c main_v36) (V c main_arg6) (V c main_v37) (((cfg2.win 5).blk t).view.emb j)
  rw [← hi]
  refine pay2_a (iblk2 V c 0 t) (iblk2 V c 1 t) (iblk2 V c 2 t) (V c main_v36) (V c main_arg6) (V c main_v37) j i ?_ ?_ ?_
  · intro k
    show V c main_v36 (((cfg2.win 0).blk t).view.emb (ix2 (j 0) k)) = V c main_v36 (ix2 (i 0) k)
    refine congrArg _ (funext fun a => Fin.ext ?_)
    match a with
    | ⟨0, _⟩ => show win2_0.index t (0 : Fin 2) * 6400 + 1 * (j 0).val = (i 0).val; omega
    | ⟨1, _⟩ => show win2_0.index t (1 : Fin 2) * 128 + 1 * k.val = k.val; omega
  · intro k
    show V c main_arg6 (((cfg2.win 1).blk t).view.emb (ix2 k (j 1))) = V c main_arg6 (ix2 k (i 1))
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * (j 1).val = (i 1).val; omega
  · show V c main_v37 (((cfg2.win 2).blk t).view.emb (ix2 (0 : Fin 1) (j 1))) = V c main_v37 (ix2 (0 : Fin 1) (i 1))
    refine congrArg _ (funext fun a => Fin.ext ?_)
    match a with
    | ⟨0, _⟩ => show win2_2.index t (0 : Fin 2) * 1 + 1 * 0 = 0; omega
    | ⟨1, _⟩ => show win2_2.index t (1 : Fin 2) * 128 + 1 * (j 1).val = (i 1).val; omega

/-- What point `t` writes back to window 6 is block `t` of the affine map of the arrays as the region finds them. -/
theorem flushed2_b (c : Dev nD) (t : Fin cfg2.N) :
    (dat2 (F := Ideal) V c).flushed 6 t
      = ((cfg2.win 6).blk t).view.read (Elt Ideal) (Cert.Net.lin128 (F := Ideal) (V c main_v36) (V c main_arg8) (V c main_v38)) := by
  show (cfg2.win 6).cut (grid2.coords t) ((dat2 V c).after 6 t) = _
  rw [after2_6]
  unfold out2_6
  rw [View.canon_unit_zero zero2_2]
  simp only [View.ld_unit_zero (S := S6400x128) zero2_2, View.ld_unit_zero (S := S128x128) zero2_2, View.ld_unit_zero (S := S1x128) zero2_2]
  obtain ⟨a00, a01, a10, a11, a20, a21, a30, a31, a40, a41, a50, a51, a60, a61⟩ := idx2 t
  refine funext fun (j : S6400x128.Idx) => ?_
  obtain ⟨i, hi⟩ : ∃ i : S320000x128.Idx, i = ((cfg2.win 6).blk t).view.emb j := ⟨_, rfl⟩
  have hi0 : (i 0).val = win2_6.index t (0 : Fin 2) * 6400 + 1 * (j 0).val := by rw [hi]; rfl
  have hi1 : (i 1).val = win2_6.index t (1 : Fin 2) * 128 + 1 * (j 1).val := by rw [hi]; rfl
  show _ = Cert.Net.lin128 (F := Ideal) (V c main_v36) (V c main_arg8) (V c main_v38) (((cfg2.win 6).blk t).view.emb j)
  rw [← hi]
  refine pay2_b (iblk2 V c 0 t) (iblk2 V c 3 t) (iblk2 V c 4 t) (V c main_v36) (V c main_arg8) (V c main_v38) j i ?_ ?_ ?_
  · intro k
    show V c main_v36 (((cfg2.win 0).blk t).view.emb (ix2 (j 0) k)) = V c main_v36 (ix2 (i 0) k)
    refine congrArg _ (funext fun a => Fin.ext ?_)
    match a with
    | ⟨0, _⟩ => show win2_0.index t (0 : Fin 2) * 6400 + 1 * (j 0).val = (i 0).val; omega
    | ⟨1, _⟩ => show win2_0.index t (1 : Fin 2) * 128 + 1 * k.val = k.val; omega
  · intro k
    show V c main_arg8 (((cfg2.win 3).blk t).view.emb (ix2 k (j 1))) = V c main_arg8 (ix2 k (i 1))
    refine congrArg _ (funext fun a => Fin.ext ?_)
    match a with
    | ⟨0, _⟩ => show win2_3.index t (0 : Fin 2) * 128 + 1 * k.val = k.val; omega
    | ⟨1, _⟩ => show win2_3.index t (1 : Fin 2) * 128 + 1 * (j 1).val = (i 1).val; omega
  · show V c main_v38 (((cfg2.win 4).blk t).view.emb (ix2 (0 : Fin 1) (j 1))) = V c main_v38 (ix2 (0 : Fin 1) (i 1))
    refine congrArg _ (funext fun a => Fin.ext ?_)
    match a with
    | ⟨0, _⟩ => show win2_4.index t (0 : Fin 2) * 1 + 1 * 0 = 0; omega
    | ⟨1, _⟩ => show win2_4.index t (1 : Fin 2) * 128 + 1 * (j 1).val = (i 1).val; omega

/-- An index of the array is in point `t`'s block of window 5 iff each coordinate is in the block's range on its axis. -/
theorem mem_blk2_a (t : Fin cfg2.N) (i : S320000x128.Idx) :
    i ∈ ((cfg2.win 5).blk t).view.set ↔ ∀ a : Fin 2, win2_5.index t a * S6400x128.size a ≤ (i a).val ∧ (i a).val < win2_5.index t a * S6400x128.size a + S6400x128.size a := by
  show i ∈ ((View.whole main_v39_0).slice (win2_5.rect t)).set ↔ _
  rw [View.set_slice_whole, Rect.mem_set_unit]
  exact Iff.rfl

/-- Every row is in the block of the point numbered by its row block: row `r` in block `r / 6400`. -/
theorem cover2_a (i : S320000x128.Idx) : ∃ t : Fin cfg2.N, (cfg2.win 5).flush t = true ∧ i ∈ ((cfg2.win 5).blk t).view.set := by
  have hi0 : (i 0).val < 320000 := (i 0).isLt
  have hi1 : (i 1).val < 128 := (i 1).isLt
  have hN : cfg2.N = 50 := N_2
  refine ⟨⟨(i 0).val / 6400, by rw [hN]; omega⟩, flush2_5 _, ?_⟩
  rw [mem_blk2_a]
  obtain ⟨-, -, -, -, -, -, -, -, -, -, a50, a51, a60, a61⟩ := idx2 ⟨(i 0).val / 6400, by rw [hN]; omega⟩
  intro a
  match a with
  | ⟨0, _⟩ => show win2_5.index _ (0 : Fin 2) * 6400 ≤ (i 0).val ∧ (i 0).val < win2_5.index _ (0 : Fin 2) * 6400 + 6400; rw [a50]; show (i 0).val / 6400 * 6400 ≤ _ ∧ _ < (i 0).val / 6400 * 6400 + 6400; omega
  | ⟨1, _⟩ => show win2_5.index _ (1 : Fin 2) * 128 ≤ (i 1).val ∧ (i 1).val < win2_5.index _ (1 : Fin 2) * 128 + 128; rw [a51]; omega

/-- An index of the array is in point `t`'s block of window 6 iff each coordinate is in the block's range on its axis. -/
theorem mem_blk2_b (t : Fin cfg2.N) (i : S320000x128.Idx) :
    i ∈ ((cfg2.win 6).blk t).view.set ↔ ∀ a : Fin 2, win2_6.index t a * S6400x128.size a ≤ (i a).val ∧ (i a).val < win2_6.index t a * S6400x128.size a + S6400x128.size a := by
  show i ∈ ((View.whole main_v39_1).slice (win2_6.rect t)).set ↔ _
  rw [View.set_slice_whole, Rect.mem_set_unit]
  exact Iff.rfl

/-- Every row is in the block of the point numbered by its row block: row `r` in block `r / 6400`. -/
theorem cover2_b (i : S320000x128.Idx) : ∃ t : Fin cfg2.N, (cfg2.win 6).flush t = true ∧ i ∈ ((cfg2.win 6).blk t).view.set := by
  have hi0 : (i 0).val < 320000 := (i 0).isLt
  have hi1 : (i 1).val < 128 := (i 1).isLt
  have hN : cfg2.N = 50 := N_2
  refine ⟨⟨(i 0).val / 6400, by rw [hN]; omega⟩, flush2_6 _, ?_⟩
  rw [mem_blk2_b]
  obtain ⟨-, -, -, -, -, -, -, -, -, -, a50, a51, a60, a61⟩ := idx2 ⟨(i 0).val / 6400, by rw [hN]; omega⟩
  intro a
  match a with
  | ⟨0, _⟩ => show win2_6.index _ (0 : Fin 2) * 6400 ≤ (i 0).val ∧ (i 0).val < win2_6.index _ (0 : Fin 2) * 6400 + 6400; rw [a60]; show (i 0).val / 6400 * 6400 ≤ _ ∧ _ < (i 0).val / 6400 * 6400 + 6400; omega
  | ⟨1, _⟩ => show win2_6.index _ (1 : Fin 2) * 128 ≤ (i 1).val ∧ (i 1).val < win2_6.index _ (1 : Fin 2) * 128 + 128; rw [a61]; omega

/-- REGION 2, window 5: the output array ends at the affine map of the input arrays as the region finds them. -/
theorem region2_a (c : Dev nD) :
    (dat2 (F := Ideal) V c).arrAt 5 cfg2.N = Cert.Net.lin128 (F := Ideal) (V c main_v36) (V c main_arg6) (V c main_v37) :=
  (dat2 V c).arrAt_eq_of_cover 5 _ (fun t _ => flushed2_a V c t) cover2_a

/-- REGION 2, window 6: the output array ends at the affine map of the input arrays as the region finds them. -/
theorem region2_b (c : Dev nD) :
    (dat2 (F := Ideal) V c).arrAt 6 cfg2.N = Cert.Net.lin128 (F := Ideal) (V c main_v36) (V c main_arg8) (V c main_v38) :=
  (dat2 V c).arrAt_eq_of_cover 6 _ (fun t _ => flushed2_b V c t) cover2_b

end Cert.KernelIdeal.Net

end
-- ==== Proof.KMat4.lean ====
/-
  Region 4 (`x·W0 + b0` and `x·W1 + b1` on 6400-row blocks), each output as one whole-array function, on the extended reals.

  The grid has 50 points; point `t` loads rows 6400·t … 6400·t + 6399 of `x`, the whole of both weight matrices and of
  both one-row biases, and writes the same rows of the two outputs. An element of a block's product is a sum over
  the 128 contraction positions of entries of that one row of `x` and one column of `W`, so what point `t` writes back
  is block `t` of the affine map of the whole arrays; the 50 blocks tile the 320000 rows, so each output array ends
  holding that map.
-/
import proofs.«139470_j6889127543462_1_alg».proof.Proof.Gen.KernelIdeal.Frame
import proofs.«139470_j6889127543462_1_alg».proof.Proof.Spec
import proofs.«139470_j6889127543462_1_alg».proof.Proof.LibPlainDot
import proofs.«139470_j6889127543462_1_alg».proof.Proof.MatBlock
import Idealize.ShloMosaic.Lib.Pipeline.Value
import Idealize.ShloMosaic.Lib.ValueIdx

set_option maxRecDepth 16384

noncomputable section

namespace Cert.KernelIdeal.Net

open Cert.KernelIdeal Cert.KernelIdeal.Gen
open Idealize.ShloMosaic Idealize.ShloMosaic.TcCoe Idealize.ShloMosaic.Pipeline Idealize.SL.Sem
open Idealize.ShloMosaic.ValueIdx

variable (V : (c : Dev nD) → (b : Ref sig .tc) → Buf (Elt Ideal) ((c : Thread nD τ).loc b))

theorem zero2_4 : (![0, 0] : Fin 2 → Nat) = fun _ => 0 := funext fun a => by fin_cases a <;> rfl

/-- The index maps, decided over the grid: `x` and both outputs move with the point along the rows, block `t` at row
    block `t`; the weights and biases stay at their one block. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0 :=
  (by decide +kernel : ∀ t : Fin grid4.N, _)

/-- The body re-lays the loaded block to its own shape before narrowing it: that re-laying is the identity. -/
theorem trunc4_eq {F : FTy → Type} [FloatOps F] (v0 : Vec F S6400x128 .f32) : k4_pay1 (F := F) v0 = truncf .bf16 v0 (by decide) := by
  unfold k4_pay1
  show truncf .bf16 (shapeCast S6400x128 v0 _) _ = _
  rw [shapeCast_self]

/-- The payload stored to window 5 at block index `j` is the affine map of the whole arrays at array index `i`, when the
    block's row, weight column and bias entry read there are the arrays'. -/
theorem pay4_a (xb : Vec Ideal S6400x128 .f32) (wb : Vec Ideal S128x128 .f32) (bb : Vec Ideal S1x128 .f32)
    (X : Cert.Net.X128 Ideal) (W : Cert.Net.W128 Ideal) (B : Cert.Net.R128 Ideal) (j : S6400x128.Idx) (i : S320000x128.Idx)
    (hx : ∀ k : Fin 128, xb (ix2 (j 0) k) = X (ix2 (i 0) k))
    (hw : ∀ k : Fin 128, wb (ix2 k (j 1)) = W (ix2 k (i 1)))
    (hb : bb (ix2 (0 : Fin 1) (j 1)) = B (ix2 (0 : Fin 1) (i 1))) :
    k4_pay2 (F := Ideal) xb wb bb j = Cert.Net.lin128 (F := Ideal) X W B i := by
  unfold k4_pay2
  rw [trunc4_eq]
  exact blockAffine128_eq_lin xb wb bb _ _ _ _ X W B j i hx hw hb

/-- The payload stored to window 6 at block index `j` is the affine map of the whole arrays at array index `i`, when the
    block's row, weight column and bias entry read there are the arrays'. -/
theorem pay4_b (xb : Vec Ideal S6400x128 .f32) (wb : Vec Ideal S128x128 .f32) (bb : Vec Ideal S1x128 .f32)
    (X : Cert.Net.X128 Ideal) (W : Cert.Net.W128 Ideal) (B : Cert.Net.R128 Ideal) (j : S6400x128.Idx) (i : S320000x128.Idx)
    (hx : ∀ k : Fin 128, xb (ix2 (j 0) k) = X (ix2 (i 0) k))
    (hw : ∀ k : Fin 128, wb (ix2 k (j 1)) = W (ix2 k (i 1)))
    (hb : bb (ix2 (0 : Fin 1) (j 1)) = B (ix2 (0 : Fin 1) (i 1))) :
    k4_pay3 (F := Ideal) xb wb bb j = Cert.Net.lin128 (F := Ideal) X W B i := by
  unfold k4_pay3
  rw [trunc4_eq]
  exact blockAffine128_eq_lin xb wb bb _ _ _ _ X W B j i hx hw hb

/-- What point `t` writes back to window 5 is block `t` of the affine map of the arrays as the region finds them. -/
theorem flushed4_a (c : Dev nD) (t : Fin cfg4.N) :
    (dat4 (F := Ideal) V c).flushed 5 t
      = ((cfg4.win 5).blk t).view.read (Elt Ideal) (Cert.Net.lin128 (F := Ideal) (V c main_v73) (V c main_arg10) (V c main_v74)) := by
  show (cfg4.win 5).cut (grid4.coords t) ((dat4 V c).after 5 t) = _
  rw [after4_5]
  unfold out4_5
  rw [View.canon_unit_zero zero2_4]
  simp only [View.ld_unit_zero (S := S6400x128) zero2_4, View.ld_unit_zero (S := S128x128) zero2_4, View.ld_unit_zero (S := S1x128) zero2_4]
  obtain ⟨a00, a01, a10, a11, a20, a21, a30, a31, a40, a41, a50, a51, a60, a61⟩ := idx4 t
  refine funext fun (j : S6400x128.Idx) => ?_
  obtain ⟨i, hi⟩ : ∃ i : S320000x128.Idx, i = ((cfg4.win 5).blk t).view.emb j := ⟨_, rfl⟩
  have hi0 : (i 0).val = win4_5.index t (0 : Fin 2) * 6400 + 1 * (j 0).val := by rw [hi]; rfl
  have hi1 : (i 1).val = win4_5.index t (1 : Fin 2) * 128 + 1 * (j 1).val := by rw [hi]; rfl
  show _ = Cert.Net.lin128 (F := Ideal) (V c main_v73) (V c main_arg10) (V c main_v74) (((cfg4.win 5).blk t).view.emb j)
  rw [← hi]
  refine pay4_a (iblk4 V c 0 t) (iblk4 V c 1 t) (iblk4 V c 2 t) (V c main_v73) (V c main_arg10) (V c main_v74) j i ?_ ?_ ?_
  · intro k
    show V c main_v73 (((cfg4.win 0).blk t).view.emb (ix2 (j 0) k)) = V c main_v73 (ix2 (i 0) k)
    refine congrArg _ (funext fun a => Fin.ext ?_)
    match a with
    | ⟨0, _⟩ => show win4_0.index t (0 : Fin 2) * 6400 + 1 * (j 0).val = (i 0).val; omega
    | ⟨1, _⟩ => show win4_0.index t (1 : Fin 2) * 128 + 1 * k.val = k.val; omega
  · intro k
    show V c main_arg10 (((cfg4.win 1).blk t).view.emb (ix2 k (j 1))) = V c main_arg10 (ix2 k (i 1))
    refine congrArg _ (funext fun a => Fin.ext ?_)
    match a with
    | ⟨0, _⟩ => show win4_1.index t (0 : Fin 2) * 128 + 1 * k.val = k.val; omega
    | ⟨1, _⟩ => show win4_1.index t (1 : Fin 2) * 128 + 1 * (j 1).val = (i 1).val; omega
  · show V c main_v74 (((cfg4.win 2).blk t).view.emb (ix2 (0 : Fin 1) (j 1))) = V c main_v74 (ix2 (0 : Fin 1) (i 1))
    refine congrArg _ (funext fun a => Fin.ext ?_)
    match a with
    | ⟨0, _⟩ => show win4_2.index t (0 : Fin 2) * 1 + 1 * 0 = 0; omega
    | ⟨1, _⟩ => show win4_2.index t (1 : Fin 2) * 128 + 1 * (j 1).val = (i 1).val; omega

/-- What point `t` writes back to window 6 is block `t` of the affine map of the arrays as the region finds them. -/
theorem flushed4_b (c : Dev nD) (t : Fin cfg4.N) :
    (dat4 (F := Ideal) V c).flushed 6 t
      = ((cfg4.win 6).blk t).view.read (Elt Ideal) (Cert.Net.lin128 (F := Ideal) (V c main_v73) (V c main_arg12) (V c main_v75)) := by
  show (cfg4.win 6).cut (grid4.coords t) ((dat4 V c).after 6 t) = _
  rw [after4_6]
  unfold out4_6
  rw [View.canon_unit_zero zero2_4]
  simp only [View.ld_unit_zero (S := S6400x128) zero2_4, View.ld_unit_zero (S := S128x128) zero2_4, View.ld_unit_zero (S := S1x128) zero2_4]
  obtain ⟨a00, a01, a10, a11, a20, a21, a30, a31, a40, a41, a50, a51, a60, a61⟩ := idx4 t
  refine funext fun (j : S6400x128.Idx) => ?_
  obtain ⟨i, hi⟩ : ∃ i : S320000x128.Idx, i = ((cfg4.win 6).blk t).view.emb j := ⟨_, rfl⟩
  have hi0 : (i 0).val = win4_6.index t (0 : Fin 2) * 6400 + 1 * (j 0).val := by rw [hi]; rfl
  have hi1 : (i 1).val = win4_6.index t (1 : Fin 2) * 128 + 1 * (j 1).val := by rw [hi]; rfl
  show _ = Cert.Net.lin128 (F := Ideal) (V c main_v73) (V c main_arg12) (V c main_v75) (((cfg4.win 6).blk t).view.emb j)
  rw [← hi]
  refine pay4_b (iblk4 V c 0 t) (iblk4 V c 3 t) (iblk4 V c 4 t) (V c main_v73) (V c main_arg12) (V c main_v75) j i ?_ ?_ ?_
  · intro k
    show V c main_v73 (((cfg4.win 0).blk t).view.emb (ix2 (j 0) k)) = V c main_v73 (ix2 (i 0) k)
    refine congrArg _ (funext fun a => Fin.ext ?_)
    match a with
    | ⟨0, _⟩ => show win4_0.index t (0 : Fin 2) * 6400 + 1 * (j 0).val = (i 0).val; omega
    | ⟨1, _⟩ => show win4_0.index t (1 : Fin 2) * 128 + 1 * k.val = k.val; omega
  · intro k
    show V c main_arg12 (((cfg4.win 3).blk t).view.emb (ix2 k (j 1))) = V c main_arg12 (ix2 k (i 1))
    refine congrArg _ (funext fun a => Fin.ext ?_)
    match a with
    | ⟨0, _⟩ => show win4_3.index t (0 : Fin 2) * 128 + 1 * k.val = k.val; omega
    | ⟨1, _⟩ => show win4_3.index t (1 : Fin 2) * 128 + 1 * (j 1).val = (i 1).val; omega
  · show V c main_v75 (((cfg4.win 4).blk t).view.emb (ix2 (0 : Fin 1) (j 1))) = V c main_v75 (ix2 (0 : Fin 1) (i 1))
    refine congrArg _ (funext fun a => Fin.ext ?_)
    match a with
    | ⟨0, _⟩ => show win4_4.index t (0 : Fin 2) * 1 + 1 * 0 = 0; omega
    | ⟨1, _⟩ => show win4_4.index t (1 : Fin 2) * 128 + 1 * (j 1).val = (i 1).val; omega

/-- An index of the array is in point `t`'s block of window 5 iff each coordinate is in the block's range on its axis. -/
theorem mem_blk4_a (t : Fin cfg4.N) (i : S320000x128.Idx) :
    i ∈ ((cfg4.win 5).blk t).view.set ↔ ∀ a : Fin 2, win4_5.index t a * S6400x128.size a ≤ (i a).val ∧ (i a).val < win4_5.index t a * S6400x128.size a + S6400x128.size a := by
  show i ∈ ((View.whole main_v76_0).slice (win4_5.rect t)).set ↔ _
  rw [View.set_slice_whole, Rect.mem_set_unit]
  exact Iff.rfl

/-- Every row is in the block of the point numbered by its row block: row `r` in block `r / 6400`. -/
theorem cover4_a (i : S320000x128.Idx) : ∃ t : Fin cfg4.N, (cfg4.win 5).flush t = true ∧ i ∈ ((cfg4.win 5).blk t).view.set := by
  have hi0 : (i 0).val < 320000 := (i 0).isLt
  have hi1 : (i 1).val < 128 := (i 1).isLt
  have hN : cfg4.N = 50 := N_4
  refine ⟨⟨(i 0).val / 6400, by rw [hN]; omega⟩, flush4_5 _, ?_⟩
  rw [mem_blk4_a]
  obtain ⟨-, -, -, -, -, -, -, -, -, -, a50, a51, a60, a61⟩ := idx4 ⟨(i 0).val / 6400, by rw [hN]; omega⟩
  intro a
  match a with
  | ⟨0, _⟩ => show win4_5.index _ (0 : Fin 2) * 6400 ≤ (i 0).val ∧ (i 0).val < win4_5.index _ (0 : Fin 2) * 6400 + 6400; rw [a50]; show (i 0).val / 6400 * 6400 ≤ _ ∧ _ < (i 0).val / 6400 * 6400 + 6400; omega
  | ⟨1, _⟩ => show win4_5.index _ (1 : Fin 2) * 128 ≤ (i 1).val ∧ (i 1).val < win4_5.index _ (1 : Fin 2) * 128 + 128; rw [a51]; omega

/-- An index of the array is in point `t`'s block of window 6 iff each coordinate is in the block's range on its axis. -/
theorem mem_blk4_b (t : Fin cfg4.N) (i : S320000x128.Idx) :
    i ∈ ((cfg4.win 6).blk t).view.set ↔ ∀ a : Fin 2, win4_6.index t a * S6400x128.size a ≤ (i a).val ∧ (i a).val < win4_6.index t a * S6400x128.size a + S6400x128.size a := by
  show i ∈ ((View.whole main_v76_1).slice (win4_6.rect t)).set ↔ _
  rw [View.set_slice_whole, Rect.mem_set_unit]
  exact Iff.rfl

/-- Every row is in the block of the point numbered by its row block: row `r` in block `r / 6400`. -/
theorem cover4_b (i : S320000x128.Idx) : ∃ t : Fin cfg4.N, (cfg4.win 6).flush t = true ∧ i ∈ ((cfg4.win 6).blk t).view.set := by
  have hi0 : (i 0).val < 320000 := (i 0).isLt
  have hi1 : (i 1).val < 128 := (i 1).isLt
  have hN : cfg4.N = 50 := N_4
  refine ⟨⟨(i 0).val / 6400, by rw [hN]; omega⟩, flush4_6 _, ?_⟩
  rw [mem_blk4_b]
  obtain ⟨-, -, -, -, -, -, -, -, -, -, a50, a51, a60, a61⟩ := idx4 ⟨(i 0).val / 6400, by rw [hN]; omega⟩
  intro a
  match a with
  | ⟨0, _⟩ => show win4_6.index _ (0 : Fin 2) * 6400 ≤ (i 0).val ∧ (i 0).val < win4_6.index _ (0 : Fin 2) * 6400 + 6400; rw [a60]; show (i 0).val / 6400 * 6400 ≤ _ ∧ _ < (i 0).val / 6400 * 6400 + 6400; omega
  | ⟨1, _⟩ => show win4_6.index _ (1 : Fin 2) * 128 ≤ (i 1).val ∧ (i 1).val < win4_6.index _ (1 : Fin 2) * 128 + 128; rw [a61]; omega

/-- REGION 4, window 5: the output array ends at the affine map of the input arrays as the region finds them. -/
theorem region4_a (c : Dev nD) :
    (dat4 (F := Ideal) V c).arrAt 5 cfg4.N = Cert.Net.lin128 (F := Ideal) (V c main_v73) (V c main_arg10) (V c main_v74) :=
  (dat4 V c).arrAt_eq_of_cover 5 _ (fun t _ => flushed4_a V c t) cover4_a

/-- REGION 4, window 6: the output array ends at the affine map of the input arrays as the region finds them. -/
theorem region4_b (c : Dev nD) :
    (dat4 (F := Ideal) V c).arrAt 6 cfg4.N = Cert.Net.lin128 (F := Ideal) (V c main_v73) (V c main_arg12) (V c main_v75) :=
  (dat4 V c).arrAt_eq_of_cover 6 _ (fun t _ => flushed4_b V c t) cover4_b

end Cert.KernelIdeal.Net

end
-- ==== Proof.KMat6.lean ====
/-
  Region 6 (`x·W0 + b0` and `x·W1 + b1` on 6400-row blocks, output width 3), each output as one whole-array function, on the extended reals.

  The grid has 50 points; point `t` loads rows 6400·t … 6400·t + 6399 of `x`, the whole of both weight matrices and of
  both one-row biases, and writes the same rows of the two outputs. An element of a block's product is a sum over
  the 128 contraction positions of entries of that one row of `x` and one column of `W`, so what point `t` writes back
  is block `t` of the affine map of the whole arrays; the 50 blocks tile the 320000 rows, so each output array ends
  holding that map.
-/
import proofs.«139470_j6889127543462_1_alg».proof.Proof.Gen.KernelIdeal.Frame
import proofs.«139470_j6889127543462_1_alg».proof.Proof.Spec
import proofs.«139470_j6889127543462_1_alg».proof.Proof.LibPlainDot
import proofs.«139470_j6889127543462_1_alg».proof.Proof.MatBlock
import Idealize.ShloMosaic.Lib.Pipeline.Value
import Idealize.ShloMosaic.Lib.ValueIdx

set_option maxRecDepth 16384

noncomputable section

namespace Cert.KernelIdeal.Net

open Cert.KernelIdeal Cert.KernelIdeal.Gen
open Idealize.ShloMosaic Idealize.ShloMosaic.TcCoe Idealize.ShloMosaic.Pipeline Idealize.SL.Sem
open Idealize.ShloMosaic.ValueIdx

variable (V : (c : Dev nD) → (b : Ref sig .tc) → Buf (Elt Ideal) ((c : Thread nD τ).loc b))

theorem zero2_6 : (![0, 0] : Fin 2 → Nat) = fun _ => 0 := funext fun a => by fin_cases a <;> rfl

/-- The index maps, decided over the grid: `x` and both outputs move with the point along the rows, block `t` at row
    block `t`; the weights and biases stay at their one block. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0
    ∧ win6_6.index t (0 : Fin 2) = t.val ∧ win6_6.index t (1 : Fin 2) = 0 :=
  (by decide +kernel : ∀ t : Fin grid6.N, _)

/-- The body re-lays the loaded block to its own shape before narrowing it: that re-laying is the identity. -/
theorem trunc6_eq {F : FTy → Type} [FloatOps F] (v0 : Vec F S6400x128 .f32) : k6_pay1 (F := F) v0 = truncf .bf16 v0 (by decide) := by
  unfold k6_pay1
  show truncf .bf16 (shapeCast S6400x128 v0 _) _ = _
  rw [shapeCast_self]

/-- The payload stored to window 5 at block index `j` is the affine map of the whole arrays at array index `i`, when the
    block's row, weight column and bias entry read there are the arrays'. -/
theorem pay6_a (xb : Vec Ideal S6400x128 .f32) (wb : Vec Ideal S128x3 .f32) (bb : Vec Ideal S1x3 .f32)
    (X : Cert.Net.X128 Ideal) (W : Cert.Net.W3 Ideal) (B : Cert.Net.R3 Ideal) (j : S6400x3.Idx) (i : S320000x3.Idx)
    (hx : ∀ k : Fin 128, xb (ix2 (j 0) k) = X (ix2 (i 0) k))
    (hw : ∀ k : Fin 128, wb (ix2 k (j 1)) = W (ix2 k (i 1)))
    (hb : bb (ix2 (0 : Fin 1) (j 1)) = B (ix2 (0 : Fin 1) (i 1))) :
    k6_pay2 (F := Ideal) xb wb bb j = Cert.Net.lin3 (F := Ideal) X W B i := by
  unfold k6_pay2
  rw [trunc6_eq]
  exact blockAffine3_eq_lin xb wb bb _ _ _ _ X W B j i hx hw hb

/-- The payload stored to window 6 at block index `j` is the affine map of the whole arrays at array index `i`, when the
    block's row, weight column and bias entry read there are the arrays'. -/
theorem pay6_b (xb : Vec Ideal S6400x128 .f32) (wb : Vec Ideal S128x3 .f32) (bb : Vec Ideal S1x3 .f32)
    (X : Cert.Net.X128 Ideal) (W : Cert.Net.W3 Ideal) (B : Cert.Net.R3 Ideal) (j : S6400x3.Idx) (i : S320000x3.Idx)
    (hx : ∀ k : Fin 128, xb (ix2 (j 0) k) = X (ix2 (i 0) k))
    (hw : ∀ k : Fin 128, wb (ix2 k (j 1)) = W (ix2 k (i 1)))
    (hb : bb (ix2 (0 : Fin 1) (j 1)) = B (ix2 (0 : Fin 1) (i 1))) :
    k6_pay3 (F := Ideal) xb wb bb j = Cert.Net.lin3 (F := Ideal) X W B i := by
  unfold k6_pay3
  rw [trunc6_eq]
  exact blockAffine3_eq_lin xb wb bb _ _ _ _ X W B j i hx hw hb

/-- What point `t` writes back to window 5 is block `t` of the affine map of the arrays as the region finds them. -/
theorem flushed6_a (c : Dev nD) (t : Fin cfg6.N) :
    (dat6 (F := Ideal) V c).flushed 5 t
      = ((cfg6.win 5).blk t).view.read (Elt Ideal) (Cert.Net.lin3 (F := Ideal) (V c main_v110) (V c main_arg14) (V c main_v111)) := by
  show (cfg6.win 5).cut (grid6.coords t) ((dat6 V c).after 5 t) = _
  rw [after6_5]
  unfold out6_5
  rw [View.canon_unit_zero zero2_6]
  simp only [View.ld_unit_zero (S := S6400x128) zero2_6, View.ld_unit_zero (S := S128x3) zero2_6, View.ld_unit_zero (S := S1x3) zero2_6]
  obtain ⟨a00, a01, a10, a11, a20, a21, a30, a31, a40, a41, a50, a51, a60, a61⟩ := idx6 t
  refine funext fun (j : S6400x3.Idx) => ?_
  obtain ⟨i, hi⟩ : ∃ i : S320000x3.Idx, i = ((cfg6.win 5).blk t).view.emb j := ⟨_, rfl⟩
  have hi0 : (i 0).val = win6_5.index t (0 : Fin 2) * 6400 + 1 * (j 0).val := by rw [hi]; rfl
  have hi1 : (i 1).val = win6_5.index t (1 : Fin 2) * 3 + 1 * (j 1).val := by rw [hi]; rfl
  show _ = Cert.Net.lin3 (F := Ideal) (V c main_v110) (V c main_arg14) (V c main_v111) (((cfg6.win 5).blk t).view.emb j)
  rw [← hi]
  refine pay6_a (iblk6 V c 0 t) (iblk6 V c 1 t) (iblk6 V c 2 t) (V c main_v110) (V c main_arg14) (V c main_v111) j i ?_ ?_ ?_
  · intro k
    show V c main_v110 (((cfg6.win 0).blk t).view.emb (ix2 (j 0) k)) = V c main_v110 (ix2 (i 0) k)
    refine congrArg _ (funext fun a => Fin.ext ?_)
    match a with
    | ⟨0, _⟩ => show win6_0.index t (0 : Fin 2) * 6400 + 1 * (j 0).val = (i 0).val; omega
    | ⟨1, _⟩ => show win6_0.index t (1 : Fin 2) * 128 + 1 * k.val = k.val; omega
  · intro k
    show V c main_arg14 (((cfg6.win 1).blk t).view.emb (ix2 k (j 1))) = V c main_arg14 (ix2 k (i 1))
    refine congrArg _ (funext fun a => Fin.ext ?_)
    match a with
    | ⟨0, _⟩ => show win6_1.index t (0 : Fin 2) * 128 + 1 * k.val = k.val; omega
    | ⟨1, _⟩ => show win6_1.index t (1 : Fin 2) * 3 + 1 * (j 1).val = (i 1).val; omega
  · show V c main_v111 (((cfg6.win 2).blk t).view.emb (ix2 (0 : Fin 1) (j 1))) = V c main_v111 (ix2 (0 : Fin 1) (i 1))
    refine congrArg _ (funext fun a => Fin.ext ?_)
    match a with
    | ⟨0, _⟩ => show win6_2.index t (0 : Fin 2) * 1 + 1 * 0 = 0; omega
    | ⟨1, _⟩ => show win6_2.index t (1 : Fin 2) * 3 + 1 * (j 1).val = (i 1).val; omega

/-- What point `t` writes back to window 6 is block `t` of the affine map of the arrays as the region finds them. -/
theorem flushed6_b (c : Dev nD) (t : Fin cfg6.N) :
    (dat6 (F := Ideal) V c).flushed 6 t
      = ((cfg6.win 6).blk t).view.read (Elt Ideal) (Cert.Net.lin3 (F := Ideal) (V c main_v110) (V c main_arg16) (V c main_v112)) := by
  show (cfg6.win 6).cut (grid6.coords t) ((dat6 V c).after 6 t) = _
  rw [after6_6]
  unfold out6_6
  rw [View.canon_unit_zero zero2_6]
  simp only [View.ld_unit_zero (S := S6400x128) zero2_6, View.ld_unit_zero (S := S128x3) zero2_6, View.ld_unit_zero (S := S1x3) zero2_6]
  obtain ⟨a00, a01, a10, a11, a20, a21, a30, a31, a40, a41, a50, a51, a60, a61⟩ := idx6 t
  refine funext fun (j : S6400x3.Idx) => ?_
  obtain ⟨i, hi⟩ : ∃ i : S320000x3.Idx, i = ((cfg6.win 6).blk t).view.emb j := ⟨_, rfl⟩
  have hi0 : (i 0).val = win6_6.index t (0 : Fin 2) * 6400 + 1 * (j 0).val := by rw [hi]; rfl
  have hi1 : (i 1).val = win6_6.index t (1 : Fin 2) * 3 + 1 * (j 1).val := by rw [hi]; rfl
  show _ = Cert.Net.lin3 (F := Ideal) (V c main_v110) (V c main_arg16) (V c main_v112) (((cfg6.win 6).blk t).view.emb j)
  rw [← hi]
  refine pay6_b (iblk6 V c 0 t) (iblk6 V c 3 t) (iblk6 V c 4 t) (V c main_v110) (V c main_arg16) (V c main_v112) j i ?_ ?_ ?_
  · intro k
    show V c main_v110 (((cfg6.win 0).blk t).view.emb (ix2 (j 0) k)) = V c main_v110 (ix2 (i 0) k)
    refine congrArg _ (funext fun a => Fin.ext ?_)
    match a with
    | ⟨0, _⟩ => show win6_0.index t (0 : Fin 2) * 6400 + 1 * (j 0).val = (i 0).val; omega
    | ⟨1, _⟩ => show win6_0.index t (1 : Fin 2) * 128 + 1 * k.val = k.val; omega
  · intro k
    show V c main_arg16 (((cfg6.win 3).blk t).view.emb (ix2 k (j 1))) = V c main_arg16 (ix2 k (i 1))
    refine congrArg _ (funext fun a => Fin.ext ?_)
    match a with
    | ⟨0, _⟩ => show win6_3.index t (0 : Fin 2) * 128 + 1 * k.val = k.val; omega
    | ⟨1, _⟩ => show win6_3.index t (1 : Fin 2) * 3 + 1 * (j 1).val = (i 1).val; omega
  · show V c main_v112 (((cfg6.win 4).blk t).view.emb (ix2 (0 : Fin 1) (j 1))) = V c main_v112 (ix2 (0 : Fin 1) (i 1))
    refine congrArg _ (funext fun a => Fin.ext ?_)
    match a with
    | ⟨0, _⟩ => show win6_4.index t (0 : Fin 2) * 1 + 1 * 0 = 0; omega
    | ⟨1, _⟩ => show win6_4.index t (1 : Fin 2) * 3 + 1 * (j 1).val = (i 1).val; omega

/-- An index of the array is in point `t`'s block of window 5 iff each coordinate is in the block's range on its axis. -/
theorem mem_blk6_a (t : Fin cfg6.N) (i : S320000x3.Idx) :
    i ∈ ((cfg6.win 5).blk t).view.set ↔ ∀ a : Fin 2, win6_5.index t a * S6400x3.size a ≤ (i a).val ∧ (i a).val < win6_5.index t a * S6400x3.size a + S6400x3.size a := by
  show i ∈ ((View.whole main_v113_0).slice (win6_5.rect t)).set ↔ _
  rw [View.set_slice_whole, Rect.mem_set_unit]
  exact Iff.rfl

/-- Every row is in the block of the point numbered by its row block: row `r` in block `r / 6400`. -/
theorem cover6_a (i : S320000x3.Idx) : ∃ t : Fin cfg6.N, (cfg6.win 5).flush t = true ∧ i ∈ ((cfg6.win 5).blk t).view.set := by
  have hi0 : (i 0).val < 320000 := (i 0).isLt
  have hi1 : (i 1).val < 3 := (i 1).isLt
  have hN : cfg6.N = 50 := N_6
  refine ⟨⟨(i 0).val / 6400, by rw [hN]; omega⟩, flush6_5 _, ?_⟩
  rw [mem_blk6_a]
  obtain ⟨-, -, -, -, -, -, -, -, -, -, a50, a51, a60, a61⟩ := idx6 ⟨(i 0).val / 6400, by rw [hN]; omega⟩
  intro a
  match a with
  | ⟨0, _⟩ => show win6_5.index _ (0 : Fin 2) * 6400 ≤ (i 0).val ∧ (i 0).val < win6_5.index _ (0 : Fin 2) * 6400 + 6400; rw [a50]; show (i 0).val / 6400 * 6400 ≤ _ ∧ _ < (i 0).val / 6400 * 6400 + 6400; omega
  | ⟨1, _⟩ => show win6_5.index _ (1 : Fin 2) * 3 ≤ (i 1).val ∧ (i 1).val < win6_5.index _ (1 : Fin 2) * 3 + 3; rw [a51]; omega

/-- An index of the array is in point `t`'s block of window 6 iff each coordinate is in the block's range on its axis. -/
theorem mem_blk6_b (t : Fin cfg6.N) (i : S320000x3.Idx) :
    i ∈ ((cfg6.win 6).blk t).view.set ↔ ∀ a : Fin 2, win6_6.index t a * S6400x3.size a ≤ (i a).val ∧ (i a).val < win6_6.index t a * S6400x3.size a + S6400x3.size a := by
  show i ∈ ((View.whole main_v113_1).slice (win6_6.rect t)).set ↔ _
  rw [View.set_slice_whole, Rect.mem_set_unit]
  exact Iff.rfl

/-- Every row is in the block of the point numbered by its row block: row `r` in block `r / 6400`. -/
theorem cover6_b (i : S320000x3.Idx) : ∃ t : Fin cfg6.N, (cfg6.win 6).flush t = true ∧ i ∈ ((cfg6.win 6).blk t).view.set := by
  have hi0 : (i 0).val < 320000 := (i 0).isLt
  have hi1 : (i 1).val < 3 := (i 1).isLt
  have hN : cfg6.N = 50 := N_6
  refine ⟨⟨(i 0).val / 6400, by rw [hN]; omega⟩, flush6_6 _, ?_⟩
  rw [mem_blk6_b]
  obtain ⟨-, -, -, -, -, -, -, -, -, -, a50, a51, a60, a61⟩ := idx6 ⟨(i 0).val / 6400, by rw [hN]; omega⟩
  intro a
  match a with
  | ⟨0, _⟩ => show win6_6.index _ (0 : Fin 2) * 6400 ≤ (i 0).val ∧ (i 0).val < win6_6.index _ (0 : Fin 2) * 6400 + 6400; rw [a60]; show (i 0).val / 6400 * 6400 ≤ _ ∧ _ < (i 0).val / 6400 * 6400 + 6400; omega
  | ⟨1, _⟩ => show win6_6.index _ (1 : Fin 2) * 3 ≤ (i 1).val ∧ (i 1).val < win6_6.index _ (1 : Fin 2) * 3 + 3; rw [a61]; omega

/-- REGION 6, window 5: the output array ends at the affine map of the input arrays as the region finds them. -/
theorem region6_a (c : Dev nD) :
    (dat6 (F := Ideal) V c).arrAt 5 cfg6.N = Cert.Net.lin3 (F := Ideal) (V c main_v110) (V c main_arg14) (V c main_v111) :=
  (dat6 V c).arrAt_eq_of_cover 5 _ (fun t _ => flushed6_a V c t) cover6_a

/-- REGION 6, window 6: the output array ends at the affine map of the input arrays as the region finds them. -/
theorem region6_b (c : Dev nD) :
    (dat6 (F := Ideal) V c).arrAt 6 cfg6.N = Cert.Net.lin3 (F := Ideal) (V c main_v110) (V c main_arg16) (V c main_v112) :=
  (dat6 V c).arrAt_eq_of_cover 6 _ (fun t _ => flushed6_b V c t) cover6_b

end Cert.KernelIdeal.Net

end
-- ==== Proof.RNet.lean ====
/-
  The reference program's stages are the network of the specification.

  The reference computes, layer by layer, the two affine maps by a whole-array product plus a bias row repeated down
  the rows, the neighbour sum by two gathers and two scatter-adds over the edge list, and the combination; each layer's
  last stage unfolds to the specification's layer of the previous layer's last stage. Nothing here depends on the
  float instance.
-/
import proofs.«139470_j6889127543462_1_alg».proof.Proof.Gen.ReferenceIdeal.Read
import proofs.«139470_j6889127543462_1_alg».proof.Proof.Spec

set_option maxRecDepth 16384

noncomputable section

namespace Cert.Net

open Idealize.ShloMosaic Cert.ReferenceIdeal Cert.ReferenceIdeal.Read

variable {F : FTy → Type} [FloatOps F]

/-- Layer 1: the maximum with zero of `x·W0 + b0` plus the neighbour sum of `x·W1 + b1`. -/
theorem ref_layer1 (x0 : X128 F) (x1 : Edges F) (x2 : W128 F) (x3 : B128 F) (x4 : W128 F) (x5 : B128 F) :
    val_main_v42 (F := F) x0 x1 x2 x3 x4 x5
      = layer128 lin128 lin128 relu128 x0 x1 x2 (row128 x3) x4 (row128 x5) := rfl

/-- Layer 2, of layer 1's result. -/
theorem ref_layer2 (x0 : X128 F) (x1 : Edges F) (x2 : W128 F) (x3 : B128 F) (x4 : W128 F) (x5 : B128 F) (x6 : W128 F) (x7 : B128 F) (x8 : W128 F) (x9 : B128 F) :
    val_main_v85 (F := F) x0 x1 x2 x3 x4 x5 x6 x7 x8 x9
      = layer128 lin128 lin128 relu128 (val_main_v42 (F := F) x0 x1 x2 x3 x4 x5) x1 x6 (row128 x7) x8 (row128 x9) := rfl

/-- Layer 3, of layer 2's result, with the input features added back. -/
theorem ref_layer3 (x0 : X128 F) (x1 : Edges F) (x2 : W128 F) (x3 : B128 F) (x4 : W128 F) (x5 : B128 F) (x6 : W128 F) (x7 : B128 F) (x8 : W128 F) (x9 : B128 F) (x10 : W128 F) (x11 : B128 F) (x12 : W128 F) (x13 : B128 F) :
    val_main_v129 (F := F) x0 x1 x2 x3 x4 x5 x6 x7 x8 x9 x10 x11 x12 x13
      = layerRes128 lin128 lin128 reluRes128 (val_main_v85 (F := F) x0 x1 x2 x3 x4 x5 x6 x7 x8 x9) x0 x1 x10 (row128 x11) x12 (row128 x13) := rfl

/-- Layer 4 (width 3, no maximum), of layer 3's result, re-laid. -/
theorem ref_layer4 (x0 : X128 F) (x1 : Edges F) (x2 : W128 F) (x3 : B128 F) (x4 : W128 F) (x5 : B128 F) (x6 : W128 F) (x7 : B128 F) (x8 : W128 F) (x9 : B128 F) (x10 : W128 F) (x11 : B128 F) (x12 : W128 F) (x13 : B128 F) (x14 : W3 F) (x15 : B3 F) (x16 : W3 F) (x17 : B3 F) :
    val_main_v172 (F := F) x0 x1 x2 x3 x4 x5 x6 x7 x8 x9 x10 x11 x12 x13 x14 x15 x16 x17
      = relay (layer3 lin3 lin3 plain3 (val_main_v129 (F := F) x0 x1 x2 x3 x4 x5 x6 x7 x8 x9 x10 x11 x12 x13) x1 x14 (row3 x15) x16 (row3 x17)) := rfl

/-- The reference's result is the network of its arguments, each bias as a one-row matrix. -/
theorem ref_net (x0 : X128 F) (x1 : Edges F) (x2 : W128 F) (x3 : B128 F) (x4 : W128 F) (x5 : B128 F) (x6 : W128 F) (x7 : B128 F) (x8 : W128 F) (x9 : B128 F) (x10 : W128 F) (x11 : B128 F) (x12 : W128 F) (x13 : B128 F) (x14 : W3 F) (x15 : B3 F) (x16 : W3 F) (x17 : B3 F) :
    val_main_v172 (F := F) x0 x1 x2 x3 x4 x5 x6 x7 x8 x9 x10 x11 x12 x13 x14 x15 x16 x17
      = netRows x0 x1 x2 (row128 x3) x4 (row128 x5) x6 (row128 x7) x8 (row128 x9)
          x10 (row128 x11) x12 (row128 x13) x14 (row3 x15) x16 (row3 x17) := by
  rw [ref_layer4, ref_layer3, ref_layer2, ref_layer1]
  rfl

end Cert.Net

end
-- ==== Proof.Bias.lean ====
/-
  A bias vector as a one-row matrix, two ways.

  Re-laying a vector of length n as a 1×n matrix (a reshape) and broadcasting it to 1×n along the second axis give
  the same matrix: both put entry c of the vector at position (0, c).
-/
import proofs.«139470_j6889127543462_1_alg».proof.Proof.Spec
import Idealize.ShloMosaic.Lib.Pipeline.Value

noncomputable section

namespace Cert.Net

open Idealize.ShloMosaic Cert.ReferenceIdeal Cert.ReferenceIdeal.Gen

variable {F : FTy → Type} [FloatOps F]

/-- Entry `(0, c)` of either one-row matrix is entry `c` of the vector (width 128). -/
theorem relaidRow128_eq (b : B128 F) : relaidRow128 b = row128 b := by
  funext i
  have h1 : (i 1).val < 128 := (i 1).isLt
  have h0 : (i 0).val < 1 := (i 0).isLt
  let k : S128.Idx := fun a => match a with
    | ⟨0, _⟩ => ⟨(i 1).val, (i 1).isLt⟩
  have el : relaidRow128 b i = b k := by
    unfold relaidRow128
    refine shapeCast_apply b _ i k ?_
    rw [Shape.rowMajor_val_one, Shape.rowMajor_val_two]
    show (i 1).val = (i 0).val * 128 + (i 1).val
    omega
  have er : row128 b i = b k := by
    unfold row128
    exact broadcastInDim_apply _ bcast_S128_S1x128_1 b i k (fun a => match a with
      | ⟨0, _⟩ => by show (i 1).val = if (128 : Nat) = 1 then 0 else (i 1).val; rw [if_neg (by decide)])
  rw [el, er]

/-- The same at width 3. -/
theorem relaidRow3_eq (b : B3 F) : relaidRow3 b = row3 b := by
  funext i
  have h1 : (i 1).val < 3 := (i 1).isLt
  have h0 : (i 0).val < 1 := (i 0).isLt
  let k : S3.Idx := fun a => match a with
    | ⟨0, _⟩ => ⟨(i 1).val, (i 1).isLt⟩
  have el : relaidRow3 b i = b k := by
    unfold relaidRow3
    refine shapeCast_apply b _ i k ?_
    rw [Shape.rowMajor_val_one, Shape.rowMajor_val_two]
    show (i 1).val = (i 0).val * 3 + (i 1).val
    omega
  have er : row3 b i = b k := by
    unfold row3
    exact broadcastInDim_apply _ bcast_S3_S1x3_1 b i k (fun a => match a with
      | ⟨0, _⟩ => by show (i 1).val = if (3 : Nat) = 1 then 0 else (i 1).val; rw [if_neg (by decide)])
  rw [el, er]

end Cert.Net

end
-- ==== Proof.lean ====
/-
  The certificate: the kernel, its idealization and the reference each run to the end with their arguments
  unchanged; the idealization changes nothing (its ledger is empty); and at the ideal instance the idealized kernel
  and the reference, from memories agreeing on the arguments, end with the same result array.

  The program is a mesh network of four graph-convolution layers. A layer computes two affine maps of the vertex
  features, `h0 = x·W0 + b0` and `h1 = x·W1 + b1`, sums `h1` over each vertex's neighbours along the edge list, and
  combines: `max (h0 + agg, 0)` in layers 1 and 2, the same plus the input features in layer 3, `h0 + agg` in layer 4
  (width 3), whose result is re-laid as 2×4×40000×3.

  The kernel computes each affine map in a pipelined region over 50 blocks of 6400 rows, the whole contracted axis in
  every block: the block's product into a zero accumulator plus the bias row is, entry by entry, the sum over the 128
  input channels that the reference's whole-array product takes (the truncation of the operands to a shorter float
  format is the identity on extended reals). Each combination is a second region, pointwise on the same blocks. The
  neighbour sums are the same host operations in both programs. So both results are one function of the arguments
  (`Cert.Net.netRows`); no law of arithmetic is used beyond reading both products as the same sum, and the inputs'
  finiteness is never needed.
-/
import proofs.«139470_j6889127543462_1_alg».proof.Defs
import proofs.«139470_j6889127543462_1_alg».proof.Proof.Gen.Kernel
import proofs.«139470_j6889127543462_1_alg».proof.Proof.Gen.Kernel.Skeleton
import proofs.«139470_j6889127543462_1_alg».proof.Proof.Gen.Kernel.Launch
import proofs.«139470_j6889127543462_1_alg».proof.Proof.Gen.Kernel.Points
import proofs.«139470_j6889127543462_1_alg».proof.Proof.Gen.Kernel.Frame
import proofs.«139470_j6889127543462_1_alg».proof.Proof.Gen.KernelIdeal
import proofs.«139470_j6889127543462_1_alg».proof.Proof.Gen.KernelIdeal.Skeleton
import proofs.«139470_j6889127543462_1_alg».proof.Proof.Gen.KernelIdeal.Launch
import proofs.«139470_j6889127543462_1_alg».proof.Proof.Gen.KernelIdeal.Points
import proofs.«139470_j6889127543462_1_alg».proof.Proof.Gen.KernelIdeal.Frame
import proofs.«139470_j6889127543462_1_alg».proof.Proof.Gen.ReferenceIdeal
import proofs.«139470_j6889127543462_1_alg».proof.Proof.Gen.Pre_finite_inputs
import proofs.«139470_j6889127543462_1_alg».proof.Proof.Gen.ReferenceIdeal.Read
import proofs.«139470_j6889127543462_1_alg».proof.Proof.KRun
import proofs.«139470_j6889127543462_1_alg».proof.Proof.KNet
import proofs.«139470_j6889127543462_1_alg».proof.Proof.KComb1
import proofs.«139470_j6889127543462_1_alg».proof.Proof.KComb3
import proofs.«139470_j6889127543462_1_alg».proof.Proof.KComb5
import proofs.«139470_j6889127543462_1_alg».proof.Proof.KComb7
import proofs.«139470_j6889127543462_1_alg».proof.Proof.KMat0
import proofs.«139470_j6889127543462_1_alg».proof.Proof.KMat2
import proofs.«139470_j6889127543462_1_alg».proof.Proof.KMat4
import proofs.«139470_j6889127543462_1_alg».proof.Proof.KMat6
import proofs.«139470_j6889127543462_1_alg».proof.Proof.RNet
import proofs.«139470_j6889127543462_1_alg».proof.Proof.Bias
import Idealize.ShloMosaic.Adequacy
import Idealize.ShloMosaic.Init

set_option maxRecDepth 16384

noncomputable section

namespace Cert.Proof

open Idealize.ShloMosaic Idealize.ShloMosaic.TcCoe Idealize.SL.Sem

/-! ## The three frames and the idealization -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-! ## The idealized kernel's value -/

/-- The idealized kernel's run ends with the result array at the network of the launch arguments (each bias as the
    one-row matrix the reference builds) and the arguments unchanged: the run with the result named at the last
    boundary, that boundary read back through the four layers with each region's whole-array value, and the two
    ways of making a bias row identified. -/
theorem kernel_value (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v148) = Cert.Net.netRows (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (Cert.Net.row128 (m ((c.tc : Thread Cert.KernelIdeal.nD Cert.KernelIdeal.τ).loc Cert.KernelIdeal.main_arg3)))
        (m ((c.tc : Thread Cert.KernelIdeal.nD Cert.KernelIdeal.τ).loc Cert.KernelIdeal.main_arg4))
        (Cert.Net.row128 (m ((c.tc : Thread Cert.KernelIdeal.nD Cert.KernelIdeal.τ).loc Cert.KernelIdeal.main_arg5)))
        (m ((c.tc : Thread Cert.KernelIdeal.nD Cert.KernelIdeal.τ).loc Cert.KernelIdeal.main_arg6))
        (Cert.Net.row128 (m ((c.tc : Thread Cert.KernelIdeal.nD Cert.KernelIdeal.τ).loc Cert.KernelIdeal.main_arg7)))
        (m ((c.tc : Thread Cert.KernelIdeal.nD Cert.KernelIdeal.τ).loc Cert.KernelIdeal.main_arg8))
        (Cert.Net.row128 (m ((c.tc : Thread Cert.KernelIdeal.nD Cert.KernelIdeal.τ).loc Cert.KernelIdeal.main_arg9)))
        (m ((c.tc : Thread Cert.KernelIdeal.nD Cert.KernelIdeal.τ).loc Cert.KernelIdeal.main_arg10))
        (Cert.Net.row128 (m ((c.tc : Thread Cert.KernelIdeal.nD Cert.KernelIdeal.τ).loc Cert.KernelIdeal.main_arg11)))
        (m ((c.tc : Thread Cert.KernelIdeal.nD Cert.KernelIdeal.τ).loc Cert.KernelIdeal.main_arg12))
        (Cert.Net.row128 (m ((c.tc : Thread Cert.KernelIdeal.nD Cert.KernelIdeal.τ).loc Cert.KernelIdeal.main_arg13)))
        (m ((c.tc : Thread Cert.KernelIdeal.nD Cert.KernelIdeal.τ).loc Cert.KernelIdeal.main_arg14))
        (Cert.Net.row3 (m ((c.tc : Thread Cert.KernelIdeal.nD Cert.KernelIdeal.τ).loc Cert.KernelIdeal.main_arg15)))
        (m ((c.tc : Thread Cert.KernelIdeal.nD Cert.KernelIdeal.τ).loc Cert.KernelIdeal.main_arg16))
        (Cert.Net.row3 (m ((c.tc : Thread Cert.KernelIdeal.nD Cert.KernelIdeal.τ).loc Cert.KernelIdeal.main_arg17)))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)) :=
  (θ_run Cert.KernelIdeal.defs _ _).mono (fun r h c => ⟨(h c).1.trans ((Cert.KernelIdeal.Net.W17_net (F := Ideal) m ρ
      Cert.KernelIdeal.Net.region0_a Cert.KernelIdeal.Net.region0_b (Cert.KernelIdeal.Net.region1 (F := Ideal))
      Cert.KernelIdeal.Net.region2_a Cert.KernelIdeal.Net.region2_b (Cert.KernelIdeal.Net.region3 (F := Ideal))
      Cert.KernelIdeal.Net.region4_a Cert.KernelIdeal.Net.region4_b (Cert.KernelIdeal.Net.region5 (F := Ideal))
      Cert.KernelIdeal.Net.region6_a Cert.KernelIdeal.Net.region6_b (Cert.KernelIdeal.Net.region7 (F := Ideal)) c).trans (by
        simp only [Cert.Net.relaidRow128_eq, Cert.Net.relaidRow3_eq])), (h c).2⟩)
    (Cert.KernelIdeal.Net.run_named (F := Ideal) m ρ)

/-! ## The two idealized programs agree -/

/-- From memories agreeing on the arguments both programs end with the network of those arguments: the kernel by
    `kernel_value`, the reference by its run, whose last stage is the same network. -/
theorem algebraic : Cert.algebraic_KernelIdeal_ReferenceIdeal := by
  intro m ρ m' ρ' _ hagree
  refine ⟨fun c => Cert.Net.netRows (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (Cert.Net.row128 (m ((c.tc : Thread Cert.KernelIdeal.nD Cert.KernelIdeal.τ).loc Cert.KernelIdeal.main_arg3)))
        (m ((c.tc : Thread Cert.KernelIdeal.nD Cert.KernelIdeal.τ).loc Cert.KernelIdeal.main_arg4))
        (Cert.Net.row128 (m ((c.tc : Thread Cert.KernelIdeal.nD Cert.KernelIdeal.τ).loc Cert.KernelIdeal.main_arg5)))
        (m ((c.tc : Thread Cert.KernelIdeal.nD Cert.KernelIdeal.τ).loc Cert.KernelIdeal.main_arg6))
        (Cert.Net.row128 (m ((c.tc : Thread Cert.KernelIdeal.nD Cert.KernelIdeal.τ).loc Cert.KernelIdeal.main_arg7)))
        (m ((c.tc : Thread Cert.KernelIdeal.nD Cert.KernelIdeal.τ).loc Cert.KernelIdeal.main_arg8))
        (Cert.Net.row128 (m ((c.tc : Thread Cert.KernelIdeal.nD Cert.KernelIdeal.τ).loc Cert.KernelIdeal.main_arg9)))
        (m ((c.tc : Thread Cert.KernelIdeal.nD Cert.KernelIdeal.τ).loc Cert.KernelIdeal.main_arg10))
        (Cert.Net.row128 (m ((c.tc : Thread Cert.KernelIdeal.nD Cert.KernelIdeal.τ).loc Cert.KernelIdeal.main_arg11)))
        (m ((c.tc : Thread Cert.KernelIdeal.nD Cert.KernelIdeal.τ).loc Cert.KernelIdeal.main_arg12))
        (Cert.Net.row128 (m ((c.tc : Thread Cert.KernelIdeal.nD Cert.KernelIdeal.τ).loc Cert.KernelIdeal.main_arg13)))
        (m ((c.tc : Thread Cert.KernelIdeal.nD Cert.KernelIdeal.τ).loc Cert.KernelIdeal.main_arg14))
        (Cert.Net.row3 (m ((c.tc : Thread Cert.KernelIdeal.nD Cert.KernelIdeal.τ).loc Cert.KernelIdeal.main_arg15)))
        (m ((c.tc : Thread Cert.KernelIdeal.nD Cert.KernelIdeal.τ).loc Cert.KernelIdeal.main_arg16))
        (Cert.Net.row3 (m ((c.tc : Thread Cert.KernelIdeal.nD Cert.KernelIdeal.τ).loc Cert.KernelIdeal.main_arg17))), kernel_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v172_eq, Cert.Net.ref_net]
  obtain ⟨a0, a1, a2, a3, a4, a5, a6, a7, a8, a9, a10, a11, a12, a13, a14, a15, a16, a17⟩ := hagree c
  rw [a0, a1, a2, a3, a4, a5, a6, a7, a8, a9, a10, a11, a12, a13, a14, a15, a16, a17]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
